-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S100000x64 : Shape := ⟨2, ![100000, 64]⟩
abbrev S2x1600000 : Shape := ⟨2, ![2, 1600000]⟩
abbrev S256x128 : Shape := ⟨2, ![256, 128]⟩
abbrev S128 : Shape := ⟨1, ![128]⟩
abbrev S64x128 : Shape := ⟨2, ![64, 128]⟩
abbrev S128x64 : Shape := ⟨2, ![128, 64]⟩
abbrev S64 : Shape := ⟨1, ![64]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S128 .f32) (main_arg9 : FVec F S128x64 .f32) (main_arg10 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg5 : FVec F S64x128 .f32) (main_arg6 : FVec F S128 .f32) (main_arg7 : FVec F S256x128 .f32) (main_arg8 : FVec F S128 .f32) (main_arg9 : FVec F S128x64 .f32) (main_arg10 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg7
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x256 .f32) (main_arg1 : FVec F S100000x64 .f32) (main_arg2 : IVec S2x1600000 32) (main_arg3 : FVec F S256x128 .f32) (main_arg4 : FVec F S128 .f32) (main_arg5 : FVec F S64x128 .f32) (main_arg6 : FVec F S128 .f32) (main_arg7 : FVec F S256x128 .f32) (main_arg8 : FVec F S128 .f32) (main_arg9 : FVec F S128x64 .f32) (main_arg10 : FVec F S64 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x256 : Shape := ⟨2, ![100000, 256]⟩
abbrev S100000x64 : Shape := ⟨2, ![100000, 64]⟩
abbrev S2x1600000 : Shape := ⟨2, ![2, 1600000]⟩
abbrev S256x128 : Shape := ⟨2, ![256, 128]⟩
abbrev S128 : Shape := ⟨1, ![128]⟩
abbrev S64x128 : Shape := ⟨2, ![64, 128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S128x128 : Shape := ⟨2, ![128, 128]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1700000x128 : Shape := ⟨2, ![1700000, 128]⟩
abbrev S1x128 : Shape := ⟨2, ![1, 128]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 100
  | .vmem => 59
  | .smem => 0
  | _ => 0

abbrev bufTy : (tb : Table) → Fin (tcTables nBuf tb) → BufTy
  | .hbm, ⟨0, _⟩ => ⟨S100000x256, .f32⟩
  | .hbm, ⟨1, _⟩ => ⟨S100000x64, .f32⟩
  | .hbm, ⟨2, _⟩ => ⟨S2x1600000, .i32⟩
  | .hbm, ⟨3, _⟩ => ⟨S256x128, .f32⟩
  | .hbm, ⟨4, _⟩ => ⟨S128, .f32⟩
  | .hbm, ⟨5, _⟩ => ⟨S64x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S100000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S1x1600000, .i32⟩
  | .hbm, ⟨16, _⟩ => ⟨S1600000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S256x128, .bf16⟩
  | .hbm, ⟨34, _⟩ => ⟨S64x128, .bf16⟩
  | .hbm, ⟨35, _⟩ => ⟨S128x128, .f32⟩
  | .hbm, ⟨36, _⟩ => ⟨S128x128, .bf16⟩
  | .hbm, ⟨37, _⟩ => ⟨S128x128, .f32⟩
  | .hbm, ⟨38, _⟩ => ⟨S128x128, .bf16⟩
  | .hbm, ⟨39, _⟩ => ⟨S128x64, .bf16⟩
  | .hbm, ⟨40, _⟩ => ⟨S100000x128, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000x128, .f32⟩
  | .hbm, ⟨50, _⟩ => ⟨S_, .f32⟩
  | .hbm, ⟨51, _⟩ => ⟨S100000x128, .f32⟩
  | .hbm, ⟨52, _⟩ => ⟨S1700000x1, .i32⟩
  | .hbm, ⟨53, _⟩ => ⟨S100000x128, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1700000, .i32⟩
  | .hbm, ⟨58, _⟩ => ⟨S1700000, .i1⟩
  | .hbm, ⟨59, _⟩ => ⟨S_, .i32⟩
  | .hbm, ⟨60, _⟩ => ⟨S1700000, .i32⟩
  | .hbm, ⟨61, _⟩ => ⟨S1700000, .i32⟩
  | .hbm, ⟨62, _⟩ => ⟨S1700000, .i32⟩
  | .hbm, ⟨63, _⟩ => ⟨S1700000x1, .i32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S_, .f32⟩
  | .hbm, ⟨81, _⟩ => ⟨S100000x128, .f32⟩
  | .hbm, ⟨82, _⟩ => ⟨S1700000x1, .i32⟩
  | .hbm, ⟨83, _⟩ => ⟨S100000x128, .f32⟩
  | .hbm, ⟨84, _⟩ => ⟨S100000x128, .f32⟩
  | .hbm, ⟨85, _⟩ => ⟨S100000x64, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000x64, .f32⟩
  | .hbm, ⟨95, _⟩ => ⟨S_, .f32⟩
  | .hbm, ⟨96, _⟩ => ⟨S100000x64, .f32⟩
  | .hbm, ⟨97, _⟩ => ⟨S1700000x1, .i32⟩
  | .hbm, ⟨98, _⟩ => ⟨S100000x64, .f32⟩
  | .hbm, ⟨99, _⟩ => ⟨S100000x64, .f32⟩
  | .local _ .vmem, ⟨0, _⟩ => ⟨S5000x256, .f32⟩
  | .local _ .vmem, ⟨1, _⟩ => ⟨S5000x256, .f32⟩
  | .local _ .vmem, ⟨2, _⟩ => ⟨S256x128, .bf16⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x64, .f32⟩
  | .local _ .vmem, ⟨15, _⟩ => ⟨S5000x64, .f32⟩
  | .local _ .vmem, ⟨16, _⟩ => ⟨S64x128, .bf16⟩
  | .local _ .vmem, ⟨17, _⟩ => ⟨S5000x1, .f32⟩
  | .local _ .vmem, ⟨18, _⟩ => ⟨S5000x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x1, .f32⟩
  | .local _ .vmem, ⟨24, _⟩ => ⟨S5000x1, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S128x128, .bf16⟩
  | .local _ .vmem, ⟨33, _⟩ => ⟨S128x128, .bf16⟩
  | .local _ .vmem, ⟨34, _⟩ => ⟨S5000x1, .f32⟩
  | .local _ .vmem, ⟨35, _⟩ => ⟨S5000x1, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x1, .f32⟩
  | .local _ .vmem, ⟨41, _⟩ => ⟨S5000x1, .f32⟩
  | .local _ .vmem, ⟨42, _⟩ => ⟨S128, .f32⟩
  | .local _ .vmem, ⟨43, _⟩ => ⟨S5000x128, .f32⟩
  | .local _ .vmem, ⟨44, _⟩ => ⟨S5000x128, .f32⟩
  | .local _ .vmem, ⟨45, _⟩ => ⟨S5000x128, .f32⟩
  | .local _ .vmem, ⟨46, _⟩ => ⟨S5000x128, .f32⟩
  | .local _ .vmem, ⟨47, _⟩ => ⟨S128x64, .bf16⟩
  | .local _ .vmem, ⟨48, _⟩ => ⟨S5000x1, .f32⟩
  | .local _ .vmem, ⟨49, _⟩ => ⟨S5000x1, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S5000x1, .f32⟩
  | .local _ .vmem, ⟨55, _⟩ => ⟨S5000x1, .f32⟩
  | .local _ .vmem, ⟨56, _⟩ => ⟨S64, .f32⟩
  | .local _ .vmem, ⟨57, _⟩ => ⟨S5000x64, .f32⟩
  | .local _ .vmem, ⟨58, _⟩ => ⟨S5000x64, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | _, _ => false

abbrev semScoped : Fin 0 → Bool
  | ⟨_, h⟩ => absurd h (Nat.not_lt_zero _)

abbrev dmaSemScoped : Fin 59 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | _ => false

abbrev sig : RefSig :=
  ofTc nBuf bufTy 0 59 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c : Ref sig .tc := ⟨.hbm, 41, rfl⟩
abbrev main_v24 : Ref sig .tc := ⟨.hbm, 42, rfl⟩
abbrev main_v25 : Ref sig .tc := ⟨.hbm, 43, rfl⟩
abbrev main_c_3 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_c_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_11 : Ref sig .tc := ⟨.hbm, 86, rfl⟩
abbrev main_v60 : Ref sig .tc := ⟨.hbm, 87, rfl⟩
abbrev main_v61 : Ref sig .tc := ⟨.hbm, 88, rfl⟩
abbrev main_c_12 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg4_1 : Ref sig .tc := ⟨.vmem, 35, rfl⟩
abbrev cc4_stg5_0 : Ref sig .tc := ⟨.vmem, 36, rfl⟩
abbrev cc4_stg5_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg3_1 : Ref sig .tc := ⟨.vmem, 44, rfl⟩
abbrev cc6_stg0_0 : Ref sig .tc := ⟨.vmem, 45, rfl⟩
abbrev cc6_stg0_1 : Ref sig .tc := ⟨.vmem, 46, rfl⟩
abbrev cc6_stg1_0 : Ref sig .tc := ⟨.vmem, 47, rfl⟩
abbrev cc6_stg2_0 : Ref sig .tc := ⟨.vmem, 48, rfl⟩
abbrev cc6_stg2_1 : Ref sig .tc := ⟨.vmem, 49, rfl⟩
abbrev cc6_stg3_0 : Ref sig .tc := ⟨.vmem, 50, rfl⟩
abbrev cc6_stg3_1 : Ref sig .tc := ⟨.vmem, 51, rfl⟩
abbrev cc7_stg0_0 : Ref sig .tc := ⟨.vmem, 52, rfl⟩
abbrev cc7_stg0_1 : Ref sig .tc := ⟨.vmem, 53, rfl⟩
abbrev cc7_stg1_0 : Ref sig .tc := ⟨.vmem, 54, rfl⟩
abbrev cc7_stg1_1 : Ref sig .tc := ⟨.vmem, 55, rfl⟩
abbrev cc7_stg2_0 : Ref sig .tc := ⟨.vmem, 56, rfl⟩
abbrev cc7_stg3_0 : Ref sig .tc := ⟨.vmem, 57, rfl⟩
abbrev cc7_stg3_1 : Ref sig .tc := ⟨.vmem, 58, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem4_0 : DmaSem sig := 34
abbrev cc4_sem4_1 : DmaSem sig := 35
abbrev cc4_sem5_0 : DmaSem sig := 36
abbrev cc4_sem5_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem3_1 : DmaSem sig := 44
abbrev cc6_sem0_0 : DmaSem sig := 45
abbrev cc6_sem0_1 : DmaSem sig := 46
abbrev cc6_sem1_0 : DmaSem sig := 47
abbrev cc6_sem2_0 : DmaSem sig := 48
abbrev cc6_sem2_1 : DmaSem sig := 49
abbrev cc6_sem3_0 : DmaSem sig := 50
abbrev cc6_sem3_1 : DmaSem sig := 51
abbrev cc7_sem0_0 : DmaSem sig := 52
abbrev cc7_sem0_1 : DmaSem sig := 53
abbrev cc7_sem1_0 : DmaSem sig := 54
abbrev cc7_sem1_1 : DmaSem sig := 55
abbrev cc7_sem2_0 : DmaSem sig := 56
abbrev cc7_sem3_0 : DmaSem sig := 57
abbrev cc7_sem3_1 : DmaSem sig := 58

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x1 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x1 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x64 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  bitsLt_bf16_f32 : FTy.bits .bf16 < FTy.bits .f32
  slices_S256x128_S128x128_0_0 : S256x128.Slices ![0, 0] S128x128
  slices_S256x128_S128x128_128_0 : S256x128.Slices ![128, 0] S128x128
  inb_S5000x256_S5000x256_0_0 : ∀ a, (![0, 0] : Fin 2 → Nat) a + S5000x256.size a ≤ S5000x256.size a
  h_S5000x256 : 0 < S5000x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  inb_S128_S128_0 : ∀ a, (![0] : Fin 1 → Nat) a + S128.size a ≤ S128.size a
  h_S128 : 0 < S128.numel
  shapeCasts_S5000x128_S5000x128 : S5000x128.ShapeCasts S5000x128
  shapeCasts_S128_S1x128 : S128.ShapeCasts S1x128
  broadcasts_S1x128_S5000x128 : S1x128.Broadcasts S5000x128
  inb_S5000x64_S5000x64_0_0 : ∀ a, (![0, 0] : Fin 2 → Nat) a + S5000x64.size a ≤ S5000x64.size a
  h_S5000x64 : 0 < S5000x64.numel
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S5000x1_S5000x64 : S5000x1.Broadcasts S5000x64
  bcast_S_S100000x64 : S_.BroadcastsInDim S100000x64 (![] : Fin 0 → Fin S100000x64.rank)
  inb_S64_S64_0 : ∀ a, (![0] : Fin 1 → Nat) a + S64.size a ≤ S64.size a
  h_S64 : 0 < S64.numel
  shapeCasts_S5000x64_S5000x64 : S5000x64.ShapeCasts S5000x64
  shapeCasts_S64_S1x64 : S64.ShapeCasts S1x64
  broadcasts_S1x64_S5000x64 : S1x64.Broadcasts S5000x64
  scatter_S100000_S1700000x1_S1700000_n_0_0_1_wf : ScatterDims.WF S100000 S1700000x1 S1700000 [] [0] [0] 1
  dot_S5000x256_S256x128_S5000x128_1_0_0_1_n_n_wf : DotDims.WF S5000x256 S256x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x64_S64x128_S5000x128_1_0_0_1_n_n_wf : DotDims.WF S5000x64 S64x128 S5000x128 [1] [0] [0] [1] [] []
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x128.size a ≤ S64x128.size a
  hwx2_1 : ∀ i : grid2.Coords, EltTy.bits .bf16 = 32 ∨ (Rect.block (s := S64x128) S64x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128.size a ≤ S128.size a
  hwx3_2 : ∀ i : grid3.Coords, EltTy.bits .f32 = 32 ∨ (Rect.block (s := S128) S128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .bf16 = 32 ∨ (Rect.block (s := S128x128) S128x128.size (cc4_transform_2 i) (hinb4_2 i)).WholeWords (EltTy.packing .bf16)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .bf16 = 32 ∨ (Rect.block (s := S128x128) S128x128.size (cc4_transform_3 i) (hinb4_3 i)).WholeWords (EltTy.packing .bf16)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x1.size a ≤ S100000x1.size a
  hwx4_4 : ∀ i : grid4.Coords, EltTy.bits .f32 = 32 ∨ (Rect.block (s := S100000x1) S5000x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128.size a ≤ S128.size a
  hwx5_2 : ∀ i : grid5.Coords, EltTy.bits .f32 = 32 ∨ (Rect.block (s := S128) S128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .bf16 = 32 ∨ (Rect.block (s := S128x64) S128x64.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x64.size a ≤ S100000x64.size a
  hwx6_3 : ∀ i : grid6.Coords, EltTy.bits .f32 = 32 ∨ (Rect.block (s := S100000x64) S5000x64.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S100000x64.size a
  hwx7_0 : ∀ i : grid7.Coords, EltTy.bits .f32 = 32 ∨ (Rect.block (s := S100000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x1.size a ≤ S100000x1.size a
  hwx7_1 : ∀ i : grid7.Coords, EltTy.bits .f32 = 32 ∨ (Rect.block (s := S100000x1) S5000x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64.size a ≤ S64.size a
  hwx7_2 : ∀ i : grid7.Coords, EltTy.bits .f32 = 32 ∨ (Rect.block (s := S64) S64.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x64.size a ≤ S100000x64.size a
  hwx7_3 : ∀ i : grid7.Coords, EltTy.bits .f32 = 32 ∨ (Rect.block (s := S100000x64) S5000x64.size (cc7_transform_3 i) (hinb7_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v34) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg1) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S64x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v35) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v45) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg6) S128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v34) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v46) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v19) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v21) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v15) S5000x1.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v47) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v57) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v15) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v58) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v58) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v22) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v15) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v59) S5000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v69) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v15) S5000x1.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_arg10) S64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v70) S5000x64.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S100000x256 : Shape := ⟨2, ![100000, 256]⟩
abbrev S100000x64 : Shape := ⟨2, ![100000, 64]⟩
abbrev S2x1600000 : Shape := ⟨2, ![2, 1600000]⟩
abbrev S256x128 : Shape := ⟨2, ![256, 128]⟩
abbrev S128 : Shape := ⟨1, ![128]⟩
abbrev S64x128 : Shape := ⟨2, ![64, 128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S1700000x64 : Shape := ⟨2, ![1700000, 64]⟩
abbrev S1x64 : Shape := ⟨2, ![1, 64]⟩

abbrev nBuf : Space → Nat
  | .hbm => 135
  | .vmem => 0
  | .smem => 0
  | _ => 0

abbrev hbmTy0_0 (i : Nat) : BufTy := match i % 128 with
  | 0 => ⟨S100000x256, .f32⟩
  | 1 => ⟨S100000x64, .f32⟩
  | 2 => ⟨S2x1600000, .i32⟩
  | 3 => ⟨S256x128, .f32⟩
  | 4 => ⟨S128, .f32⟩
  | 5 => ⟨S64x128, .f32⟩
  | 6 => ⟨S128, .f32⟩
  | 7 => ⟨S256x128, .f32⟩
  | 8 => ⟨S128, .f32⟩
  | 9 => ⟨S128x64, .f32⟩
  | 10 => ⟨S64, .f32⟩
  | 11 => ⟨S100000, .i32⟩
  | 12 => ⟨S1x1600000, .i32⟩
  | 13 => ⟨S1600000, .i32⟩
  | 14 => ⟨S1700000, .i32⟩
  | 15 => ⟨S1x1600000, .i32⟩
  | 16 => ⟨S1600000, .i32⟩
  | 17 => ⟨S1700000, .i32⟩
  | 18 => ⟨S_, .f32⟩
  | 19 => ⟨S1700000, .f32⟩
  | 20 => ⟨S_, .f32⟩
  | 21 => ⟨S100000, .f32⟩
  | 22 => ⟨S1700000x1, .i32⟩
  | 23 => ⟨S100000, .f32⟩
  | 24 => ⟨S_, .f32⟩
  | 25 => ⟨S100000, .f32⟩
  | 26 => ⟨S100000, .i1⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x128, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x128, .f32⟩
  | 61 => ⟨S1700000x1, .f32⟩
  | 62 => ⟨S1700000x128, .f32⟩
  | 63 => ⟨S1700000x128, .f32⟩
  | 64 => ⟨S_, .f32⟩
  | 65 => ⟨S100000x128, .f32⟩
  | 66 => ⟨S1700000x1, .i32⟩
  | 67 => ⟨S100000x128, .f32⟩
  | 68 => ⟨S1x128, .f32⟩
  | 69 => ⟨S100000x128, .f32⟩
  | 70 => ⟨S100000x128, .f32⟩
  | 71 => ⟨S100000x128, .f32⟩
  | 72 => ⟨S100000x128, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x128, .f32⟩
  | 82 => ⟨S1700000x1, .f32⟩
  | 83 => ⟨S1700000x128, .f32⟩
  | 84 => ⟨S1700000x128, .f32⟩
  | 85 => ⟨S_, .f32⟩
  | 86 => ⟨S100000x128, .f32⟩
  | 87 => ⟨S1700000x1, .i32⟩
  | 88 => ⟨S100000x128, .f32⟩
  | 89 => ⟨S1x128, .f32⟩
  | 90 => ⟨S100000x128, .f32⟩
  | 91 => ⟨S100000x128, .f32⟩
  | 92 => ⟨S100000x128, .f32⟩
  | 93 => ⟨S100000x256, .f32⟩
  | 94 => ⟨S100000x128, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x128, .f32⟩
  | 104 => ⟨S1700000x1, .f32⟩
  | 105 => ⟨S1700000x128, .f32⟩
  | 106 => ⟨S1700000x128, .f32⟩
  | 107 => ⟨S_, .f32⟩
  | 108 => ⟨S100000x128, .f32⟩
  | 109 => ⟨S1700000x1, .i32⟩
  | 110 => ⟨S100000x128, .f32⟩
  | 111 => ⟨S1x128, .f32⟩
  | 112 => ⟨S100000x128, .f32⟩
  | 113 => ⟨S100000x128, .f32⟩
  | 114 => ⟨S100000x128, .f32⟩
  | 115 => ⟨S100000x64, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000x64, .f32⟩
  | 125 => ⟨S1700000x1, .f32⟩
  | 126 => ⟨S1700000x64, .f32⟩
  | 127 => ⟨S1700000x64, .f32⟩
  | _ => ⟨S100000x256, .f32⟩

abbrev hbmTy0_1 (i : Nat) : BufTy := match i % 128 with
  | 0 => ⟨S_, .f32⟩
  | 1 => ⟨S100000x64, .f32⟩
  | 2 => ⟨S1700000x1, .i32⟩
  | 3 => ⟨S100000x64, .f32⟩
  | 4 => ⟨S1x64, .f32⟩
  | 5 => ⟨S100000x64, .f32⟩
  | 6 => ⟨S100000x64, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_c_9 : Ref sig .tc := ⟨.hbm, 73, rfl⟩
abbrev main_v49 : Ref sig .tc := ⟨.hbm, 74, rfl⟩
abbrev main_v50 : Ref sig .tc := ⟨.hbm, 75, rfl⟩
abbrev main_c_10 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_12 : Ref sig .tc := ⟨.hbm, 95, rfl⟩
abbrev main_v68 : Ref sig .tc := ⟨.hbm, 96, rfl⟩
abbrev main_v69 : Ref sig .tc := ⟨.hbm, 97, rfl⟩
abbrev main_c_13 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_c_15 : Ref sig .tc := ⟨.hbm, 116, rfl⟩
abbrev main_v86 : Ref sig .tc := ⟨.hbm, 117, rfl⟩
abbrev main_v87 : Ref sig .tc := ⟨.hbm, 118, rfl⟩
abbrev main_c_16 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_17 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x64_S64x128_S100000x128_1_0_0_1_n_n_wf : DotDims.WF S100000x64 S64x128 S100000x128 [1] [0] [0] [1] [] []
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's run with its result NAMED. The program is eight kernel launches among stretches of host
  operations; its run is the fold of the buffer contents through the stretches and the launches, and after the last launch
  every unscoped buffer holds what the fold's last valuation says. The generated frame keeps, of that, only that the
  argument arrays end as launched; here the result array's contents are kept as well: they are the last valuation at
  the result buffer.
-/
import proofs.«114380_j16286515987229_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last valuation of
    the fold and the argument arrays as launched. -/
theorem run_named : θ_run defs (onTc (τ := τ) (main (F := F))) ⟨m, fun _ => 0, ρ⟩ (fun r => ∀ c : Dev nD,
      r.2.mem ((c.tc : Thread nD τ).loc main_v70) = W15 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v70 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c)⟩)

end Cert.KernelIdeal.RunValue

end
-- ==== Proof.KernelKeep.lean ====
/-
  Buffers that a step of the program does not write keep their contents through it.

  The program's run is a fold of the buffer contents through stretches of host operations and kernel launches. A launch
  changes only its output array (its input arrays are read through windows that are never written back); a stretch of host
  operations changes only the buffers its operations write. So a buffer holds, when a later step reads it, what the step
  that computed it left in it. The lemmas below say this step by step, and then from the end of the prelude
  (the contents before the first launch) to each later boundary.
-/
import proofs.«114380_j16286515987229_2_alg».proof.Proof.Gen.KernelIdeal.Frame

set_option maxRecDepth 16384

noncomputable section

namespace Cert.KernelIdeal.Keep

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-! ## A launch keeps every buffer but its output -/

theorem reg0 (c : Dev nD) (b : Ref sig .tc) (hb : b ≠ main_v23) :
    W4 m ρ c (Proc.devRef .tc b) = W3 m ρ c (Proc.devRef .tc b) := by
  by_cases h : ∀ w, Pipeline.arrRef spec0 w ≠ b
  · exact W4_of_ne m ρ c b h
  · push Not at h
    obtain ⟨w, rfl⟩ := h
    match w with
    | ⟨0, _⟩ => exact (W4_arr m ρ c 0).trans (((dat0 (V3 m ρ) c).arrAt_in 0 rfl _).trans (A_eq0 (V3 m ρ) c 0))
    | ⟨1, _⟩ => exact (W4_arr m ρ c 1).trans (((dat0 (V3 m ρ) c).arrAt_in 1 rfl _).trans (A_eq0 (V3 m ρ) c 1))
    | ⟨2, _⟩ => exact (W4_arr m ρ c 2).trans (((dat0 (V3 m ρ) c).arrAt_in 2 rfl _).trans (A_eq0 (V3 m ρ) c 2))
    | ⟨3, _⟩ => exact absurd rfl hb

theorem reg1 (c : Dev nD) (b : Ref sig .tc) (hb : b ≠ main_v34) :
    W6 m ρ c (Proc.devRef .tc b) = W5 m ρ c (Proc.devRef .tc b) := by
  by_cases h : ∀ w, Pipeline.arrRef spec1 w ≠ b
  · exact W6_of_ne m ρ c b h
  · push Not at h
    obtain ⟨w, rfl⟩ := h
    match w with
    | ⟨0, _⟩ => exact (W6_arr m ρ c 0).trans (((dat1 (V5 m ρ) c).arrAt_in 0 rfl _).trans (A_eq1 (V5 m ρ) c 0))
    | ⟨1, _⟩ => exact (W6_arr m ρ c 1).trans (((dat1 (V5 m ρ) c).arrAt_in 1 rfl _).trans (A_eq1 (V5 m ρ) c 1))
    | ⟨2, _⟩ => exact (W6_arr m ρ c 2).trans (((dat1 (V5 m ρ) c).arrAt_in 2 rfl _).trans (A_eq1 (V5 m ρ) c 2))
    | ⟨3, _⟩ => exact absurd rfl hb

theorem reg2 (c : Dev nD) (b : Ref sig .tc) (hb : b ≠ main_v35) :
    W7 m ρ c (Proc.devRef .tc b) = W6 m ρ c (Proc.devRef .tc b) := by
  by_cases h : ∀ w, Pipeline.arrRef spec2 w ≠ b
  · exact W7_of_ne m ρ c b h
  · push Not at h
    obtain ⟨w, rfl⟩ := h
    match w with
    | ⟨0, _⟩ => exact (W7_arr m ρ c 0).trans (((dat2 (V6 m ρ) c).arrAt_in 0 rfl _).trans (A_eq2 (V6 m ρ) c 0))
    | ⟨1, _⟩ => exact (W7_arr m ρ c 1).trans (((dat2 (V6 m ρ) c).arrAt_in 1 rfl _).trans (A_eq2 (V6 m ρ) c 1))
    | ⟨2, _⟩ => exact (W7_arr m ρ c 2).trans (((dat2 (V6 m ρ) c).arrAt_in 2 rfl _).trans (A_eq2 (V6 m ρ) c 2))
    | ⟨3, _⟩ => exact absurd rfl hb

theorem reg3 (c : Dev nD) (b : Ref sig .tc) (hb : b ≠ main_v46) :
    W9 m ρ c (Proc.devRef .tc b) = W8 m ρ c (Proc.devRef .tc b) := by
  by_cases h : ∀ w, Pipeline.arrRef spec3 w ≠ b
  · exact W9_of_ne m ρ c b h
  · push Not at h
    obtain ⟨w, rfl⟩ := h
    match w with
    | ⟨0, _⟩ => exact (W9_arr m ρ c 0).trans (((dat3 (V8 m ρ) c).arrAt_in 0 rfl _).trans (A_eq3 (V8 m ρ) c 0))
    | ⟨1, _⟩ => exact (W9_arr m ρ c 1).trans (((dat3 (V8 m ρ) c).arrAt_in 1 rfl _).trans (A_eq3 (V8 m ρ) c 1))
    | ⟨2, _⟩ => exact (W9_arr m ρ c 2).trans (((dat3 (V8 m ρ) c).arrAt_in 2 rfl _).trans (A_eq3 (V8 m ρ) c 2))
    | ⟨3, _⟩ => exact absurd rfl hb

theorem reg4 (c : Dev nD) (b : Ref sig .tc) (hb : b ≠ main_v47) :
    W10 m ρ c (Proc.devRef .tc b) = W9 m ρ c (Proc.devRef .tc b) := by
  by_cases h : ∀ w, Pipeline.arrRef spec4 w ≠ b
  · exact W10_of_ne m ρ c b h
  · push Not at h
    obtain ⟨w, rfl⟩ := h
    match w with
    | ⟨0, _⟩ => exact (W10_arr m ρ c 0).trans (((dat4 (V9 m ρ) c).arrAt_in 0 rfl _).trans (A_eq4 (V9 m ρ) c 0))
    | ⟨1, _⟩ => exact (W10_arr m ρ c 1).trans (((dat4 (V9 m ρ) c).arrAt_in 1 rfl _).trans (A_eq4 (V9 m ρ) c 1))
    | ⟨2, _⟩ => exact (W10_arr m ρ c 2).trans (((dat4 (V9 m ρ) c).arrAt_in 2 rfl _).trans (A_eq4 (V9 m ρ) c 2))
    | ⟨3, _⟩ => exact (W10_arr m ρ c 3).trans (((dat4 (V9 m ρ) c).arrAt_in 3 rfl _).trans (A_eq4 (V9 m ρ) c 3))
    | ⟨4, _⟩ => exact (W10_arr m ρ c 4).trans (((dat4 (V9 m ρ) c).arrAt_in 4 rfl _).trans (A_eq4 (V9 m ρ) c 4))
    | ⟨5, _⟩ => exact absurd rfl hb

theorem reg5 (c : Dev nD) (b : Ref sig .tc) (hb : b ≠ main_v58) :
    W12 m ρ c (Proc.devRef .tc b) = W11 m ρ c (Proc.devRef .tc b) := by
  by_cases h : ∀ w, Pipeline.arrRef spec5 w ≠ b
  · exact W12_of_ne m ρ c b h
  · push Not at h
    obtain ⟨w, rfl⟩ := h
    match w with
    | ⟨0, _⟩ => exact (W12_arr m ρ c 0).trans (((dat5 (V11 m ρ) c).arrAt_in 0 rfl _).trans (A_eq5 (V11 m ρ) c 0))
    | ⟨1, _⟩ => exact (W12_arr m ρ c 1).trans (((dat5 (V11 m ρ) c).arrAt_in 1 rfl _).trans (A_eq5 (V11 m ρ) c 1))
    | ⟨2, _⟩ => exact (W12_arr m ρ c 2).trans (((dat5 (V11 m ρ) c).arrAt_in 2 rfl _).trans (A_eq5 (V11 m ρ) c 2))
    | ⟨3, _⟩ => exact absurd rfl hb

theorem reg6 (c : Dev nD) (b : Ref sig .tc) (hb : b ≠ main_v59) :
    W13 m ρ c (Proc.devRef .tc b) = W12 m ρ c (Proc.devRef .tc b) := by
  by_cases h : ∀ w, Pipeline.arrRef spec6 w ≠ b
  · exact W13_of_ne m ρ c b h
  · push Not at h
    obtain ⟨w, rfl⟩ := h
    match w with
    | ⟨0, _⟩ => exact (W13_arr m ρ c 0).trans (((dat6 (V12 m ρ) c).arrAt_in 0 rfl _).trans (A_eq6 (V12 m ρ) c 0))
    | ⟨1, _⟩ => exact (W13_arr m ρ c 1).trans (((dat6 (V12 m ρ) c).arrAt_in 1 rfl _).trans (A_eq6 (V12 m ρ) c 1))
    | ⟨2, _⟩ => exact (W13_arr m ρ c 2).trans (((dat6 (V12 m ρ) c).arrAt_in 2 rfl _).trans (A_eq6 (V12 m ρ) c 2))
    | ⟨3, _⟩ => exact absurd rfl hb

theorem reg7 (c : Dev nD) (b : Ref sig .tc) (hb : b ≠ main_v70) :
    W15 m ρ c (Proc.devRef .tc b) = W14 m ρ c (Proc.devRef .tc b) := by
  by_cases h : ∀ w, Pipeline.arrRef spec7 w ≠ b
  · exact W15_of_ne m ρ c b h
  · push Not at h
    obtain ⟨w, rfl⟩ := h
    match w with
    | ⟨0, _⟩ => exact (W15_arr m ρ c 0).trans (((dat7 (V14 m ρ) c).arrAt_in 0 rfl _).trans (A_eq7 (V14 m ρ) c 0))
    | ⟨1, _⟩ => exact (W15_arr m ρ c 1).trans (((dat7 (V14 m ρ) c).arrAt_in 1 rfl _).trans (A_eq7 (V14 m ρ) c 1))
    | ⟨2, _⟩ => exact (W15_arr m ρ c 2).trans (((dat7 (V14 m ρ) c).arrAt_in 2 rfl _).trans (A_eq7 (V14 m ρ) c 2))
    | ⟨3, _⟩ => exact absurd rfl hb

/-! ## A stretch of host operations keeps every buffer none of its operations writes -/

/-- The buffers the operations of this stretch write. -/
abbrev wr5 : List (Ref sig .tc) := [main_c, main_v24, main_v25, main_c_3, main_v26, main_v27, main_v28, main_v29, main_v30, main_cst_4, main_v31, main_v32, main_v33]

theorem host5 (c : Dev nD) (b : Ref sig .tc) (hb : b ∉ (wr5 : List (Ref sig .tc))) :
    W5 m ρ c (Proc.devRef .tc b) = W4 m ρ c (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes,
      StableHlo.ternary_writes, Finset.mem_singleton]
    repeat' apply And.intro
    all_goals exact StableHlo.devRef_ne_of_ne (fun e => hb (by subst e; decide))))

/-- The buffers the operations of this stretch write. -/
abbrev wr8 : List (Ref sig .tc) := [main_c_5, main_v36, main_v37, main_c_6, main_v38, main_v39, main_v40, main_v41, main_v42, main_cst_7, main_v43, main_v44, main_v45]

theorem host8 (c : Dev nD) (b : Ref sig .tc) (hb : b ∉ (wr8 : List (Ref sig .tc))) :
    W8 m ρ c (Proc.devRef .tc b) = W7 m ρ c (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes,
      StableHlo.ternary_writes, Finset.mem_singleton]
    repeat' apply And.intro
    all_goals exact StableHlo.devRef_ne_of_ne (fun e => hb (by subst e; decide))))

/-- The buffers the operations of this stretch write. -/
abbrev wr11 : List (Ref sig .tc) := [main_c_8, main_v48, main_v49, main_c_9, main_v50, main_v51, main_v52, main_v53, main_v54, main_cst_10, main_v55, main_v56, main_v57]

theorem host11 (c : Dev nD) (b : Ref sig .tc) (hb : b ∉ (wr11 : List (Ref sig .tc))) :
    W11 m ρ c (Proc.devRef .tc b) = W10 m ρ c (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes,
      StableHlo.ternary_writes, Finset.mem_singleton]
    repeat' apply And.intro
    all_goals exact StableHlo.devRef_ne_of_ne (fun e => hb (by subst e; decide))))

/-- The buffers the operations of this stretch write. -/
abbrev wr14 : List (Ref sig .tc) := [main_c_11, main_v60, main_v61, main_c_12, main_v62, main_v63, main_v64, main_v65, main_v66, main_cst_13, main_v67, main_v68, main_v69]

theorem host14 (c : Dev nD) (b : Ref sig .tc) (hb : b ∉ (wr14 : List (Ref sig .tc))) :
    W14 m ρ c (Proc.devRef .tc b) = W13 m ρ c (Proc.devRef .tc b) :=
  StableHlo.after_of_forall_not_mem (b := Proc.devRef .tc b) _ _ (List.forall_iff_forall_mem.mp (by
    simp only [hostOps7, List.Forall, StableHlo.nullary_writes, StableHlo.unary_writes, StableHlo.binary_writes,
      StableHlo.ternary_writes, Finset.mem_singleton]
    repeat' apply And.intro
    all_goals exact StableHlo.devRef_ne_of_ne (fun e => hb (by subst e; decide))))

/-! ## From the end of the prelude to each later boundary -/

/-- What is written between the end of the prelude and each boundary. -/
abbrev late4 : List (Ref sig .tc) := [main_v23]
abbrev late5 : List (Ref sig .tc) := late4 ++ wr5
abbrev late6 : List (Ref sig .tc) := late5 ++ [main_v34]
abbrev late7 : List (Ref sig .tc) := late6 ++ [main_v35]
abbrev late8 : List (Ref sig .tc) := late7 ++ wr8
abbrev late9 : List (Ref sig .tc) := late8 ++ [main_v46]
abbrev late10 : List (Ref sig .tc) := late9 ++ [main_v47]
abbrev late11 : List (Ref sig .tc) := late10 ++ wr11
abbrev late12 : List (Ref sig .tc) := late11 ++ [main_v58]
abbrev late13 : List (Ref sig .tc) := late12 ++ [main_v59]
abbrev late14 : List (Ref sig .tc) := late13 ++ wr14

variable (c : Dev nD) (b : Ref sig .tc)

theorem to4 (hb : b ∉ (late4 : List (Ref sig .tc))) : W4 m ρ c (Proc.devRef .tc b) = W3 m ρ c (Proc.devRef .tc b) :=
  reg0 m ρ c b (fun e => hb (List.mem_singleton.mpr e))
theorem to5 (hb : b ∉ (late5 : List (Ref sig .tc))) : W5 m ρ c (Proc.devRef .tc b) = W3 m ρ c (Proc.devRef .tc b) :=
  (host5 m ρ c b fun h => hb (List.mem_append_right _ h)).trans (to4 m ρ c b fun h => hb (List.mem_append_left _ h))
theorem to6 (hb : b ∉ (late6 : List (Ref sig .tc))) : W6 m ρ c (Proc.devRef .tc b) = W3 m ρ c (Proc.devRef .tc b) :=
  (reg1 m ρ c b fun e => hb (List.mem_append_right _ (List.mem_singleton.mpr e))).trans (to5 m ρ c b fun h => hb (List.mem_append_left _ h))
theorem to7 (hb : b ∉ (late7 : List (Ref sig .tc))) : W7 m ρ c (Proc.devRef .tc b) = W3 m ρ c (Proc.devRef .tc b) :=
  (reg2 m ρ c b fun e => hb (List.mem_append_right _ (List.mem_singleton.mpr e))).trans (to6 m ρ c b fun h => hb (List.mem_append_left _ h))
theorem to8 (hb : b ∉ (late8 : List (Ref sig .tc))) : W8 m ρ c (Proc.devRef .tc b) = W3 m ρ c (Proc.devRef .tc b) :=
  (host8 m ρ c b fun h => hb (List.mem_append_right _ h)).trans (to7 m ρ c b fun h => hb (List.mem_append_left _ h))
theorem to9 (hb : b ∉ (late9 : List (Ref sig .tc))) : W9 m ρ c (Proc.devRef .tc b) = W3 m ρ c (Proc.devRef .tc b) :=
  (reg3 m ρ c b fun e => hb (List.mem_append_right _ (List.mem_singleton.mpr e))).trans (to8 m ρ c b fun h => hb (List.mem_append_left _ h))
theorem to10 (hb : b ∉ (late10 : List (Ref sig .tc))) : W10 m ρ c (Proc.devRef .tc b) = W3 m ρ c (Proc.devRef .tc b) :=
  (reg4 m ρ c b fun e => hb (List.mem_append_right _ (List.mem_singleton.mpr e))).trans (to9 m ρ c b fun h => hb (List.mem_append_left _ h))
theorem to11 (hb : b ∉ (late11 : List (Ref sig .tc))) : W11 m ρ c (Proc.devRef .tc b) = W3 m ρ c (Proc.devRef .tc b) :=
  (host11 m ρ c b fun h => hb (List.mem_append_right _ h)).trans (to10 m ρ c b fun h => hb (List.mem_append_left _ h))
theorem to12 (hb : b ∉ (late12 : List (Ref sig .tc))) : W12 m ρ c (Proc.devRef .tc b) = W3 m ρ c (Proc.devRef .tc b) :=
  (reg5 m ρ c b fun e => hb (List.mem_append_right _ (List.mem_singleton.mpr e))).trans (to11 m ρ c b fun h => hb (List.mem_append_left _ h))
theorem to13 (hb : b ∉ (late13 : List (Ref sig .tc))) : W13 m ρ c (Proc.devRef .tc b) = W3 m ρ c (Proc.devRef .tc b) :=
  (reg6 m ρ c b fun e => hb (List.mem_append_right _ (List.mem_singleton.mpr e))).trans (to12 m ρ c b fun h => hb (List.mem_append_left _ h))
theorem to14 (hb : b ∉ (late14 : List (Ref sig .tc))) : W14 m ρ c (Proc.devRef .tc b) = W3 m ρ c (Proc.devRef .tc b) :=
  (host14 m ρ c b fun h => hb (List.mem_append_right _ h)).trans (to13 m ρ c b fun h => hb (List.mem_append_left _ h))

/-- The first layer's output, computed by the second launch, is read by the fifth: two launches and a stretch of host
    operations later, none of which writes it. -/
theorem v34_at9 : W9 m ρ c (Proc.devRef .tc main_v34) = W6 m ρ c (Proc.devRef .tc main_v34) :=
  (reg3 m ρ c main_v34 (by decide)).trans ((host8 m ρ c main_v34 (by decide)).trans (reg2 m ρ c main_v34 (by decide)))

end Cert.KernelIdeal.Keep

end
-- ==== Proof.Spec.lean ====
/-
  The two arrangements of one graph-convolution layer, as functions of arrays of extended reals.

  A layer sends node features `x` through a weight matrix, adds up, for every node `i`, the rows of its in-neighbours
  `j` weighted by `d i * d j` (`d` the inverse square root of the degree), adds a bias and maybe applies `tanh`.
  One arrangement scales each row of `x · W` by `d j` BEFORE the rows are gathered and summed and scales the sum by `d i`
  AFTER; the other multiplies each gathered row by the product `d j * d i` and sums. The pieces below are the dense
  stages of the first arrangement, index by index: a product with a weight matrix scaled row by row, the same for an input
  held as two halves with the weight matrix's two halves, and the row scaling with the bias added (with and without
  `tanh`).
-/
import Idealize.ShloMosaic.PureOps.Ideal
import Idealize.ShloMosaic.Lib.ValueIdx

noncomputable section

open scoped BigOperators

namespace Cert.Gcn

open Idealize.ShloMosaic Idealize.ShloMosaic.ValueIdx

/-- An `[a, b]` array of extended reals. -/
abbrev Mat (a b : Nat) : Type := (⟨2, ![a, b]⟩ : Shape).Idx → EReal
/-- An `[a]` array of extended reals. -/
abbrev Arr (a : Nat) : Type := (⟨1, ![a]⟩ : Shape).Idx → EReal

/-- Row `r` of `x · w`, scaled by the row's factor `dcol (r, 0)`. -/
def scaledProduct {n din dout : Nat} (x : Mat n din) (w : Mat din dout) (dcol : Mat n 1) : Mat n dout :=
  fun i => dcol (ix2 (i 0) (0 : Fin 1)) * ∑ k : Fin din, x (ix2 (i 0) k) * w (ix2 k (i 1))

/-- Row `r` of `f · wt + g · wb` (the product of the row `[f r, g r]` with the stacked matrix `[wt; wb]`, taken half by half),
    scaled by the row's factor. -/
def scaledProduct2 {n d dout : Nat} (f g : Mat n d) (wt wb : Mat d dout) (dcol : Mat n 1) : Mat n dout :=
  fun i => dcol (ix2 (i 0) (0 : Fin 1)) *
    ((∑ k : Fin d, f (ix2 (i 0) k) * wt (ix2 k (i 1))) + ∑ k : Fin d, g (ix2 (i 0) k) * wb (ix2 k (i 1)))

/-- Each row of `agg` scaled by its factor, the bias added column by column, then `tanh`. -/
def scaleBiasTanh {n d : Nat} (agg : Mat n d) (dcol : Mat n 1) (b : Arr d) : Mat n d :=
  fun i => Ideal.tanh (dcol (ix2 (i 0) (0 : Fin 1)) * agg i + b (ix1 (i 1)))

/-- Each row of `agg` scaled by its factor and the bias added column by column. -/
def scaleBias {n d : Nat} (agg : Mat n d) (dcol : Mat n 1) (b : Arr d) : Mat n d :=
  fun i => dcol (ix2 (i 0) (0 : Fin 1)) * agg i + b (ix1 (i 1))

end Cert.Gcn

end
-- ==== Proof.KernelTerm.lean ====
/-
  The idealized kernel's result as ONE term of its argument arrays.

  The program is a four-layer graph convolution. Its prelude reads the edge list into the messages' sources and targets
  (every node also sends to itself), counts each node's incoming messages (`deg`) and sets `dinv = 1 / sqrt deg` where
  `deg > 0`, else `0`. A layer multiplies the node features by a weight matrix and scales row `j` by `dinv j` (one
  launch), gathers the scaled rows along the messages and sums them into their targets (host operations), then scales row
  `i` of the sums by `dinv i`, adds the bias and applies `tanh` (a second launch). Layers one and two feed layer three, whose
  weight matrix is used half by half; layer four has no `tanh`.
-/
import proofs.«114380_j16286515987229_2_alg».proof.Proof.Gen.KernelIdeal
import proofs.«114380_j16286515987229_2_alg».proof.Proof.Spec
import Idealize.ShloMosaic.PureOps.Ideal

noncomputable section

namespace Cert.KernelIdeal.Term

open Cert.KernelIdeal Cert.KernelIdeal.Facts₀ Cert.KernelIdeal.Facts Cert.Gcn
open Idealize.ShloMosaic

/-- The messages' sources: row 0 of the edge list, then every node (its message to itself). -/
def src1 (x2 : IVec S2x1600000 32) : IVec S1700000 32 :=
  concatenate S1700000 0
    [⟨S1600000, shapeCast S1600000 (extractStridedSlice S1x1600000 ![0, 0] x2 slices_S2x1600000_S1x1600000_0_0)
        shapeCasts_S1x1600000_S1600000⟩,
      ⟨S100000, iotaInDim S100000 32 0⟩]
    concatenates_S1600000_S100000_S1700000_d0

/-- The messages' targets: row 1 of the edge list, then every node. -/
def dst1 (x2 : IVec S2x1600000 32) : IVec S1700000 32 :=
  concatenate S1700000 0
    [⟨S1600000, shapeCast S1600000 (extractStridedSlice S1x1600000 ![1, 0] x2 slices_S2x1600000_S1x1600000_1_0)
        shapeCasts_S1x1600000_S1600000⟩,
      ⟨S100000, iotaInDim S100000 32 0⟩]
    concatenates_S1600000_S100000_S1700000_d0

/-- The number of messages into each node. -/
def deg (x2 : IVec S2x1600000 32) : FVec Ideal S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dst1 x2))
    (broadcastInDim S1700000 ![] bcast_S_S1700000 (constant S_ .f32 0x3F800000#32))

/-- `1 / sqrt deg` where `deg > 0`, else `0`. -/
def dinv (x2 : IVec S2x1600000 32) : FVec Ideal S100000 .f32 :=
  select (cmpf .ogt (deg x2) (broadcastInDim S100000 ![] bcast_S_S100000 (constant S_ .f32 0x00000000#32)))
    (Host.rsqrt (deg x2))
    (broadcastInDim S100000 ![] bcast_S_S100000 (constant S_ .f32 0x00000000#32))

/-- The same as a column. -/
def dcol (x2 : IVec S2x1600000 32) : FVec Ideal S100000x1 .f32 :=
  broadcastInDim S100000x1 ![0] bcast_S100000_S100000x1_0 (dinv x2)

/-- Rows of 128 entries gathered at the messages' sources (negative indices wrapped once, as array indexing does)
    and summed into the messages' targets. -/
def agg128 (rows : FVec Ideal S100000x128 .f32) (v3 v6 : IVec S1700000 32) : FVec Ideal S100000x128 .f32 :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 v6)
    (Host.gather gather_S100000x128_S1700000x1_S1700000x128_1_0_n_n_0_1_1128 rows
      (broadcastInDim S1700000x1 ![0] bcast_S1700000_S1700000x1_0
        (select (cmpi .slt v3 (broadcastInDim S1700000 ![] bcast_S_S1700000 (constantI S_ 32 0#32)))
          (addi v3 (broadcastInDim S1700000 ![] bcast_S_S1700000 (constantI S_ 32 100000#32))) v3)))

/-- The same for rows of 64 entries. -/
def agg64 (rows : FVec Ideal S100000x64 .f32) (v3 v6 : IVec S1700000 32) : FVec Ideal S100000x64 .f32 :=
  Host.scatterAdd scatter_S100000x64_S1700000x1_S1700000x64_1_0_0_1
    (broadcastInDim S100000x64 ![] bcast_S_S100000x64 (constant S_ .f32 0x00000000#32))
    (broadcastInDim S1700000x1 ![0] bcast_S1700000_S1700000x1_0 v6)
    (Host.gather gather_S100000x64_S1700000x1_S1700000x64_1_0_n_n_0_1_164 rows
      (broadcastInDim S1700000x1 ![0] bcast_S1700000_S1700000x1_0
        (select (cmpi .slt v3 (broadcastInDim S1700000 ![] bcast_S_S1700000 (constantI S_ 32 0#32)))
          (addi v3 (broadcastInDim S1700000 ![] bcast_S_S1700000 (constantI S_ 32 100000#32))) v3)))

section Layers

variable (x0 : FVec Ideal S100000x256 .f32) (x1 : FVec Ideal S100000x64 .f32) (x2 : IVec S2x1600000 32)
  (x3 : FVec Ideal S256x128 .f32) (x4 : FVec Ideal S128 .f32) (x5 : FVec Ideal S64x128 .f32) (x6 : FVec Ideal S128 .f32)
  (x7 : FVec Ideal S256x128 .f32) (x8 : FVec Ideal S128 .f32) (x9 : FVec Ideal S128x64 .f32) (x10 : FVec Ideal S64 .f32)

/-- Layer one's scaled rows: `dinv j * (x0 j · W)`. -/
def rows1 : FVec Ideal S100000x128 .f32 :=
  scaledProduct (n := 100000) (din := 256) (dout := 128) x0 (truncf .bf16 x3 bitsLt_bf16_f32) (dcol x2)

/-- Layer one: features to hidden. -/
def layer1 : FVec Ideal S100000x128 .f32 :=
  scaleBiasTanh (n := 100000) (d := 128) (agg128 (rows1 x0 x2 x3) (src1 x2) (dst1 x2)) (dcol x2) x4

/-- Layer two's scaled rows. -/
def rows2 : FVec Ideal S100000x128 .f32 :=
  scaledProduct (n := 100000) (din := 64) (dout := 128) x1 (truncf .bf16 x5 bitsLt_bf16_f32) (dcol x2)

/-- Layer two: conditions to hidden. -/
def layer2 : FVec Ideal S100000x128 .f32 :=
  scaleBiasTanh (n := 100000) (d := 128) (agg128 (rows2 x1 x2 x5) (src1 x2) (dst1 x2)) (dcol x2) x6

/-- Layer three's scaled rows: the two hidden arrays, side by side, times the weight matrix, whose upper half meets the
    first array and whose lower half the second. -/
def rows3 : FVec Ideal S100000x128 .f32 :=
  scaledProduct2 (n := 100000) (d := 128) (dout := 128) (layer1 x0 x2 x3 x4) (layer2 x1 x2 x5 x6)
    (truncf .bf16 (extractStridedSlice S128x128 ![0, 0] x7 slices_S256x128_S128x128_0_0) bitsLt_bf16_f32)
    (truncf .bf16 (extractStridedSlice S128x128 ![128, 0] x7 slices_S256x128_S128x128_128_0) bitsLt_bf16_f32)
    (dcol x2)

/-- Layer three: hidden to hidden. -/
def layer3 : FVec Ideal S100000x128 .f32 :=
  scaleBiasTanh (n := 100000) (d := 128) (agg128 (rows3 x0 x1 x2 x3 x4 x5 x6 x7) (src1 x2) (dst1 x2)) (dcol x2) x8

/-- Layer four's scaled rows. -/
def rows4 : FVec Ideal S100000x64 .f32 :=
  scaledProduct (n := 100000) (din := 128) (dout := 64) (layer3 x0 x1 x2 x3 x4 x5 x6 x7 x8) (truncf .bf16 x9 bitsLt_bf16_f32) (dcol x2)

/-- Layer four: hidden to latent, no `tanh`. -/
def layer4 : FVec Ideal S100000x64 .f32 :=
  scaleBias (n := 100000) (d := 64) (agg64 (rows4 x0 x1 x2 x3 x4 x5 x6 x7 x8 x9) (src1 x2) (dst1 x2)) (dcol x2) x10

end Layers

end Cert.KernelIdeal.Term

end
-- ==== Proof.LibDotSingle.lean ====
/-
  A matrix product with ONE contracted axis, accumulated into the zero splat and read at the ideal values, as a sum over
  the contracted axis's coordinates `k : Fin n`: the product's own contraction index is a one-coordinate multi-index, and the
  sum is re-indexed through the bijection between such multi-indices and `Fin n`. The caller names what each operand reads
  at contraction coordinate `k` (`L k`, `R k`); at literal dimension numbers the operand indices' coordinates are
  `rfl` on a kept axis and `DotDims.lhsIdx_val_of_single` / `rhsIdx_val_of_single` with `contrEquiv1_symm_val` on the contracted one.
-/
import Idealize.ShloMosaic.PureOps.Ideal
import Idealize.ShloMosaic.PureOps.Ideal.Laws
import Idealize.ShloMosaic.Lib.ValueIdx

noncomputable section

open scoped BigOperators

namespace Cert.LibDotSingle

open Idealize.ShloMosaic Idealize.ShloMosaic.ValueIdx

/-- The product at result index `j` is `∑ k : Fin n, L k * R k` once each operand, at the operand index of `j` and of the
    contraction multi-index with coordinate `k`, is known to read `L k`, respectively `R k`. -/
theorem matmul_zero_single {sl sr so : Shape} {φ₁ φ₂ : FTy} (d : DotDims sl sr so) (prec : Option ContractPrecision)
    (n : Nat) (hr : d.contr.rank = 1) (hs : d.contr.size ⟨0, by omega⟩ = n)
    (lhs : FVec Ideal sl φ₁) (rhs : FVec Ideal sr φ₂) (j : so.Idx) (L R : Fin n → EReal)
    (hl : ∀ k : Fin n, lhs (d.lhsIdx j ((contrEquiv1 d n hr hs).symm k)) = L k)
    (hR : ∀ k : Fin n, rhs (d.rhsIdx j ((contrEquiv1 d n hr hs).symm k)) = R k) :
    FloatOps.matmul d prec lhs rhs (constant so .f32 0x00000000#32) j = ∑ k : Fin n, L k * R k := by
  rw [Ideal.matmul_constant_zero_apply, ← Equiv.sum_comp (contrEquiv1 d n hr hs).symm]
  exact Finset.sum_congr rfl fun k _ => by rw [hl k, hR k]

end Cert.LibDotSingle

end
-- ==== Proof.LibColumnLayout.lean ====
/-
  Column layouts read at an index given by coordinates.

  A vector of length `a` viewed as a column `[a, 1]`, a column viewed as a vector again, and a column repeated along a
  new last axis to `[a, b]` (a per-row quantity met with a per-column one, as after a sum that keeps its axis): each
  reads, at an index written by its coordinates, the operand at the evident index. They complete the library's
  leading-unit-axis casts and its row broadcast; like those they are the general layout lemmas with the coordinate
  arithmetic discharged once.
-/
import Idealize.ShloMosaic.Lib.ValueLayout

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `o` of an `[a, n]` matrix, taken as a slice `[a, 1]`, flattened to `[a]` and made a column again (how a
    per-row parameter is picked out of a small parameter table), reads at `(i, 0)` the matrix at `(i, o)`. -/
theorem column_apply {a n : ℕ} (o : ℕ) (v : (⟨2, ![a, n]⟩ : Shape).Idx → α)
    (hs : (⟨2, ![a, n]⟩ : Shape).Slices ![0, o] ⟨2, ![a, 1]⟩) (h1 : (⟨2, ![a, 1]⟩ : Shape).ShapeCasts ⟨1, ![a]⟩)
    (h2 : (⟨1, ![a]⟩ : Shape).ShapeCasts ⟨2, ![a, 1]⟩) (i : Fin a) (d : Fin n) (hd : d.val = o) :
    shapeCast ⟨2, ![a, 1]⟩ (shapeCast ⟨1, ![a]⟩ (extractStridedSlice ⟨2, ![a, 1]⟩ ![0, o] v hs) h1) h2 (ix2 i (0 : Fin 1))
      = v (ix2 i d) :=
  (shapeCast_a_a1_apply _ _ i 0).trans ((shapeCast_a1_a_apply _ _ i).trans
    (slice2_axis1_apply o v hs i (0 : Fin 1) d (by rw [hd]; rfl)))

end Idealize.ShloMosaic.ValueIdx
-- ==== Proof.Region0.lean ====
/-
  Region 0: the rows of a [100000, 256] array, cast to the narrower float type, times a [256, 128] weight matrix, each
  row of the product scaled by that row's entry of a [100000, 1] column.
  The region works through the rows in 20 blocks of 5000; the weight matrix is read whole at every block. Below: the
  block's arithmetic at an index (a scaled sum over the contracted coordinate), each input block as entries of its array,
  what a block writes back as the block of ONE whole-array function, and, since the 20 row blocks tile the 100000 rows,
  the output array as that function.
-/
import proofs.«114380_j16286515987229_2_alg».proof.Proof.Spec
import proofs.«114380_j16286515987229_2_alg».proof.Proof.Gen.KernelIdeal.Frame
import proofs.«114380_j16286515987229_2_alg».proof.Proof.LibDotSingle
import proofs.«114380_j16286515987229_2_alg».proof.Proof.LibColumnLayout
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The zero offsets of a rank-2 rectangle, as the constant function. -/
theorem zeroOff0 : (![0, 0] : Fin 2 → Nat) = fun _ => 0 := funext fun a => by fin_cases a <;> rfl

/-! ## The block's arithmetic at an index -/

/-- The left operand's index at result index (p, q) and contracted coordinate k is (p, k). -/
theorem dot0_lhs (p : Fin 5000) (q : Fin 128) (k : Fin 256) :
    dot_S5000x256_S256x128_S5000x128_1_0_0_1_n_n.lhsIdx (ix2 p q) ((contrEquiv1 dot_S5000x256_S256x128_S5000x128_1_0_0_1_n_n 256 rfl rfl).symm k) = ix2 p k := by
  funext ax; apply Fin.ext
  match ax with
  | ⟨0, _⟩ => rfl
  | ⟨1, _⟩ =>
    exact (dot_S5000x256_S256x128_S5000x128_1_0_0_1_n_n.lhsIdx_val_of_single (cl := 1) rfl _ _).trans (contrEquiv1_symm_val dot_S5000x256_S256x128_S5000x128_1_0_0_1_n_n 256 rfl rfl k)

/-- The right operand's index at result index (p, q) and contracted coordinate k is (k, q). -/
theorem dot0_rhs (p : Fin 5000) (q : Fin 128) (k : Fin 256) :
    dot_S5000x256_S256x128_S5000x128_1_0_0_1_n_n.rhsIdx (ix2 p q) ((contrEquiv1 dot_S5000x256_S256x128_S5000x128_1_0_0_1_n_n 256 rfl rfl).symm k) = ix2 k q := by
  funext ax; apply Fin.ext
  match ax with
  | ⟨0, _⟩ =>
    exact (dot_S5000x256_S256x128_S5000x128_1_0_0_1_n_n.rhsIdx_val_of_single (cr := 0) rfl _ _).trans (contrEquiv1_symm_val dot_S5000x256_S256x128_S5000x128_1_0_0_1_n_n 256 rfl rfl k)
  | ⟨1, _⟩ => rfl

/-- Entry (p, q) of what a block stores: the row's factor times the sum over the contracted coordinate. -/
theorem pay0_apply (x0 : Vec Ideal S5000x256 .f32) (x1 : Vec Ideal S256x128 .bf16) (x2 : Vec Ideal S5000x1 .f32)
    (p : Fin 5000) (q : Fin 128) :
    k0_pay1 x0 x1 x2 (ix2 p q) = x2 (ix2 p (0 : Fin 1)) * ∑ k : Fin 256, x0 (ix2 p k) * x1 (ix2 k q) := by
  unfold k0_pay1
  simp only [shapeCast_self]
  rw [mulf_apply, broadcastTo_a1_ab_apply]
  congr 1
  exact Cert.LibDotSingle.matmul_zero_single dot_S5000x256_S256x128_S5000x128_1_0_0_1_n_n none 256 rfl rfl _ _ _ _ _
    (fun k => by rw [truncf_apply, dot0_lhs]) (fun k => by rw [dot0_rhs])

/-! ## Where the blocks sit -/

/-- The index maps over the 20 points: the row-blocked windows sit at row block t, the weight window at the origin. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Entry x of the input block of rows at point t is the array's entry in row 5000 t + (x 0). -/
theorem iblk0_0_apply (c : Dev nD) (t : Fin cfg0.N) (x : S5000x256.Idx) (i : S100000x256.Idx)
    (h0 : (i 0).val = t.val * 5000 + (x 0).val) (h1 : (i 1).val = (x 1).val) :
    (iblk0 V c 0 t : Vec Ideal S5000x256 .f32) x = (V c main_arg0 : S100000x256.Idx → EReal) i := by
  obtain ⟨e0, e1, -⟩ := idx_facts0 t
  unfold iblk0
  rw [View.read_apply]
  show V c main_arg0 _ = V c main_arg0 _
  congr 1
  funext a; apply Fin.ext
  match a with
  | ⟨0, _⟩ => show win0_0.index t (0 : Fin 2) * 5000 + 1 * (x 0).val = (i 0).val; omega
  | ⟨1, _⟩ => show win0_0.index t (1 : Fin 2) * 256 + 1 * (x 1).val = (i 1).val; omega

/-- The weight block at any point is the weight array. -/
theorem iblk0_1_apply (c : Dev nD) (t : Fin cfg0.N) (x : S256x128.Idx) :
    (iblk0 V c 1 t : Vec Ideal S256x128 .bf16) x = (V c main_v16 : S256x128.Idx → EReal) x := by
  obtain ⟨-, -, e2, e3, -⟩ := idx_facts0 t
  unfold iblk0
  rw [View.read_apply]
  show V c main_v16 _ = V c main_v16 _
  congr 1
  funext a; apply Fin.ext
  match a with
  | ⟨0, _⟩ => show win0_1.index t (0 : Fin 2) * 256 + 1 * (x 0).val = (x 0).val; omega
  | ⟨1, _⟩ => show win0_1.index t (1 : Fin 2) * 128 + 1 * (x 1).val = (x 1).val; omega

/-- Entry x of the column block at point t is the column's entry in row 5000 t + (x 0). -/
theorem iblk0_2_apply (c : Dev nD) (t : Fin cfg0.N) (x : S5000x1.Idx) (i : S100000x1.Idx)
    (h0 : (i 0).val = t.val * 5000 + (x 0).val) (h1 : (i 1).val = (x 1).val) :
    (iblk0 V c 2 t : Vec Ideal S5000x1 .f32) x = (V c main_v15 : S100000x1.Idx → EReal) i := by
  obtain ⟨-, -, -, -, e4, e5, -⟩ := idx_facts0 t
  unfold iblk0
  rw [View.read_apply]
  show V c main_v15 _ = V c main_v15 _
  congr 1
  funext a; apply Fin.ext
  match a with
  | ⟨0, _⟩ => show win0_2.index t (0 : Fin 2) * 5000 + 1 * (x 0).val = (i 0).val; omega
  | ⟨1, _⟩ => show win0_2.index t (1 : Fin 2) * 1 + 1 * (x 1).val = (i 1).val; omega

/-! ## What a point writes back -/

/-- The whole-array function the region computes. -/
abbrev G0 (c : Dev nD) : S100000x128.Idx → EReal :=
  Cert.Gcn.scaledProduct (n := 100000) (din := 256) (dout := 128) (V c main_arg0) (V c main_v16) (V c main_v15)

/-- Equal factors and termwise equal summands give equal scaled sums. -/
theorem scaled_congr0 {n : Nat} {a a' : EReal} {f f' g g' : Fin n → EReal} (ha : a = a') (hf : ∀ k, f k = f' k)
    (hg : ∀ k, g k = g' k) : a * ∑ k : Fin n, f k * g k = a' * ∑ k : Fin n, f' k * g' k := by
  obtain rfl := ha
  obtain rfl : f = f' := funext hf
  obtain rfl : g = g' := funext hg
  rfl

/-- Entry j of what point t stores is the whole-array function at j's place in the output's block at t. -/
theorem stored0_apply (c : Dev nD) (t : Fin cfg0.N) (j : S5000x128.Idx) :
    k0_pay1 (iblk0 V c 0 t) (iblk0 V c 1 t) (iblk0 V c 2 t) j = G0 V c (((cfg0.win 3).blk t).view.emb j) := by
  obtain ⟨-, -, -, -, -, -, e6, e7⟩ := idx_facts0 t
  have hr : ((((cfg0.win 3).blk t).view.emb j) 0).val = t.val * 5000 + (j 0).val := by
    show win0_3.index t (0 : Fin 2) * 5000 + 1 * (j 0).val = _; omega
  have hc : ((((cfg0.win 3).blk t).view.emb j) 1).val = (j 1).val := by
    show win0_3.index t (1 : Fin 2) * 128 + 1 * (j 1).val = _; omega
  refine (congrArg _ (eq_ix2 j)).trans ((pay0_apply _ _ _ (j 0) (j 1)).trans ?_)
  unfold G0 Cert.Gcn.scaledProduct
  refine scaled_congr0 ?_ (fun k => ?_) (fun k => ?_)
  · exact iblk0_2_apply V c t _ _ hr rfl
  · exact iblk0_0_apply V c t _ _ hr rfl
  · refine (iblk0_1_apply V c t _).trans ?_
    congr 1
    funext a; apply Fin.ext
    match a with
    | ⟨0, _⟩ => rfl
    | ⟨1, _⟩ => exact hc.symm

/-- What point t writes back is the output block at t of the whole-array function. -/
theorem flushed0_eq (c : Dev nD) (t : Fin cfg0.N) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  unfold out0_3
  rw [View.canon_unit_zero zeroOff0]
  simp only [View.ld_unit_zero (S := S5000x256) zeroOff0, View.ld_unit_zero (S := S256x128) zeroOff0,
    View.ld_unit_zero (S := S5000x1) zeroOff0]
  funext j
  exact stored0_apply V c t j

/-! ## The blocks tile the array -/

/-- An index of the output array is in point t's block iff each coordinate is in the block's range on its axis. -/
theorem mem_blk0 (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v23).slice (win0_3.rect t)).set ↔ _
  rw [View.set_slice_whole, Rect.mem_set_unit]
  exact Iff.rfl

/-- Every index of the output array is in the block of the point its row falls in. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, e6, e7⟩ := idx_facts0 t
  have ht : t.val = (i 0).val / 5000 := rfl
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-! ## The output array -/

/-- After the region the output array holds, row by row, the scaled product. -/
theorem final0 (c : Dev nD) : (dat0 (F := Ideal) V c).arrAt 3 cfg0.N
    = Cert.Gcn.scaledProduct (n := 100000) (din := 256) (dout := 128) (V c main_arg0) (V c main_v16) (V c main_v15) :=
  (dat0 (F := Ideal) V c).arrAt_eq_of_cover 3 (G0 V c) (fun t _ => flushed0_eq V c t) cover0

end Cert.KernelIdeal.RegionValue

end
-- ==== Proof.Region1.lean ====
/-
  Region 1: every row of a [100000, 128] array scaled by that row's factor, a bias added column by column, then tanh.

  The grid's 20 points each take 5000 rows: point t reads rows 5000 t .. 5000 t + 4999 of the array and of the column of
  factors, and the whole bias vector, and writes the same rows of the result. So what each point writes back is its block of
  ONE function of the three arrays, index by index, and the 20 blocks tile the result.
-/
import proofs.«114380_j16286515987229_2_alg».proof.Proof.Spec
import proofs.«114380_j16286515987229_2_alg».proof.Proof.Gen.KernelIdeal.Frame
import proofs.«114380_j16286515987229_2_alg».proof.Proof.LibColumnLayout
import Idealize.ShloMosaic.Lib.Pipeline.Value
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a rank-1 load, spelt as a constant function. -/
theorem zeroOffs1_1 : (![0] : Fin 1 → Nat) = fun _ => 0 := funext fun a => by fin_cases a <;> rfl
/-- The zero offsets of a rank-2 load or store, spelt as a constant function. -/
theorem zeroOffs1_2 : (![0, 0] : Fin 2 → Nat) = fun _ => 0 := funext fun a => by fin_cases a <;> rfl

/-- The body's result at row p, column q of a block: the row's factor times the entry, plus the bias of the column, through tanh. -/
theorem pay1_apply (x0 : Vec Ideal S5000x128 .f32) (x1 : Vec Ideal S5000x1 .f32) (x2 : Vec Ideal S128 .f32) (p : Fin 5000) (q : Fin 128) :
    Gen.k1_pay1 (F := Ideal) x2 x1 x0 (ix2 p q) = Ideal.tanh (x1 (ix2 p (0 : Fin 1)) * x0 (ix2 p q) + x2 (ix1 q)) := by
  unfold Gen.k1_pay1
  show Ideal.tanh (broadcastTo S5000x128 (shapeCast S5000x1 x1 _) _ (ix2 p q) * shapeCast S5000x128 x0 _ (ix2 p q)
      + broadcastTo S5000x128 (shapeCast S1x128 x2 _) _ (ix2 p q)) = _
  rw [shapeCast_self, shapeCast_self, broadcastTo_a1_ab_apply, broadcastTo_1b_ab_apply, shapeCast_a_1a_apply]

/-- The index maps, decided over the 20 points: the array's and the column's row blocks move with the result's, every
    column index and the bias's index stay 0, and the result's row-block index is below 20. -/
theorem index_facts1 : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 1) = 0
    ∧ win1_3.index t (1 : Fin 2) = 0 ∧ win1_3.index t (0 : Fin 2) ≤ 19 :=
  (by decide +kernel : ∀ t : Fin grid1.N, _)

/-- Every row block of the result is some point's. -/
theorem index_onto1 : ∀ q0 : Fin 20, ∃ t : Fin cfg1.N, win1_3.index t = ![q0.val, 0] :=
  (by decide +kernel : ∀ q0 : Fin 20, ∃ t : Fin grid1.N, win1_3.index t = ![q0.val, 0])

/-- The three input blocks of point t, read at row p (and column q), are the arrays read where the result's block puts
    (p, q): the same row of the array and of the column of factors, the bias of the same column. -/
theorem block_read1 (A : S100000x128.Idx → EReal) (D : S100000x1.Idx → EReal) (B : S128.Idx → EReal)
    (t : Fin cfg1.N) (j : S5000x128.Idx) :
    Ideal.tanh (D (((cfg1.win 1).blk t).view.emb (ix2 (n0 := 5000) (n1 := 1) (j 0) (0 : Fin 1)))
        * A (((cfg1.win 0).blk t).view.emb (ix2 (n0 := 5000) (n1 := 128) (j 0) (j 1)))
      + B (((cfg1.win 2).blk t).view.emb (ix1 (n := 128) (j 1))))
    = Cert.Gcn.scaleBiasTanh (n := 100000) (d := 128) A D B (((cfg1.win 3).blk t).view.emb j) := by
  obtain ⟨e0, e1, e2, e3, e4, e5, e6⟩ := index_facts1 t
  have hj0 : (j 0).val < 5000 := (j 0).isLt
  have hj1 : (j 1).val < 128 := (j 1).isLt
  have h0 : ((cfg1.win 0).blk t).view.emb (ix2 (n0 := 5000) (n1 := 128) (j 0) (j 1)) = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * (j 1).val = win1_3.index t (1 : Fin 2) * 128 + 1 * (j 1).val; omega
  have h1 : ((cfg1.win 1).blk t).view.emb (ix2 (n0 := 5000) (n1 := 1) (j 0) (0 : Fin 1))
      = ix2 (n0 := 100000) (n1 := 1) ((((cfg1.win 3).blk t).view.emb j) 0) (0 : Fin 1) := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  have h2 : ((cfg1.win 2).blk t).view.emb (ix1 (n := 128) (j 1)) = ix1 (n := 128) ((((cfg1.win 3).blk t).view.emb j) 1) := by
    funext a; apply Fin.ext
    match a with
    | ⟨0, _⟩ => show win1_2.index t (0 : Fin 1) * 128 + 1 * (j 1).val = win1_3.index t (1 : Fin 2) * 128 + 1 * (j 1).val; omega
  rw [h0, h1, h2]
  rfl

/-- What point t writes back is its block of the whole-array function. -/
theorem flushed_eq1 (c : Dev nD) (t : Fin cfg1.N) :
    (Gen.dat1 (F := Ideal) V c).flushed 3 t = ((cfg1.win 3).blk t).view.read (Elt Ideal)
      (Cert.Gcn.scaleBiasTanh (n := 100000) (d := 128) (V c main_v33) (V c main_v15) (V c main_arg4)) := by
  show (cfg1.win 3).cut (grid1.coords t) ((Gen.dat1 (F := Ideal) V c).after 3 t) = _
  rw [Gen.after1_3]
  unfold Gen.out1_3
  rw [View.canon_unit_zero zeroOffs1_2]
  simp only [View.ld_unit_zero (S := S5000x128) zeroOffs1_2, View.ld_unit_zero (S := S5000x1) zeroOffs1_2,
    View.ld_unit_zero (S := S128) zeroOffs1_1]
  funext j
  refine (congrArg (Gen.k1_pay1 (F := Ideal) _ _ _) (eq_ix2 (n0 := 5000) (n1 := 128) j)).trans
    ((pay1_apply _ _ _ (j 0) (j 1)).trans ?_)
  exact block_read1 (V c main_v33) (V c main_v15) (V c main_arg4) t j

/-- An index of the result is in point t's block iff each coordinate is in the block's range on its axis. -/
theorem mem_block1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v34).slice (win1_3.rect t)).set ↔ _
  rw [View.set_slice_whole, Rect.mem_set_unit]
  exact Iff.rfl

/-- The 20 blocks of 5000 rows tile the 100000 rows: row r is in the block of the point whose row-block index is r / 5000. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := index_onto1 ⟨(i 0).val / 5000, by omega⟩
  have q0 : win1_3.index t (0 : Fin 2) = (i 0).val / 5000 := congrFun ht 0
  have q1 : win1_3.index t (1 : Fin 2) = 0 := congrFun ht 1
  refine ⟨t, Gen.flush1_3 t, ?_⟩
  rw [mem_block1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array after the region: the whole-array function of the three arrays the region reads. -/
theorem final1 (c : Dev nD) : (Gen.dat1 (F := Ideal) V c).arrAt 3 cfg1.N
    = Cert.Gcn.scaleBiasTanh (n := 100000) (d := 128) (V c main_v33) (V c main_v15) (V c main_arg4) :=
  (Gen.dat1 (F := Ideal) V c).arrAt_eq_of_cover 3 _ (fun t _ => flushed_eq1 V c t) cover1

end Cert.KernelIdeal.RegionValue

end
-- ==== Proof.Region2.lean ====
/-
  Region 2: the rows of a [100000, 64] array, cast to the narrower float type, times a [64, 128] weight matrix, each
  row of the product scaled by that row's entry of a [100000, 1] column.
  The region works through the rows in 20 blocks of 5000; the weight matrix is read whole at every block. Below: the
  block's arithmetic at an index (a scaled sum over the contracted coordinate), each input block as entries of its array,
  what a block writes back as the block of ONE whole-array function, and, since the 20 row blocks tile the 100000 rows,
  the output array as that function.
-/
import proofs.«114380_j16286515987229_2_alg».proof.Proof.Spec
import proofs.«114380_j16286515987229_2_alg».proof.Proof.Gen.KernelIdeal.Frame
import proofs.«114380_j16286515987229_2_alg».proof.Proof.LibDotSingle
import proofs.«114380_j16286515987229_2_alg».proof.Proof.LibColumnLayout
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The zero offsets of a rank-2 rectangle, as the constant function. -/
theorem zeroOff2 : (![0, 0] : Fin 2 → Nat) = fun _ => 0 := funext fun a => by fin_cases a <;> rfl

/-! ## The block's arithmetic at an index -/

/-- The left operand's index at result index (p, q) and contracted coordinate k is (p, k). -/
theorem dot2_lhs (p : Fin 5000) (q : Fin 128) (k : Fin 64) :
    dot_S5000x64_S64x128_S5000x128_1_0_0_1_n_n.lhsIdx (ix2 p q) ((contrEquiv1 dot_S5000x64_S64x128_S5000x128_1_0_0_1_n_n 64 rfl rfl).symm k) = ix2 p k := by
  funext ax; apply Fin.ext
  match ax with
  | ⟨0, _⟩ => rfl
  | ⟨1, _⟩ =>
    exact (dot_S5000x64_S64x128_S5000x128_1_0_0_1_n_n.lhsIdx_val_of_single (cl := 1) rfl _ _).trans (contrEquiv1_symm_val dot_S5000x64_S64x128_S5000x128_1_0_0_1_n_n 64 rfl rfl k)

/-- The right operand's index at result index (p, q) and contracted coordinate k is (k, q). -/
theorem dot2_rhs (p : Fin 5000) (q : Fin 128) (k : Fin 64) :
    dot_S5000x64_S64x128_S5000x128_1_0_0_1_n_n.rhsIdx (ix2 p q) ((contrEquiv1 dot_S5000x64_S64x128_S5000x128_1_0_0_1_n_n 64 rfl rfl).symm k) = ix2 k q := by
  funext ax; apply Fin.ext
  match ax with
  | ⟨0, _⟩ =>
    exact (dot_S5000x64_S64x128_S5000x128_1_0_0_1_n_n.rhsIdx_val_of_single (cr := 0) rfl _ _).trans (contrEquiv1_symm_val dot_S5000x64_S64x128_S5000x128_1_0_0_1_n_n 64 rfl rfl k)
  | ⟨1, _⟩ => rfl

/-- Entry (p, q) of what a block stores: the row's factor times the sum over the contracted coordinate. -/
theorem pay2_apply (x0 : Vec Ideal S5000x64 .f32) (x1 : Vec Ideal S64x128 .bf16) (x2 : Vec Ideal S5000x1 .f32)
    (p : Fin 5000) (q : Fin 128) :
    k2_pay1 x0 x1 x2 (ix2 p q) = x2 (ix2 p (0 : Fin 1)) * ∑ k : Fin 64, x0 (ix2 p k) * x1 (ix2 k q) := by
  unfold k2_pay1
  simp only [shapeCast_self]
  rw [mulf_apply, broadcastTo_a1_ab_apply]
  congr 1
  exact Cert.LibDotSingle.matmul_zero_single dot_S5000x64_S64x128_S5000x128_1_0_0_1_n_n none 64 rfl rfl _ _ _ _ _
    (fun k => by rw [truncf_apply, dot2_lhs]) (fun k => by rw [dot2_rhs])

/-! ## Where the blocks sit -/

/-- The index maps over the 20 points: the row-blocked windows sit at row block t, the weight window at the origin. -/
theorem idx_facts2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Entry x of the input block of rows at point t is the array's entry in row 5000 t + (x 0). -/
theorem iblk2_0_apply (c : Dev nD) (t : Fin cfg2.N) (x : S5000x64.Idx) (i : S100000x64.Idx)
    (h0 : (i 0).val = t.val * 5000 + (x 0).val) (h1 : (i 1).val = (x 1).val) :
    (iblk2 V c 0 t : Vec Ideal S5000x64 .f32) x = (V c main_arg1 : S100000x64.Idx → EReal) i := by
  obtain ⟨e0, e1, -⟩ := idx_facts2 t
  unfold iblk2
  rw [View.read_apply]
  show V c main_arg1 _ = V c main_arg1 _
  congr 1
  funext a; apply Fin.ext
  match a with
  | ⟨0, _⟩ => show win2_0.index t (0 : Fin 2) * 5000 + 1 * (x 0).val = (i 0).val; omega
  | ⟨1, _⟩ => show win2_0.index t (1 : Fin 2) * 64 + 1 * (x 1).val = (i 1).val; omega

/-- The weight block at any point is the weight array. -/
theorem iblk2_1_apply (c : Dev nD) (t : Fin cfg2.N) (x : S64x128.Idx) :
    (iblk2 V c 1 t : Vec Ideal S64x128 .bf16) x = (V c main_v17 : S64x128.Idx → EReal) x := by
  obtain ⟨-, -, e2, e3, -⟩ := idx_facts2 t
  unfold iblk2
  rw [View.read_apply]
  show V c main_v17 _ = V c main_v17 _
  congr 1
  funext a; apply Fin.ext
  match a with
  | ⟨0, _⟩ => show win2_1.index t (0 : Fin 2) * 64 + 1 * (x 0).val = (x 0).val; omega
  | ⟨1, _⟩ => show win2_1.index t (1 : Fin 2) * 128 + 1 * (x 1).val = (x 1).val; omega

/-- Entry x of the column block at point t is the column's entry in row 5000 t + (x 0). -/
theorem iblk2_2_apply (c : Dev nD) (t : Fin cfg2.N) (x : S5000x1.Idx) (i : S100000x1.Idx)
    (h0 : (i 0).val = t.val * 5000 + (x 0).val) (h1 : (i 1).val = (x 1).val) :
    (iblk2 V c 2 t : Vec Ideal S5000x1 .f32) x = (V c main_v15 : S100000x1.Idx → EReal) i := by
  obtain ⟨-, -, -, -, e4, e5, -⟩ := idx_facts2 t
  unfold iblk2
  rw [View.read_apply]
  show V c main_v15 _ = V c main_v15 _
  congr 1
  funext a; apply Fin.ext
  match a with
  | ⟨0, _⟩ => show win2_2.index t (0 : Fin 2) * 5000 + 1 * (x 0).val = (i 0).val; omega
  | ⟨1, _⟩ => show win2_2.index t (1 : Fin 2) * 1 + 1 * (x 1).val = (i 1).val; omega

/-! ## What a point writes back -/

/-- The whole-array function the region computes. -/
abbrev G2 (c : Dev nD) : S100000x128.Idx → EReal :=
  Cert.Gcn.scaledProduct (n := 100000) (din := 64) (dout := 128) (V c main_arg1) (V c main_v17) (V c main_v15)

/-- Equal factors and termwise equal summands give equal scaled sums. -/
theorem scaled_congr2 {n : Nat} {a a' : EReal} {f f' g g' : Fin n → EReal} (ha : a = a') (hf : ∀ k, f k = f' k)
    (hg : ∀ k, g k = g' k) : a * ∑ k : Fin n, f k * g k = a' * ∑ k : Fin n, f' k * g' k := by
  obtain rfl := ha
  obtain rfl : f = f' := funext hf
  obtain rfl : g = g' := funext hg
  rfl

/-- Entry j of what point t stores is the whole-array function at j's place in the output's block at t. -/
theorem stored2_apply (c : Dev nD) (t : Fin cfg2.N) (j : S5000x128.Idx) :
    k2_pay1 (iblk2 V c 0 t) (iblk2 V c 1 t) (iblk2 V c 2 t) j = G2 V c (((cfg2.win 3).blk t).view.emb j) := by
  obtain ⟨-, -, -, -, -, -, e6, e7⟩ := idx_facts2 t
  have hr : ((((cfg2.win 3).blk t).view.emb j) 0).val = t.val * 5000 + (j 0).val := by
    show win2_3.index t (0 : Fin 2) * 5000 + 1 * (j 0).val = _; omega
  have hc : ((((cfg2.win 3).blk t).view.emb j) 1).val = (j 1).val := by
    show win2_3.index t (1 : Fin 2) * 128 + 1 * (j 1).val = _; omega
  refine (congrArg _ (eq_ix2 j)).trans ((pay2_apply _ _ _ (j 0) (j 1)).trans ?_)
  unfold G2 Cert.Gcn.scaledProduct
  refine scaled_congr2 ?_ (fun k => ?_) (fun k => ?_)
  · exact iblk2_2_apply V c t _ _ hr rfl
  · exact iblk2_0_apply V c t _ _ hr rfl
  · refine (iblk2_1_apply V c t _).trans ?_
    congr 1
    funext a; apply Fin.ext
    match a with
    | ⟨0, _⟩ => rfl
    | ⟨1, _⟩ => exact hc.symm

/-- What point t writes back is the output block at t of the whole-array function. -/
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 (F := Ideal) V c).after 3 t) = _
  rw [after2_3]
  unfold out2_3
  rw [View.canon_unit_zero zeroOff2]
  simp only [View.ld_unit_zero (S := S5000x64) zeroOff2, View.ld_unit_zero (S := S64x128) zeroOff2,
    View.ld_unit_zero (S := S5000x1) zeroOff2]
  funext j
  exact stored2_apply V c t j

/-! ## The blocks tile the array -/

/-- An index of the output array is in point t's block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v35).slice (win2_3.rect t)).set ↔ _
  rw [View.set_slice_whole, Rect.mem_set_unit]
  exact Iff.rfl

/-- Every index of the output array is in the block of the point its row falls in. -/
theorem cover2 (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨-, -, -, -, -, -, e6, e7⟩ := idx_facts2 t
  have ht : t.val = (i 0).val / 5000 := rfl
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-! ## The output array -/

/-- After the region the output array holds, row by row, the scaled product. -/
theorem final2 (c : Dev nD) : (dat2 (F := Ideal) V c).arrAt 3 cfg2.N
    = Cert.Gcn.scaledProduct (n := 100000) (din := 64) (dout := 128) (V c main_arg1) (V c main_v17) (V c main_v15) :=
  (dat2 (F := Ideal) V c).arrAt_eq_of_cover 3 (G2 V c) (fun t _ => flushed2_eq V c t) cover2

end Cert.KernelIdeal.RegionValue

end
-- ==== Proof.Region3.lean ====
/-
  Region 3: every row of a [100000, 128] array scaled by that row's factor, a bias added column by column, then tanh.

  The grid's 20 points each take 5000 rows: point t reads rows 5000 t .. 5000 t + 4999 of the array and of the column of
  factors, and the whole bias vector, and writes the same rows of the result. So what each point writes back is its block of
  ONE function of the three arrays, index by index, and the 20 blocks tile the result.
-/
import proofs.«114380_j16286515987229_2_alg».proof.Proof.Spec
import proofs.«114380_j16286515987229_2_alg».proof.Proof.Gen.KernelIdeal.Frame
import proofs.«114380_j16286515987229_2_alg».proof.Proof.LibColumnLayout
import Idealize.ShloMosaic.Lib.Pipeline.Value
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a rank-1 load, spelt as a constant function. -/
theorem zeroOffs3_1 : (![0] : Fin 1 → Nat) = fun _ => 0 := funext fun a => by fin_cases a <;> rfl
/-- The zero offsets of a rank-2 load or store, spelt as a constant function. -/
theorem zeroOffs3_2 : (![0, 0] : Fin 2 → Nat) = fun _ => 0 := funext fun a => by fin_cases a <;> rfl

/-- The body's result at row p, column q of a block: the row's factor times the entry, plus the bias of the column, through tanh. -/
theorem pay3_apply (x0 : Vec Ideal S5000x128 .f32) (x1 : Vec Ideal S5000x1 .f32) (x2 : Vec Ideal S128 .f32) (p : Fin 5000) (q : Fin 128) :
    Gen.k3_pay1 (F := Ideal) x2 x1 x0 (ix2 p q) = Ideal.tanh (x1 (ix2 p (0 : Fin 1)) * x0 (ix2 p q) + x2 (ix1 q)) := by
  unfold Gen.k3_pay1
  show Ideal.tanh (broadcastTo S5000x128 (shapeCast S5000x1 x1 _) _ (ix2 p q) * shapeCast S5000x128 x0 _ (ix2 p q)
      + broadcastTo S5000x128 (shapeCast S1x128 x2 _) _ (ix2 p q)) = _
  rw [shapeCast_self, shapeCast_self, broadcastTo_a1_ab_apply, broadcastTo_1b_ab_apply, shapeCast_a_1a_apply]

/-- The index maps, decided over the 20 points: the array's and the column's row blocks move with the result's, every
    column index and the bias's index stay 0, and the result's row-block index is below 20. -/
theorem index_facts3 : ∀ t : Fin cfg3.N,
    win3_0.index t (0 : Fin 2) = win3_3.index t (0 : Fin 2) ∧ win3_0.index t (1 : Fin 2) = 0
    ∧ win3_1.index t (0 : Fin 2) = win3_3.index t (0 : Fin 2) ∧ win3_1.index t (1 : Fin 2) = 0
    ∧ win3_2.index t (0 : Fin 1) = 0
    ∧ win3_3.index t (1 : Fin 2) = 0 ∧ win3_3.index t (0 : Fin 2) ≤ 19 :=
  (by decide +kernel : ∀ t : Fin grid3.N, _)

/-- Every row block of the result is some point's. -/
theorem index_onto3 : ∀ q0 : Fin 20, ∃ t : Fin cfg3.N, win3_3.index t = ![q0.val, 0] :=
  (by decide +kernel : ∀ q0 : Fin 20, ∃ t : Fin grid3.N, win3_3.index t = ![q0.val, 0])

/-- The three input blocks of point t, read at row p (and column q), are the arrays read where the result's block puts
    (p, q): the same row of the array and of the column of factors, the bias of the same column. -/
theorem block_read3 (A : S100000x128.Idx → EReal) (D : S100000x1.Idx → EReal) (B : S128.Idx → EReal)
    (t : Fin cfg3.N) (j : S5000x128.Idx) :
    Ideal.tanh (D (((cfg3.win 1).blk t).view.emb (ix2 (n0 := 5000) (n1 := 1) (j 0) (0 : Fin 1)))
        * A (((cfg3.win 0).blk t).view.emb (ix2 (n0 := 5000) (n1 := 128) (j 0) (j 1)))
      + B (((cfg3.win 2).blk t).view.emb (ix1 (n := 128) (j 1))))
    = Cert.Gcn.scaleBiasTanh (n := 100000) (d := 128) A D B (((cfg3.win 3).blk t).view.emb j) := by
  obtain ⟨e0, e1, e2, e3, e4, e5, e6⟩ := index_facts3 t
  have hj0 : (j 0).val < 5000 := (j 0).isLt
  have hj1 : (j 1).val < 128 := (j 1).isLt
  have h0 : ((cfg3.win 0).blk t).view.emb (ix2 (n0 := 5000) (n1 := 128) (j 0) (j 1)) = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * (j 1).val = win3_3.index t (1 : Fin 2) * 128 + 1 * (j 1).val; omega
  have h1 : ((cfg3.win 1).blk t).view.emb (ix2 (n0 := 5000) (n1 := 1) (j 0) (0 : Fin 1))
      = ix2 (n0 := 100000) (n1 := 1) ((((cfg3.win 3).blk t).view.emb j) 0) (0 : Fin 1) := by
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 1 + 1 * 0 = 0; omega
  have h2 : ((cfg3.win 2).blk t).view.emb (ix1 (n := 128) (j 1)) = ix1 (n := 128) ((((cfg3.win 3).blk t).view.emb j) 1) := by
    funext a; apply Fin.ext
    match a with
    | ⟨0, _⟩ => show win3_2.index t (0 : Fin 1) * 128 + 1 * (j 1).val = win3_3.index t (1 : Fin 2) * 128 + 1 * (j 1).val; omega
  rw [h0, h1, h2]
  rfl

/-- What point t writes back is its block of the whole-array function. -/
theorem flushed_eq3 (c : Dev nD) (t : Fin cfg3.N) :
    (Gen.dat3 (F := Ideal) V c).flushed 3 t = ((cfg3.win 3).blk t).view.read (Elt Ideal)
      (Cert.Gcn.scaleBiasTanh (n := 100000) (d := 128) (V c main_v45) (V c main_v15) (V c main_arg6)) := by
  show (cfg3.win 3).cut (grid3.coords t) ((Gen.dat3 (F := Ideal) V c).after 3 t) = _
  rw [Gen.after3_3]
  unfold Gen.out3_3
  rw [View.canon_unit_zero zeroOffs3_2]
  simp only [View.ld_unit_zero (S := S5000x128) zeroOffs3_2, View.ld_unit_zero (S := S5000x1) zeroOffs3_2,
    View.ld_unit_zero (S := S128) zeroOffs3_1]
  funext j
  refine (congrArg (Gen.k3_pay1 (F := Ideal) _ _ _) (eq_ix2 (n0 := 5000) (n1 := 128) j)).trans
    ((pay3_apply _ _ _ (j 0) (j 1)).trans ?_)
  exact block_read3 (V c main_v45) (V c main_v15) (V c main_arg6) t j

/-- An index of the result is in point t's block iff each coordinate is in the block's range on its axis. -/
theorem mem_block3 (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v46).slice (win3_3.rect t)).set ↔ _
  rw [View.set_slice_whole, Rect.mem_set_unit]
  exact Iff.rfl

/-- The 20 blocks of 5000 rows tile the 100000 rows: row r is in the block of the point whose row-block index is r / 5000. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := index_onto3 ⟨(i 0).val / 5000, by omega⟩
  have q0 : win3_3.index t (0 : Fin 2) = (i 0).val / 5000 := congrFun ht 0
  have q1 : win3_3.index t (1 : Fin 2) = 0 := congrFun ht 1
  refine ⟨t, Gen.flush3_3 t, ?_⟩
  rw [mem_block3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- The result array after the region: the whole-array function of the three arrays the region reads. -/
theorem final3 (c : Dev nD) : (Gen.dat3 (F := Ideal) V c).arrAt 3 cfg3.N
    = Cert.Gcn.scaleBiasTanh (n := 100000) (d := 128) (V c main_v45) (V c main_v15) (V c main_arg6) :=
  (Gen.dat3 (F := Ideal) V c).arrAt_eq_of_cover 3 _ (fun t _ => flushed_eq3 V c t) cover3

end Cert.KernelIdeal.RegionValue

end
-- ==== Proof.Region4.lean ====
/-
  Region 4: two [100000, 128] arrays, each cast to the narrower float type and multiplied by its own [128, 128] weight
  matrix, the two products added (the product of the row [f r, g r] with the stacked matrix, taken half by half), each row
  of the sum scaled by that row's entry of a [100000, 1] column. The region works through the rows in 20 blocks of 5000;
  the two weight matrices are read whole at every block. Below: the block's arithmetic at an index, each input block as
  entries of its array, what a block writes back as the block of ONE whole-array function, and, since the 20 row blocks
  tile the 100000 rows, the output array as that function.
-/
import proofs.«114380_j16286515987229_2_alg».proof.Proof.Spec
import proofs.«114380_j16286515987229_2_alg».proof.Proof.Gen.KernelIdeal.Frame
import proofs.«114380_j16286515987229_2_alg».proof.Proof.LibDotSingle
import proofs.«114380_j16286515987229_2_alg».proof.Proof.LibColumnLayout
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The zero offsets of a rank-2 rectangle, as the constant function. -/
theorem zeroOff4 : (![0, 0] : Fin 2 → Nat) = fun _ => 0 := funext fun a => by fin_cases a <;> rfl

/-! ## The block's arithmetic at an index -/

/-- The left operand's index at result index (p, q) and contracted coordinate k is (p, k). -/
theorem dot4_lhs (p : Fin 5000) (q : Fin 128) (k : Fin 128) :
    dot_S5000x128_S128x128_S5000x128_1_0_0_1_n_n.lhsIdx (ix2 p q)
      ((contrEquiv1 dot_S5000x128_S128x128_S5000x128_1_0_0_1_n_n 128 rfl rfl).symm k) = ix2 p k := by
  funext ax; apply Fin.ext
  match ax with
  | ⟨0, _⟩ => rfl
  | ⟨1, _⟩ =>
    exact (dot_S5000x128_S128x128_S5000x128_1_0_0_1_n_n.lhsIdx_val_of_single (cl := 1) rfl _ _).trans
      (contrEquiv1_symm_val dot_S5000x128_S128x128_S5000x128_1_0_0_1_n_n 128 rfl rfl k)

/-- The right operand's index at result index (p, q) and contracted coordinate k is (k, q). -/
theorem dot4_rhs (p : Fin 5000) (q : Fin 128) (k : Fin 128) :
    dot_S5000x128_S128x128_S5000x128_1_0_0_1_n_n.rhsIdx (ix2 p q)
      ((contrEquiv1 dot_S5000x128_S128x128_S5000x128_1_0_0_1_n_n 128 rfl rfl).symm k) = ix2 k q := by
  funext ax; apply Fin.ext
  match ax with
  | ⟨0, _⟩ =>
    exact (dot_S5000x128_S128x128_S5000x128_1_0_0_1_n_n.rhsIdx_val_of_single (cr := 0) rfl _ _).trans
      (contrEquiv1_symm_val dot_S5000x128_S128x128_S5000x128_1_0_0_1_n_n 128 rfl rfl k)
  | ⟨1, _⟩ => rfl

/-- Entry (p, q) of what a block stores: the row's factor times the sum of the two sums over the contracted coordinate. -/
theorem pay4_apply (x0 x1 : Vec Ideal S5000x128 .f32) (x2 x3 : Vec Ideal S128x128 .bf16) (x4 : Vec Ideal S5000x1 .f32)
    (p : Fin 5000) (q : Fin 128) :
    k4_pay1 x0 x1 x2 x3 x4 (ix2 p q) = x4 (ix2 p (0 : Fin 1)) *
      ((∑ k : Fin 128, x0 (ix2 p k) * x2 (ix2 k q)) + ∑ k : Fin 128, x1 (ix2 p k) * x3 (ix2 k q)) := by
  unfold k4_pay1
  simp only [shapeCast_self]
  rw [mulf_apply, broadcastTo_a1_ab_apply, addf_apply]
  congr 1
  congr 1
  · exact Cert.LibDotSingle.matmul_zero_single dot_S5000x128_S128x128_S5000x128_1_0_0_1_n_n none 128 rfl rfl _ _ _ _ _
      (fun k => by rw [truncf_apply, dot4_lhs]) (fun k => by rw [dot4_rhs])
  · exact Cert.LibDotSingle.matmul_zero_single dot_S5000x128_S128x128_S5000x128_1_0_0_1_n_n none 128 rfl rfl _ _ _ _ _
      (fun k => by rw [truncf_apply, dot4_lhs]) (fun k => by rw [dot4_rhs])

/-! ## Where the blocks sit -/

/-- The index maps over the 20 points: the row-blocked windows sit at row block t, the weight windows at the origin. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- Entry x of the first input's block of rows at point t is the array's entry in row 5000 t + (x 0). -/
theorem iblk4_0_apply (c : Dev nD) (t : Fin cfg4.N) (x : S5000x128.Idx) (i : S100000x128.Idx)
    (h0 : (i 0).val = t.val * 5000 + (x 0).val) (h1 : (i 1).val = (x 1).val) :
    (iblk4 V c 0 t : Vec Ideal S5000x128 .f32) x = (V c main_v34 : S100000x128.Idx → EReal) i := by
  obtain ⟨e0, e1, -⟩ := idx_facts4 t
  unfold iblk4
  rw [View.read_apply]
  show V c main_v34 _ = V c main_v34 _
  congr 1
  funext a; apply Fin.ext
  match a with
  | ⟨0, _⟩ => show win4_0.index t (0 : Fin 2) * 5000 + 1 * (x 0).val = (i 0).val; omega
  | ⟨1, _⟩ => show win4_0.index t (1 : Fin 2) * 128 + 1 * (x 1).val = (i 1).val; omega

/-- Entry x of the second input's block of rows at point t is the array's entry in row 5000 t + (x 0). -/
theorem iblk4_1_apply (c : Dev nD) (t : Fin cfg4.N) (x : S5000x128.Idx) (i : S100000x128.Idx)
    (h0 : (i 0).val = t.val * 5000 + (x 0).val) (h1 : (i 1).val = (x 1).val) :
    (iblk4 V c 1 t : Vec Ideal S5000x128 .f32) x = (V c main_v46 : S100000x128.Idx → EReal) i := by
  obtain ⟨-, -, e2, e3, -⟩ := idx_facts4 t
  unfold iblk4
  rw [View.read_apply]
  show V c main_v46 _ = V c main_v46 _
  congr 1
  funext a; apply Fin.ext
  match a with
  | ⟨0, _⟩ => show win4_1.index t (0 : Fin 2) * 5000 + 1 * (x 0).val = (i 0).val; omega
  | ⟨1, _⟩ => show win4_1.index t (1 : Fin 2) * 128 + 1 * (x 1).val = (i 1).val; omega

/-- The first weight block at any point is the first weight array. -/
theorem iblk4_2_apply (c : Dev nD) (t : Fin cfg4.N) (x : S128x128.Idx) :
    (iblk4 V c 2 t : Vec Ideal S128x128 .bf16) x = (V c main_v19 : S128x128.Idx → EReal) x := by
  obtain ⟨-, -, -, -, e4, e5, -⟩ := idx_facts4 t
  unfold iblk4
  rw [View.read_apply]
  show V c main_v19 _ = V c main_v19 _
  congr 1
  funext a; apply Fin.ext
  match a with
  | ⟨0, _⟩ => show win4_2.index t (0 : Fin 2) * 128 + 1 * (x 0).val = (x 0).val; omega
  | ⟨1, _⟩ => show win4_2.index t (1 : Fin 2) * 128 + 1 * (x 1).val = (x 1).val; omega

/-- The second weight block at any point is the second weight array. -/
theorem iblk4_3_apply (c : Dev nD) (t : Fin cfg4.N) (x : S128x128.Idx) :
    (iblk4 V c 3 t : Vec Ideal S128x128 .bf16) x = (V c main_v21 : S128x128.Idx → EReal) x := by
  obtain ⟨-, -, -, -, -, -, e6, e7, -⟩ := idx_facts4 t
  unfold iblk4
  rw [View.read_apply]
  show V c main_v21 _ = V c main_v21 _
  congr 1
  funext a; apply Fin.ext
  match a with
  | ⟨0, _⟩ => show win4_3.index t (0 : Fin 2) * 128 + 1 * (x 0).val = (x 0).val; omega
  | ⟨1, _⟩ => show win4_3.index t (1 : Fin 2) * 128 + 1 * (x 1).val = (x 1).val; omega

/-- Entry x of the column block at point t is the column's entry in row 5000 t + (x 0). -/
theorem iblk4_4_apply (c : Dev nD) (t : Fin cfg4.N) (x : S5000x1.Idx) (i : S100000x1.Idx)
    (h0 : (i 0).val = t.val * 5000 + (x 0).val) (h1 : (i 1).val = (x 1).val) :
    (iblk4 V c 4 t : Vec Ideal S5000x1 .f32) x = (V c main_v15 : S100000x1.Idx → EReal) i := by
  obtain ⟨-, -, -, -, -, -, -, -, e8, e9, -⟩ := idx_facts4 t
  unfold iblk4
  rw [View.read_apply]
  show V c main_v15 _ = V c main_v15 _
  congr 1
  funext a; apply Fin.ext
  match a with
  | ⟨0, _⟩ => show win4_4.index t (0 : Fin 2) * 5000 + 1 * (x 0).val = (i 0).val; omega
  | ⟨1, _⟩ => show win4_4.index t (1 : Fin 2) * 1 + 1 * (x 1).val = (i 1).val; omega

/-! ## What a point writes back -/

/-- The whole-array function the region computes. -/
abbrev G4 (c : Dev nD) : S100000x128.Idx → EReal :=
  Cert.Gcn.scaledProduct2 (n := 100000) (d := 128) (dout := 128) (V c main_v34) (V c main_v46) (V c main_v19) (V c main_v21) (V c main_v15)

/-- Equal factors and termwise equal summands give equal scaled sums of two sums. -/
theorem scaled_congr4 {n : Nat} {a a' : EReal} {f f' g g' u u' v v' : Fin n → EReal} (ha : a = a')
    (hf : ∀ k, f k = f' k) (hg : ∀ k, g k = g' k) (hu : ∀ k, u k = u' k) (hv : ∀ k, v k = v' k) :
    a * ((∑ k : Fin n, f k * g k) + ∑ k : Fin n, u k * v k) = a' * ((∑ k : Fin n, f' k * g' k) + ∑ k : Fin n, u' k * v' k) := by
  obtain rfl := ha
  obtain rfl : f = f' := funext hf
  obtain rfl : g = g' := funext hg
  obtain rfl : u = u' := funext hu
  obtain rfl : v = v' := funext hv
  rfl

/-- Entry j of what point t stores is the whole-array function at j's place in the output's block at t. -/
theorem stored4_apply (c : Dev nD) (t : Fin cfg4.N) (j : S5000x128.Idx) :
    k4_pay1 (iblk4 V c 0 t) (iblk4 V c 1 t) (iblk4 V c 2 t) (iblk4 V c 3 t) (iblk4 V c 4 t) j
      = G4 V c (((cfg4.win 5).blk t).view.emb j) := by
  obtain ⟨-, -, -, -, -, -, -, -, -, -, e10, e11⟩ := idx_facts4 t
  have hr : ((((cfg4.win 5).blk t).view.emb j) 0).val = t.val * 5000 + (j 0).val := by
    show win4_5.index t (0 : Fin 2) * 5000 + 1 * (j 0).val = _; omega
  have hc : ((((cfg4.win 5).blk t).view.emb j) 1).val = (j 1).val := by
    show win4_5.index t (1 : Fin 2) * 128 + 1 * (j 1).val = _; omega
  have hcol : ∀ k : Fin 128, (ix2 k (j 1) : S128x128.Idx) = ix2 k ((((cfg4.win 5).blk t).view.emb j) 1) := fun k => by
    funext a; apply Fin.ext
    match a with
    | ⟨0, _⟩ => rfl
    | ⟨1, _⟩ => exact hc.symm
  refine (congrArg _ (eq_ix2 j)).trans ((pay4_apply _ _ _ _ _ (j 0) (j 1)).trans ?_)
  unfold G4 Cert.Gcn.scaledProduct2
  refine scaled_congr4 ?_ (fun k => ?_) (fun k => ?_) (fun k => ?_) (fun k => ?_)
  · exact iblk4_4_apply V c t _ _ hr rfl
  · exact iblk4_0_apply V c t _ _ hr rfl
  · exact (iblk4_2_apply V c t _).trans (congrArg _ (hcol k))
  · exact iblk4_1_apply V c t _ _ hr rfl
  · exact (iblk4_3_apply V c t _).trans (congrArg _ (hcol k))

/-- What point t writes back is the output block at t of the whole-array function. -/
theorem flushed4_eq (c : Dev nD) (t : Fin cfg4.N) :
    (dat4 (F := Ideal) V c).flushed 5 t = ((cfg4.win 5).blk t).view.read (Elt Ideal) (G4 V c) := by
  show (cfg4.win 5).cut (grid4.coords t) ((dat4 (F := Ideal) V c).after 5 t) = _
  rw [after4_5]
  unfold out4_5
  rw [View.canon_unit_zero zeroOff4]
  simp only [View.ld_unit_zero (S := S5000x128) zeroOff4, View.ld_unit_zero (S := S128x128) zeroOff4,
    View.ld_unit_zero (S := S5000x1) zeroOff4]
  funext j
  exact stored4_apply V c t j

/-! ## The blocks tile the array -/

/-- An index of the output array is in point t's block iff each coordinate is in the block's range on its axis. -/
theorem mem_blk4 (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole main_v47).slice (win4_5.rect t)).set ↔ _
  rw [View.set_slice_whole, Rect.mem_set_unit]
  exact Iff.rfl

/-- Every index of the output array is in the block of the point its row falls in. -/
theorem cover4 (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  obtain ⟨-, -, -, -, -, -, -, -, -, -, e10, e11⟩ := idx_facts4 t
  have ht : t.val = (i 0).val / 5000 := rfl
  refine ⟨t, flush4_5 t, ?_⟩
  rw [mem_blk4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-! ## The output array -/

/-- After the region the output array holds, row by row, the scaled sum of the two products. -/
theorem final4 (c : Dev nD) : (dat4 (F := Ideal) V c).arrAt 5 cfg4.N
    = Cert.Gcn.scaledProduct2 (n := 100000) (d := 128) (dout := 128) (V c main_v34) (V c main_v46) (V c main_v19) (V c main_v21) (V c main_v15) :=
  (dat4 (F := Ideal) V c).arrAt_eq_of_cover 5 (G4 V c) (fun t _ => flushed4_eq V c t) cover4

end Cert.KernelIdeal.RegionValue

end
-- ==== Proof.Region5.lean ====
/-
  Region 5: every row of a [100000, 128] array scaled by that row's factor, a bias added column by column, then tanh.

  The grid's 20 points each take 5000 rows: point t reads rows 5000 t .. 5000 t + 4999 of the array and of the column of
  factors, and the whole bias vector, and writes the same rows of the result. So what each point writes back is its block of
  ONE function of the three arrays, index by index, and the 20 blocks tile the result.
-/
import proofs.«114380_j16286515987229_2_alg».proof.Proof.Spec
import proofs.«114380_j16286515987229_2_alg».proof.Proof.Gen.KernelIdeal.Frame
import proofs.«114380_j16286515987229_2_alg».proof.Proof.LibColumnLayout
import Idealize.ShloMosaic.Lib.Pipeline.Value
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a rank-1 load, spelt as a constant function. -/
theorem zeroOffs5_1 : (![0] : Fin 1 → Nat) = fun _ => 0 := funext fun a => by fin_cases a <;> rfl
/-- The zero offsets of a rank-2 load or store, spelt as a constant function. -/
theorem zeroOffs5_2 : (![0, 0] : Fin 2 → Nat) = fun _ => 0 := funext fun a => by fin_cases a <;> rfl

/-- The body's result at row p, column q of a block: the row's factor times the entry, plus the bias of the column, through tanh. -/
theorem pay5_apply (x0 : Vec Ideal S5000x128 .f32) (x1 : Vec Ideal S5000x1 .f32) (x2 : Vec Ideal S128 .f32) (p : Fin 5000) (q : Fin 128) :
    Gen.k5_pay1 (F := Ideal) x2 x1 x0 (ix2 p q) = Ideal.tanh (x1 (ix2 p (0 : Fin 1)) * x0 (ix2 p q) + x2 (ix1 q)) := by
  unfold Gen.k5_pay1
  show Ideal.tanh (broadcastTo S5000x128 (shapeCast S5000x1 x1 _) _ (ix2 p q) * shapeCast S5000x128 x0 _ (ix2 p q)
      + broadcastTo S5000x128 (shapeCast S1x128 x2 _) _ (ix2 p q)) = _
  rw [shapeCast_self, shapeCast_self, broadcastTo_a1_ab_apply, broadcastTo_1b_ab_apply, shapeCast_a_1a_apply]

/-- The index maps, decided over the 20 points: the array's and the column's row blocks move with the result's, every
    column index and the bias's index stay 0, and the result's row-block index is below 20. -/
theorem index_facts5 : ∀ t : Fin cfg5.N,
    win5_0.index t (0 : Fin 2) = win5_3.index t (0 : Fin 2) ∧ win5_0.index t (1 : Fin 2) = 0
    ∧ win5_1.index t (0 : Fin 2) = win5_3.index t (0 : Fin 2) ∧ win5_1.index t (1 : Fin 2) = 0
    ∧ win5_2.index t (0 : Fin 1) = 0
    ∧ win5_3.index t (1 : Fin 2) = 0 ∧ win5_3.index t (0 : Fin 2) ≤ 19 :=
  (by decide +kernel : ∀ t : Fin grid5.N, _)

/-- Every row block of the result is some point's. -/
theorem index_onto5 : ∀ q0 : Fin 20, ∃ t : Fin cfg5.N, win5_3.index t = ![q0.val, 0] :=
  (by decide +kernel : ∀ q0 : Fin 20, ∃ t : Fin grid5.N, win5_3.index t = ![q0.val, 0])

/-- The three input blocks of point t, read at row p (and column q), are the arrays read where the result's block puts
    (p, q): the same row of the array and of the column of factors, the bias of the same column. -/
theorem block_read5 (A : S100000x128.Idx → EReal) (D : S100000x1.Idx → EReal) (B : S128.Idx → EReal)
    (t : Fin cfg5.N) (j : S5000x128.Idx) :
    Ideal.tanh (D (((cfg5.win 1).blk t).view.emb (ix2 (n0 := 5000) (n1 := 1) (j 0) (0 : Fin 1)))
        * A (((cfg5.win 0).blk t).view.emb (ix2 (n0 := 5000) (n1 := 128) (j 0) (j 1)))
      + B (((cfg5.win 2).blk t).view.emb (ix1 (n := 128) (j 1))))
    = Cert.Gcn.scaleBiasTanh (n := 100000) (d := 128) A D B (((cfg5.win 3).blk t).view.emb j) := by
  obtain ⟨e0, e1, e2, e3, e4, e5, e6⟩ := index_facts5 t
  have hj0 : (j 0).val < 5000 := (j 0).isLt
  have hj1 : (j 1).val < 128 := (j 1).isLt
  have h0 : ((cfg5.win 0).blk t).view.emb (ix2 (n0 := 5000) (n1 := 128) (j 0) (j 1)) = ((cfg5.win 3).blk t).view.emb j := by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * (j 1).val = win5_3.index t (1 : Fin 2) * 128 + 1 * (j 1).val; omega
  have h1 : ((cfg5.win 1).blk t).view.emb (ix2 (n0 := 5000) (n1 := 1) (j 0) (0 : Fin 1))
      = ix2 (n0 := 100000) (n1 := 1) ((((cfg5.win 3).blk t).view.emb j) 0) (0 : Fin 1) := by
    funext a; apply Fin.ext
    match a with
    | ⟨0, _⟩ => show win5_1.index t (0 : Fin 2) * 5000 + 1 * (j 0).val = win5_3.index t (0 : Fin 2) * 5000 + 1 * (j 0).val; omega
    | ⟨1, _⟩ => show win5_1.index t (1 : Fin 2) * 1 + 1 * 0 = 0; omega
  have h2 : ((cfg5.win 2).blk t).view.emb (ix1 (n := 128) (j 1)) = ix1 (n := 128) ((((cfg5.win 3).blk t).view.emb j) 1) := by
    funext a; apply Fin.ext
    match a with
    | ⟨0, _⟩ => show win5_2.index t (0 : Fin 1) * 128 + 1 * (j 1).val = win5_3.index t (1 : Fin 2) * 128 + 1 * (j 1).val; omega
  rw [h0, h1, h2]
  rfl

/-- What point t writes back is its block of the whole-array function. -/
theorem flushed_eq5 (c : Dev nD) (t : Fin cfg5.N) :
    (Gen.dat5 (F := Ideal) V c).flushed 3 t = ((cfg5.win 3).blk t).view.read (Elt Ideal)
      (Cert.Gcn.scaleBiasTanh (n := 100000) (d := 128) (V c main_v57) (V c main_v15) (V c main_arg8)) := by
  show (cfg5.win 3).cut (grid5.coords t) ((Gen.dat5 (F := Ideal) V c).after 3 t) = _
  rw [Gen.after5_3]
  unfold Gen.out5_3
  rw [View.canon_unit_zero zeroOffs5_2]
  simp only [View.ld_unit_zero (S := S5000x128) zeroOffs5_2, View.ld_unit_zero (S := S5000x1) zeroOffs5_2,
    View.ld_unit_zero (S := S128) zeroOffs5_1]
  funext j
  refine (congrArg (Gen.k5_pay1 (F := Ideal) _ _ _) (eq_ix2 (n0 := 5000) (n1 := 128) j)).trans
    ((pay5_apply _ _ _ (j 0) (j 1)).trans ?_)
  exact block_read5 (V c main_v57) (V c main_v15) (V c main_arg8) t j

/-- An index of the result is in point t's block iff each coordinate is in the block's range on its axis. -/
theorem mem_block5 (t : Fin cfg5.N) (i : S100000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v58).slice (win5_3.rect t)).set ↔ _
  rw [View.set_slice_whole, Rect.mem_set_unit]
  exact Iff.rfl

/-- The 20 blocks of 5000 rows tile the 100000 rows: row r is in the block of the point whose row-block index is r / 5000. -/
theorem cover5 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ := index_onto5 ⟨(i 0).val / 5000, by omega⟩
  have q0 : win5_3.index t (0 : Fin 2) = (i 0).val / 5000 := congrFun ht 0
  have q1 : win5_3.index t (1 : Fin 2) = 0 := congrFun ht 1
  refine ⟨t, Gen.flush5_3 t, ?_⟩
  rw [mem_block5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- The result array after the region: the whole-array function of the three arrays the region reads. -/
theorem final5 (c : Dev nD) : (Gen.dat5 (F := Ideal) V c).arrAt 3 cfg5.N
    = Cert.Gcn.scaleBiasTanh (n := 100000) (d := 128) (V c main_v57) (V c main_v15) (V c main_arg8) :=
  (Gen.dat5 (F := Ideal) V c).arrAt_eq_of_cover 3 _ (fun t _ => flushed_eq5 V c t) cover5

end Cert.KernelIdeal.RegionValue

end
-- ==== Proof.Region6.lean ====
/-
  Region 6: the rows of a [100000, 128] array, cast to the narrower float type, times a [128, 64] weight matrix, each
  row of the product scaled by that row's entry of a [100000, 1] column.
  The region works through the rows in 20 blocks of 5000; the weight matrix is read whole at every block. Below: the
  block's arithmetic at an index (a scaled sum over the contracted coordinate), each input block as entries of its array,
  what a block writes back as the block of ONE whole-array function, and, since the 20 row blocks tile the 100000 rows,
  the output array as that function.
-/
import proofs.«114380_j16286515987229_2_alg».proof.Proof.Spec
import proofs.«114380_j16286515987229_2_alg».proof.Proof.Gen.KernelIdeal.Frame
import proofs.«114380_j16286515987229_2_alg».proof.Proof.LibDotSingle
import proofs.«114380_j16286515987229_2_alg».proof.Proof.LibColumnLayout
import Idealize.ShloMosaic.Lib.Pipeline.Value

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open scoped BigOperators

variable (V : (c : Dev nD) → (b : Ref sig .tc) → Buf (Elt Ideal) ((c : Thread nD τ).loc b))

/-- The zero offsets of a rank-2 rectangle, as the constant function. -/
theorem zeroOff6 : (![0, 0] : Fin 2 → Nat) = fun _ => 0 := funext fun a => by fin_cases a <;> rfl

/-! ## The block's arithmetic at an index -/

/-- The left operand's index at result index (p, q) and contracted coordinate k is (p, k). -/
theorem dot6_lhs (p : Fin 5000) (q : Fin 64) (k : Fin 128) :
    dot_S5000x128_S128x64_S5000x64_1_0_0_1_n_n.lhsIdx (ix2 p q) ((contrEquiv1 dot_S5000x128_S128x64_S5000x64_1_0_0_1_n_n 128 rfl rfl).symm k) = ix2 p k := by
  funext ax; apply Fin.ext
  match ax with
  | ⟨0, _⟩ => rfl
  | ⟨1, _⟩ =>
    exact (dot_S5000x128_S128x64_S5000x64_1_0_0_1_n_n.lhsIdx_val_of_single (cl := 1) rfl _ _).trans (contrEquiv1_symm_val dot_S5000x128_S128x64_S5000x64_1_0_0_1_n_n 128 rfl rfl k)

/-- The right operand's index at result index (p, q) and contracted coordinate k is (k, q). -/
theorem dot6_rhs (p : Fin 5000) (q : Fin 64) (k : Fin 128) :
    dot_S5000x128_S128x64_S5000x64_1_0_0_1_n_n.rhsIdx (ix2 p q) ((contrEquiv1 dot_S5000x128_S128x64_S5000x64_1_0_0_1_n_n 128 rfl rfl).symm k) = ix2 k q := by
  funext ax; apply Fin.ext
  match ax with
  | ⟨0, _⟩ =>
    exact (dot_S5000x128_S128x64_S5000x64_1_0_0_1_n_n.rhsIdx_val_of_single (cr := 0) rfl _ _).trans (contrEquiv1_symm_val dot_S5000x128_S128x64_S5000x64_1_0_0_1_n_n 128 rfl rfl k)
  | ⟨1, _⟩ => rfl

/-- Entry (p, q) of what a block stores: the row's factor times the sum over the contracted coordinate. -/
theorem pay6_apply (x0 : Vec Ideal S5000x128 .f32) (x1 : Vec Ideal S128x64 .bf16) (x2 : Vec Ideal S5000x1 .f32)
    (p : Fin 5000) (q : Fin 64) :
    k6_pay1 x0 x1 x2 (ix2 p q) = x2 (ix2 p (0 : Fin 1)) * ∑ k : Fin 128, x0 (ix2 p k) * x1 (ix2 k q) := by
  unfold k6_pay1
  simp only [shapeCast_self]
  rw [mulf_apply, broadcastTo_a1_ab_apply]
  congr 1
  exact Cert.LibDotSingle.matmul_zero_single dot_S5000x128_S128x64_S5000x64_1_0_0_1_n_n none 128 rfl rfl _ _ _ _ _
    (fun k => by rw [truncf_apply, dot6_lhs]) (fun k => by rw [dot6_rhs])

/-! ## Where the blocks sit -/

/-- The index maps over the 20 points: the row-blocked windows sit at row block t, the weight window at the origin. -/
theorem idx_facts6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

/-- Entry x of the input block of rows at point t is the array's entry in row 5000 t + (x 0). -/
theorem iblk6_0_apply (c : Dev nD) (t : Fin cfg6.N) (x : S5000x128.Idx) (i : S100000x128.Idx)
    (h0 : (i 0).val = t.val * 5000 + (x 0).val) (h1 : (i 1).val = (x 1).val) :
    (iblk6 V c 0 t : Vec Ideal S5000x128 .f32) x = (V c main_v58 : S100000x128.Idx → EReal) i := by
  obtain ⟨e0, e1, -⟩ := idx_facts6 t
  unfold iblk6
  rw [View.read_apply]
  show V c main_v58 _ = V c main_v58 _
  congr 1
  funext a; apply Fin.ext
  match a with
  | ⟨0, _⟩ => show win6_0.index t (0 : Fin 2) * 5000 + 1 * (x 0).val = (i 0).val; omega
  | ⟨1, _⟩ => show win6_0.index t (1 : Fin 2) * 128 + 1 * (x 1).val = (i 1).val; omega

/-- The weight block at any point is the weight array. -/
theorem iblk6_1_apply (c : Dev nD) (t : Fin cfg6.N) (x : S128x64.Idx) :
    (iblk6 V c 1 t : Vec Ideal S128x64 .bf16) x = (V c main_v22 : S128x64.Idx → EReal) x := by
  obtain ⟨-, -, e2, e3, -⟩ := idx_facts6 t
  unfold iblk6
  rw [View.read_apply]
  show V c main_v22 _ = V c main_v22 _
  congr 1
  funext a; apply Fin.ext
  match a with
  | ⟨0, _⟩ => show win6_1.index t (0 : Fin 2) * 128 + 1 * (x 0).val = (x 0).val; omega
  | ⟨1, _⟩ => show win6_1.index t (1 : Fin 2) * 64 + 1 * (x 1).val = (x 1).val; omega

/-- Entry x of the column block at point t is the column's entry in row 5000 t + (x 0). -/
theorem iblk6_2_apply (c : Dev nD) (t : Fin cfg6.N) (x : S5000x1.Idx) (i : S100000x1.Idx)
    (h0 : (i 0).val = t.val * 5000 + (x 0).val) (h1 : (i 1).val = (x 1).val) :
    (iblk6 V c 2 t : Vec Ideal S5000x1 .f32) x = (V c main_v15 : S100000x1.Idx → EReal) i := by
  obtain ⟨-, -, -, -, e4, e5, -⟩ := idx_facts6 t
  unfold iblk6
  rw [View.read_apply]
  show V c main_v15 _ = V c main_v15 _
  congr 1
  funext a; apply Fin.ext
  match a with
  | ⟨0, _⟩ => show win6_2.index t (0 : Fin 2) * 5000 + 1 * (x 0).val = (i 0).val; omega
  | ⟨1, _⟩ => show win6_2.index t (1 : Fin 2) * 1 + 1 * (x 1).val = (i 1).val; omega

/-! ## What a point writes back -/

/-- The whole-array function the region computes. -/
abbrev G6 (c : Dev nD) : S100000x64.Idx → EReal :=
  Cert.Gcn.scaledProduct (n := 100000) (din := 128) (dout := 64) (V c main_v58) (V c main_v22) (V c main_v15)

/-- Equal factors and termwise equal summands give equal scaled sums. -/
theorem scaled_congr6 {n : Nat} {a a' : EReal} {f f' g g' : Fin n → EReal} (ha : a = a') (hf : ∀ k, f k = f' k)
    (hg : ∀ k, g k = g' k) : a * ∑ k : Fin n, f k * g k = a' * ∑ k : Fin n, f' k * g' k := by
  obtain rfl := ha
  obtain rfl : f = f' := funext hf
  obtain rfl : g = g' := funext hg
  rfl

/-- Entry j of what point t stores is the whole-array function at j's place in the output's block at t. -/
theorem stored6_apply (c : Dev nD) (t : Fin cfg6.N) (j : S5000x64.Idx) :
    k6_pay1 (iblk6 V c 0 t) (iblk6 V c 1 t) (iblk6 V c 2 t) j = G6 V c (((cfg6.win 3).blk t).view.emb j) := by
  obtain ⟨-, -, -, -, -, -, e6, e7⟩ := idx_facts6 t
  have hr : ((((cfg6.win 3).blk t).view.emb j) 0).val = t.val * 5000 + (j 0).val := by
    show win6_3.index t (0 : Fin 2) * 5000 + 1 * (j 0).val = _; omega
  have hc : ((((cfg6.win 3).blk t).view.emb j) 1).val = (j 1).val := by
    show win6_3.index t (1 : Fin 2) * 64 + 1 * (j 1).val = _; omega
  refine (congrArg _ (eq_ix2 j)).trans ((pay6_apply _ _ _ (j 0) (j 1)).trans ?_)
  unfold G6 Cert.Gcn.scaledProduct
  refine scaled_congr6 ?_ (fun k => ?_) (fun k => ?_)
  · exact iblk6_2_apply V c t _ _ hr rfl
  · exact iblk6_0_apply V c t _ _ hr rfl
  · refine (iblk6_1_apply V c t _).trans ?_
    congr 1
    funext a; apply Fin.ext
    match a with
    | ⟨0, _⟩ => rfl
    | ⟨1, _⟩ => exact hc.symm

/-- What point t writes back is the output block at t of the whole-array function. -/
theorem flushed6_eq (c : Dev nD) (t : Fin cfg6.N) :
    (dat6 (F := Ideal) V c).flushed 3 t = ((cfg6.win 3).blk t).view.read (Elt Ideal) (G6 V c) := by
  show (cfg6.win 3).cut (grid6.coords t) ((dat6 (F := Ideal) V c).after 3 t) = _
  rw [after6_3]
  unfold out6_3
  rw [View.canon_unit_zero zeroOff6]
  simp only [View.ld_unit_zero (S := S5000x128) zeroOff6, View.ld_unit_zero (S := S128x64) zeroOff6,
    View.ld_unit_zero (S := S5000x1) zeroOff6]
  funext j
  exact stored6_apply V c t j

/-! ## The blocks tile the array -/

/-- An index of the output array is in point t's block iff each coordinate is in the block's range on its axis. -/
theorem mem_blk6 (t : Fin cfg6.N) (i : S100000x64.Idx) :
    i ∈ ((cfg6.win 3).blk t).view.set ↔ ∀ a : Fin 2, win6_3.index t a * S5000x64.size a ≤ (i a).val ∧ (i a).val < win6_3.index t a * S5000x64.size a + S5000x64.size a := by
  show i ∈ ((View.whole main_v59).slice (win6_3.rect t)).set ↔ _
  rw [View.set_slice_whole, Rect.mem_set_unit]
  exact Iff.rfl

/-- Every index of the output array is in the block of the point its row falls in. -/
theorem cover6 (i : S100000x64.Idx) :
    ∃ t : Fin cfg6.N, (cfg6.win 3).flush t = true ∧ i ∈ ((cfg6.win 3).blk t).view.set := by
  have hi0 : (i 0).val < 100000 := (i 0).isLt
  have hi1 : (i 1).val < 64 := (i 1).isLt
  have hN : cfg6.N = 20 := N_6
  let t : Fin cfg6.N := ⟨(i 0).val / 5000, by rw [hN]; omega⟩
  obtain ⟨-, -, -, -, -, -, e6, e7⟩ := idx_facts6 t
  have ht : t.val = (i 0).val / 5000 := rfl
  refine ⟨t, flush6_3 t, ?_⟩
  rw [mem_blk6]
  intro a
  match a with
  | ⟨0, _⟩ => show win6_3.index t (0 : Fin 2) * 5000 ≤ (i 0).val ∧ (i 0).val < win6_3.index t (0 : Fin 2) * 5000 + 5000; omega
  | ⟨1, _⟩ => show win6_3.index t (1 : Fin 2) * 64 ≤ (i 1).val ∧ (i 1).val < win6_3.index t (1 : Fin 2) * 64 + 64; omega

/-! ## The output array -/

/-- After the region the output array holds, row by row, the scaled product. -/
theorem final6 (c : Dev nD) : (dat6 (F := Ideal) V c).arrAt 3 cfg6.N
    = Cert.Gcn.scaledProduct (n := 100000) (din := 128) (dout := 64) (V c main_v58) (V c main_v22) (V c main_v15) :=
  (dat6 (F := Ideal) V c).arrAt_eq_of_cover 3 (G6 V c) (fun t _ => flushed6_eq V c t) cover6

end Cert.KernelIdeal.RegionValue

end
-- ==== Proof.Region7.lean ====
/-
  Region 7: every row of a [100000, 64] array scaled by that row's factor, a bias added column by column.

  The grid's 20 points each take 5000 rows: point t reads rows 5000 t .. 5000 t + 4999 of the array and of the column of
  factors, and the whole bias vector, and writes the same rows of the result. So what each point writes back is its block of
  ONE function of the three arrays, index by index, and the 20 blocks tile the result.
-/
import proofs.«114380_j16286515987229_2_alg».proof.Proof.Spec
import proofs.«114380_j16286515987229_2_alg».proof.Proof.Gen.KernelIdeal.Frame
import proofs.«114380_j16286515987229_2_alg».proof.Proof.LibColumnLayout
import Idealize.ShloMosaic.Lib.Pipeline.Value
import Idealize.ShloMosaic.Lib.ValueLayout

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a rank-1 load, spelt as a constant function. -/
theorem zeroOffs7_1 : (![0] : Fin 1 → Nat) = fun _ => 0 := funext fun a => by fin_cases a <;> rfl
/-- The zero offsets of a rank-2 load or store, spelt as a constant function. -/
theorem zeroOffs7_2 : (![0, 0] : Fin 2 → Nat) = fun _ => 0 := funext fun a => by fin_cases a <;> rfl

/-- The body's result at row p, column q of a block: the row's factor times the entry, plus the bias of the column. -/
theorem pay7_apply (x0 : Vec Ideal S5000x64 .f32) (x1 : Vec Ideal S5000x1 .f32) (x2 : Vec Ideal S64 .f32) (p : Fin 5000) (q : Fin 64) :
    Gen.k7_pay1 (F := Ideal) x2 x1 x0 (ix2 p q) = x1 (ix2 p (0 : Fin 1)) * x0 (ix2 p q) + x2 (ix1 q) := by
  unfold Gen.k7_pay1
  show broadcastTo S5000x64 (shapeCast S5000x1 x1 _) _ (ix2 p q) * shapeCast S5000x64 x0 _ (ix2 p q)
      + broadcastTo S5000x64 (shapeCast S1x64 x2 _) _ (ix2 p q) = _
  rw [shapeCast_self, shapeCast_self, broadcastTo_a1_ab_apply, broadcastTo_1b_ab_apply, shapeCast_a_1a_apply]

/-- The index maps, decided over the 20 points: the array's and the column's row blocks move with the result's, every
    column index and the bias's index stay 0, and the result's row-block index is below 20. -/
theorem index_facts7 : ∀ t : Fin cfg7.N,
    win7_0.index t (0 : Fin 2) = win7_3.index t (0 : Fin 2) ∧ win7_0.index t (1 : Fin 2) = 0
    ∧ win7_1.index t (0 : Fin 2) = win7_3.index t (0 : Fin 2) ∧ win7_1.index t (1 : Fin 2) = 0
    ∧ win7_2.index t (0 : Fin 1) = 0
    ∧ win7_3.index t (1 : Fin 2) = 0 ∧ win7_3.index t (0 : Fin 2) ≤ 19 :=
  (by decide +kernel : ∀ t : Fin grid7.N, _)

/-- Every row block of the result is some point's. -/
theorem index_onto7 : ∀ q0 : Fin 20, ∃ t : Fin cfg7.N, win7_3.index t = ![q0.val, 0] :=
  (by decide +kernel : ∀ q0 : Fin 20, ∃ t : Fin grid7.N, win7_3.index t = ![q0.val, 0])

/-- The three input blocks of point t, read at row p (and column q), are the arrays read where the result's block puts
    (p, q): the same row of the array and of the column of factors, the bias of the same column. -/
theorem block_read7 (A : S100000x64.Idx → EReal) (D : S100000x1.Idx → EReal) (B : S64.Idx → EReal)
    (t : Fin cfg7.N) (j : S5000x64.Idx) :
    D (((cfg7.win 1).blk t).view.emb (ix2 (n0 := 5000) (n1 := 1) (j 0) (0 : Fin 1)))
        * A (((cfg7.win 0).blk t).view.emb (ix2 (n0 := 5000) (n1 := 64) (j 0) (j 1)))
      + B (((cfg7.win 2).blk t).view.emb (ix1 (n := 64) (j 1)))
    = Cert.Gcn.scaleBias (n := 100000) (d := 64) A D B (((cfg7.win 3).blk t).view.emb j) := by
  obtain ⟨e0, e1, e2, e3, e4, e5, e6⟩ := index_facts7 t
  have hj0 : (j 0).val < 5000 := (j 0).isLt
  have hj1 : (j 1).val < 64 := (j 1).isLt
  have h0 : ((cfg7.win 0).blk t).view.emb (ix2 (n0 := 5000) (n1 := 64) (j 0) (j 1)) = ((cfg7.win 3).blk t).view.emb j := by
    funext a; apply Fin.ext
    match a with
    | ⟨0, _⟩ => show win7_0.index t (0 : Fin 2) * 5000 + 1 * (j 0).val = win7_3.index t (0 : Fin 2) * 5000 + 1 * (j 0).val; omega
    | ⟨1, _⟩ => show win7_0.index t (1 : Fin 2) * 64 + 1 * (j 1).val = win7_3.index t (1 : Fin 2) * 64 + 1 * (j 1).val; omega
  have h1 : ((cfg7.win 1).blk t).view.emb (ix2 (n0 := 5000) (n1 := 1) (j 0) (0 : Fin 1))
      = ix2 (n0 := 100000) (n1 := 1) ((((cfg7.win 3).blk t).view.emb j) 0) (0 : Fin 1) := by
    funext a; apply Fin.ext
    match a with
    | ⟨0, _⟩ => show win7_1.index t (0 : Fin 2) * 5000 + 1 * (j 0).val = win7_3.index t (0 : Fin 2) * 5000 + 1 * (j 0).val; omega
    | ⟨1, _⟩ => show win7_1.index t (1 : Fin 2) * 1 + 1 * 0 = 0; omega
  have h2 : ((cfg7.win 2).blk t).view.emb (ix1 (n := 64) (j 1)) = ix1 (n := 64) ((((cfg7.win 3).blk t).view.emb j) 1) := by
    funext a; apply Fin.ext
    match a with
    | ⟨0, _⟩ => show win7_2.index t (0 : Fin 1) * 64 + 1 * (j 1).val = win7_3.index t (1 : Fin 2) * 64 + 1 * (j 1).val; omega
  rw [h0, h1, h2]
  rfl

/-- What point t writes back is its block of the whole-array function. -/
theorem flushed_eq7 (c : Dev nD) (t : Fin cfg7.N) :
    (Gen.dat7 (F := Ideal) V c).flushed 3 t = ((cfg7.win 3).blk t).view.read (Elt Ideal)
      (Cert.Gcn.scaleBias (n := 100000) (d := 64) (V c main_v69) (V c main_v15) (V c main_arg10)) := by
  show (cfg7.win 3).cut (grid7.coords t) ((Gen.dat7 (F := Ideal) V c).after 3 t) = _
  rw [Gen.after7_3]
  unfold Gen.out7_3
  rw [View.canon_unit_zero zeroOffs7_2]
  simp only [View.ld_unit_zero (S := S5000x64) zeroOffs7_2, View.ld_unit_zero (S := S5000x1) zeroOffs7_2,
    View.ld_unit_zero (S := S64) zeroOffs7_1]
  funext j
  refine (congrArg (Gen.k7_pay1 (F := Ideal) _ _ _) (eq_ix2 (n0 := 5000) (n1 := 64) j)).trans
    ((pay7_apply _ _ _ (j 0) (j 1)).trans ?_)
  exact block_read7 (V c main_v69) (V c main_v15) (V c main_arg10) t j

/-- An index of the result is in point t's block iff each coordinate is in the block's range on its axis. -/
theorem mem_block7 (t : Fin cfg7.N) (i : S100000x64.Idx) :
    i ∈ ((cfg7.win 3).blk t).view.set ↔ ∀ a : Fin 2, win7_3.index t a * S5000x64.size a ≤ (i a).val
      ∧ (i a).val < win7_3.index t a * S5000x64.size a + S5000x64.size a := by
  show i ∈ ((View.whole main_v70).slice (win7_3.rect t)).set ↔ _
  rw [View.set_slice_whole, Rect.mem_set_unit]
  exact Iff.rfl

/-- The 20 blocks of 5000 rows tile the 100000 rows: row r is in the block of the point whose row-block index is r / 5000. -/
theorem cover7 (i : S100000x64.Idx) :
    ∃ t : Fin cfg7.N, (cfg7.win 3).flush t = true ∧ i ∈ ((cfg7.win 3).blk t).view.set := by
  have hi0 : (i 0).val < 100000 := (i 0).isLt
  have hi1 : (i 1).val < 64 := (i 1).isLt
  obtain ⟨t, ht⟩ := index_onto7 ⟨(i 0).val / 5000, by omega⟩
  have q0 : win7_3.index t (0 : Fin 2) = (i 0).val / 5000 := congrFun ht 0
  have q1 : win7_3.index t (1 : Fin 2) = 0 := congrFun ht 1
  refine ⟨t, Gen.flush7_3 t, ?_⟩
  rw [mem_block7]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 64 ≤ (i 1).val ∧ (i 1).val < win7_3.index t (1 : Fin 2) * 64 + 64; omega

/-- The result array after the region: the whole-array function of the three arrays the region reads. -/
theorem final7 (c : Dev nD) : (Gen.dat7 (F := Ideal) V c).arrAt 3 cfg7.N
    = Cert.Gcn.scaleBias (n := 100000) (d := 64) (V c main_v69) (V c main_v15) (V c main_arg10) :=
  (Gen.dat7 (F := Ideal) V c).arrAt_eq_of_cover 3 _ (fun t _ => flushed_eq7 V c t) cover7

end Cert.KernelIdeal.RegionValue

end
-- ==== Proof.KernelChain.lean ====
/-
  The idealized kernel's run, read: the result buffer ends at `Term.layer4` of the argument arrays.

  The fold of the buffer contents is followed from the launch memory: the prelude's host operations give the messages'
  sources and targets, the scaling column and the weight matrices' roundings (which are the identity on extended
  reals); each launch's output array is its kernel's function of its input arrays as the launch finds them; each
  stretch of host operations gathers and sums the rows just computed; and a buffer nobody has written since it was
  computed still holds its value when it is read.
-/
import proofs.«114380_j16286515987229_2_alg».proof.Proof.Gen.KernelIdeal.Frame
import proofs.«114380_j16286515987229_2_alg».proof.Proof.KernelKeep
import proofs.«114380_j16286515987229_2_alg».proof.Proof.KernelTerm
import proofs.«114380_j16286515987229_2_alg».proof.Proof.Region0
import proofs.«114380_j16286515987229_2_alg».proof.Proof.Region1
import proofs.«114380_j16286515987229_2_alg».proof.Proof.Region2
import proofs.«114380_j16286515987229_2_alg».proof.Proof.Region3
import proofs.«114380_j16286515987229_2_alg».proof.Proof.Region4
import proofs.«114380_j16286515987229_2_alg».proof.Proof.Region5
import proofs.«114380_j16286515987229_2_alg».proof.Proof.Region6
import proofs.«114380_j16286515987229_2_alg».proof.Proof.Region7
import Idealize.ShloMosaic.Lib.StableHlo.Run
import Idealize.ShloMosaic.PureOps.Ideal

set_option maxRecDepth 16384

noncomputable section

namespace Cert.KernelIdeal.Chain

open Cert.KernelIdeal Cert.KernelIdeal.Gen Cert.KernelIdeal.Term Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The prelude -/

theorem w1_v3 : W1 m ρ c (Proc.devRef .tc main_v3) = src1 (m ((c : Thread nD τ).loc main_arg2)) := by
  dsimp only [W1]; after_results <;> rfl
theorem w1_v6 : W1 m ρ c (Proc.devRef .tc main_v6) = dst1 (m ((c : Thread nD τ).loc main_arg2)) := by
  dsimp only [W1]; after_results <;> rfl
theorem w1_v12 : W1 m ρ c (Proc.devRef .tc main_v12)
    = (cmpf .ogt (deg (m ((c : Thread nD τ).loc main_arg2)))
        (broadcastInDim S100000 ![] Facts₀.bcast_S_S100000 (constant (F := Ideal) S_ .f32 0x00000000#32)) : IVec S100000 1) := by
  dsimp only [W1]; after_results <;> rfl
theorem w1_v13 : W1 m ρ c (Proc.devRef .tc main_v13) = (Host.rsqrt (deg (m ((c : Thread nD τ).loc main_arg2))) : FVec Ideal S100000 .f32) := by
  dsimp only [W1]; after_results <;> rfl
theorem w1_cst2 : W1 m ρ c (Proc.devRef .tc main_cst_2) = (constant (F := Ideal) S_ .f32 0x00000000#32 : FVec Ideal S_ .f32) := by
  dsimp only [W1]; after_results <;> rfl

theorem w2_v14 : W2 m ρ c (Proc.devRef .tc main_v14) = dinv (m ((c : Thread nD τ).loc main_arg2)) := by
  have key : ∀ X : Valuation τ sig (Elt Ideal), StableHlo.after hostOps0_1 X (Proc.devRef .tc main_v14)
      = (select (X (Proc.devRef .tc main_v12) : IVec S100000 1) (X (Proc.devRef .tc main_v13) : FVec Ideal S100000 .f32)
          (broadcastInDim S100000 ![] Facts₀.bcast_S_S100000 (X (Proc.devRef .tc main_cst_2) : FVec Ideal S_ .f32)) : FVec Ideal S100000 .f32) := by
    intro X; after_results <;> rfl
  refine (key (W1 m ρ c)).trans ?_
  rw [w1_v12, w1_v13, w1_cst2]; rfl

theorem w3_v15 : W3 m ρ c (Proc.devRef .tc main_v15) = dcol (m ((c : Thread nD τ).loc main_arg2)) := by
  have key : ∀ X : Valuation τ sig (Elt Ideal), StableHlo.after hostOps0_2 X (Proc.devRef .tc main_v15)
      = broadcastInDim S100000x1 ![0] Facts₀.bcast_S100000_S100000x1_0 (X (Proc.devRef .tc main_v14)) := by
    intro X; after_results <;> rfl
  exact (key (W2 m ρ c)).trans (congrArg _ (w2_v14 m ρ c))

theorem w3_v3 : W3 m ρ c (Proc.devRef .tc main_v3) = src1 (m ((c : Thread nD τ).loc main_arg2)) := by
  have key : ∀ X : Valuation τ sig (Elt Ideal),
      StableHlo.after hostOps0_2 (StableHlo.after hostOps0_1 X) (Proc.devRef .tc main_v3) = X (Proc.devRef .tc main_v3) := by
    intro X; after_results <;> rfl
  exact (key (W1 m ρ c)).trans (w1_v3 m ρ c)
theorem w3_v6 : W3 m ρ c (Proc.devRef .tc main_v6) = dst1 (m ((c : Thread nD τ).loc main_arg2)) := by
  have key : ∀ X : Valuation τ sig (Elt Ideal),
      StableHlo.after hostOps0_2 (StableHlo.after hostOps0_1 X) (Proc.devRef .tc main_v6) = X (Proc.devRef .tc main_v6) := by
    intro X; after_results <;> rfl
  exact (key (W1 m ρ c)).trans (w1_v6 m ρ c)

theorem w3_arg0 : W3 m ρ c (Proc.devRef .tc main_arg0) = m ((c : Thread nD τ).loc main_arg0) := by
  dsimp only [W3, W2, W1]; after_results <;> rfl
theorem w3_arg1 : W3 m ρ c (Proc.devRef .tc main_arg1) = m ((c : Thread nD τ).loc main_arg1) := by
  dsimp only [W3, W2, W1]; after_results <;> rfl
theorem w3_arg4 : W3 m ρ c (Proc.devRef .tc main_arg4) = m ((c : Thread nD τ).loc main_arg4) := by
  dsimp only [W3, W2, W1]; after_results <;> rfl
theorem w3_arg6 : W3 m ρ c (Proc.devRef .tc main_arg6) = m ((c : Thread nD τ).loc main_arg6) := by
  dsimp only [W3, W2, W1]; after_results <;> rfl
theorem w3_arg8 : W3 m ρ c (Proc.devRef .tc main_arg8) = m ((c : Thread nD τ).loc main_arg8) := by
  dsimp only [W3, W2, W1]; after_results <;> rfl
theorem w3_arg10 : W3 m ρ c (Proc.devRef .tc main_arg10) = m ((c : Thread nD τ).loc main_arg10) := by
  dsimp only [W3, W2, W1]; after_results <;> rfl

theorem w3_v16 : W3 m ρ c (Proc.devRef .tc main_v16)
    = (truncf (F := Ideal) .bf16 (m ((c : Thread nD τ).loc main_arg3) : FVec Ideal S256x128 .f32) Facts₀.bitsLt_bf16_f32 : FVec Ideal S256x128 .bf16) := by
  dsimp only [W3, W2, W1]; after_results <;> rfl
theorem w3_v17 : W3 m ρ c (Proc.devRef .tc main_v17)
    = (truncf (F := Ideal) .bf16 (m ((c : Thread nD τ).loc main_arg5) : FVec Ideal S64x128 .f32) Facts₀.bitsLt_bf16_f32 : FVec Ideal S64x128 .bf16) := by
  dsimp only [W3, W2, W1]; after_results <;> rfl
theorem w3_v19 : W3 m ρ c (Proc.devRef .tc main_v19)
    = (truncf (F := Ideal) .bf16 (extractStridedSlice S128x128 ![0, 0] (m ((c : Thread nD τ).loc main_arg7) : FVec Ideal S256x128 .f32) Facts₀.slices_S256x128_S128x128_0_0) Facts₀.bitsLt_bf16_f32 : FVec Ideal S128x128 .bf16) := by
  dsimp only [W3, W2, W1]; after_results <;> rfl
theorem w3_v21 : W3 m ρ c (Proc.devRef .tc main_v21)
    = (truncf (F := Ideal) .bf16 (extractStridedSlice S128x128 ![128, 0] (m ((c : Thread nD τ).loc main_arg7) : FVec Ideal S256x128 .f32) Facts₀.slices_S256x128_S128x128_128_0) Facts₀.bitsLt_bf16_f32 : FVec Ideal S128x128 .bf16) := by
  dsimp only [W3, W2, W1]; after_results <;> rfl
theorem w3_v22 : W3 m ρ c (Proc.devRef .tc main_v22)
    = (truncf (F := Ideal) .bf16 (m ((c : Thread nD τ).loc main_arg9) : FVec Ideal S128x64 .f32) Facts₀.bitsLt_bf16_f32 : FVec Ideal S128x64 .bf16) := by
  dsimp only [W3, W2, W1]; after_results <;> rfl

/-! ## The gather-and-sum stretches -/

theorem h5 : W5 m ρ c (Proc.devRef .tc main_v33)
    = agg128 (W4 m ρ c (Proc.devRef .tc main_v23)) (W4 m ρ c (Proc.devRef .tc main_v3)) (W4 m ρ c (Proc.devRef .tc main_v6)) := by
  have key : ∀ X : Valuation τ sig (Elt Ideal), StableHlo.after hostOps1 X (Proc.devRef .tc main_v33)
      = agg128 (X (Proc.devRef .tc main_v23) : FVec Ideal S100000x128 .f32) (X (Proc.devRef .tc main_v3) : IVec S1700000 32)
          (X (Proc.devRef .tc main_v6) : IVec S1700000 32) := by
    intro X
    after_results_simp
    rfl
  exact key (W4 m ρ c)
theorem h8 : W8 m ρ c (Proc.devRef .tc main_v45)
    = agg128 (W7 m ρ c (Proc.devRef .tc main_v35)) (W7 m ρ c (Proc.devRef .tc main_v3)) (W7 m ρ c (Proc.devRef .tc main_v6)) := by
  have key : ∀ X : Valuation τ sig (Elt Ideal), StableHlo.after hostOps3 X (Proc.devRef .tc main_v45)
      = agg128 (X (Proc.devRef .tc main_v35) : FVec Ideal S100000x128 .f32) (X (Proc.devRef .tc main_v3) : IVec S1700000 32)
          (X (Proc.devRef .tc main_v6) : IVec S1700000 32) := by
    intro X
    after_results_simp
    rfl
  exact key (W7 m ρ c)
theorem h11 : W11 m ρ c (Proc.devRef .tc main_v57)
    = agg128 (W10 m ρ c (Proc.devRef .tc main_v47)) (W10 m ρ c (Proc.devRef .tc main_v3)) (W10 m ρ c (Proc.devRef .tc main_v6)) := by
  have key : ∀ X : Valuation τ sig (Elt Ideal), StableHlo.after hostOps5 X (Proc.devRef .tc main_v57)
      = agg128 (X (Proc.devRef .tc main_v47) : FVec Ideal S100000x128 .f32) (X (Proc.devRef .tc main_v3) : IVec S1700000 32)
          (X (Proc.devRef .tc main_v6) : IVec S1700000 32) := by
    intro X
    after_results_simp
    rfl
  exact key (W10 m ρ c)
theorem h14 : W14 m ρ c (Proc.devRef .tc main_v69)
    = agg64 (W13 m ρ c (Proc.devRef .tc main_v59)) (W13 m ρ c (Proc.devRef .tc main_v3)) (W13 m ρ c (Proc.devRef .tc main_v6)) := by
  have key : ∀ X : Valuation τ sig (Elt Ideal), StableHlo.after hostOps7 X (Proc.devRef .tc main_v69)
      = agg64 (X (Proc.devRef .tc main_v59) : FVec Ideal S100000x64 .f32) (X (Proc.devRef .tc main_v3) : IVec S1700000 32)
          (X (Proc.devRef .tc main_v6) : IVec S1700000 32) := by
    intro X
    after_results_simp
    rfl
  exact key (W13 m ρ c)

/-! ## The layers -/

-- the argument arrays, by number
set_option quotPrecheck false
local notation "A0" => m ((c : Thread nD τ).loc main_arg0)
local notation "A1" => m ((c : Thread nD τ).loc main_arg1)
local notation "A2" => m ((c : Thread nD τ).loc main_arg2)
local notation "A3" => m ((c : Thread nD τ).loc main_arg3)
local notation "A4" => m ((c : Thread nD τ).loc main_arg4)
local notation "A5" => m ((c : Thread nD τ).loc main_arg5)
local notation "A6" => m ((c : Thread nD τ).loc main_arg6)
local notation "A7" => m ((c : Thread nD τ).loc main_arg7)
local notation "A8" => m ((c : Thread nD τ).loc main_arg8)
local notation "A9" => m ((c : Thread nD τ).loc main_arg9)
local notation "A10" => m ((c : Thread nD τ).loc main_arg10)

theorem r0 : W4 m ρ c (Proc.devRef .tc main_v23)
    = rows1 A0 A2 A3 := by
  show W4 m ρ c (Proc.devRef .tc (Pipeline.arrRef spec0 3)) = _
  rw [W4_arr m ρ c 3, RegionValue.final0 (V3 m ρ) c]
  show scaledProduct (n := 100000) (din := 256) (dout := 128) (W3 m ρ c (Proc.devRef .tc main_arg0)) (W3 m ρ c (Proc.devRef .tc main_v16))
    (W3 m ρ c (Proc.devRef .tc main_v15)) = _
  rw [w3_arg0, w3_v16, w3_v15]
  rfl

theorem s1 : W5 m ρ c (Proc.devRef .tc main_v33)
    = agg128 (rows1 A0 A2 A3) (src1 A2) (dst1 A2) := by
  rw [h5, r0, Keep.to4 m ρ c main_v3 (by decide), Keep.to4 m ρ c main_v6 (by decide), w3_v3, w3_v6]

theorem r1 : W6 m ρ c (Proc.devRef .tc main_v34) = layer1 A0 A2 A3 A4 := by
  show W6 m ρ c (Proc.devRef .tc (Pipeline.arrRef spec1 3)) = _
  rw [W6_arr m ρ c 3, RegionValue.final1 (V5 m ρ) c]
  show scaleBiasTanh (n := 100000) (d := 128) (W5 m ρ c (Proc.devRef .tc main_v33)) (W5 m ρ c (Proc.devRef .tc main_v15))
    (W5 m ρ c (Proc.devRef .tc main_arg4)) = _
  rw [s1, Keep.to5 m ρ c main_v15 (by decide), Keep.to5 m ρ c main_arg4 (by decide), w3_v15, w3_arg4]
  rfl

theorem r2 : W7 m ρ c (Proc.devRef .tc main_v35)
    = rows2 A1 A2 A5 := by
  show W7 m ρ c (Proc.devRef .tc (Pipeline.arrRef spec2 3)) = _
  rw [W7_arr m ρ c 3, RegionValue.final2 (V6 m ρ) c]
  show scaledProduct (n := 100000) (din := 64) (dout := 128) (W6 m ρ c (Proc.devRef .tc main_arg1)) (W6 m ρ c (Proc.devRef .tc main_v17))
    (W6 m ρ c (Proc.devRef .tc main_v15)) = _
  rw [Keep.to6 m ρ c main_arg1 (by decide), Keep.to6 m ρ c main_v17 (by decide), Keep.to6 m ρ c main_v15 (by decide),
    w3_arg1, w3_v17, w3_v15]
  rfl

theorem s3 : W8 m ρ c (Proc.devRef .tc main_v45)
    = agg128 (rows2 A1 A2 A5) (src1 A2) (dst1 A2) := by
  rw [h8, r2, Keep.to7 m ρ c main_v3 (by decide), Keep.to7 m ρ c main_v6 (by decide), w3_v3, w3_v6]

theorem r3 : W9 m ρ c (Proc.devRef .tc main_v46) = layer2 A1 A2 A5 A6 := by
  show W9 m ρ c (Proc.devRef .tc (Pipeline.arrRef spec3 3)) = _
  rw [W9_arr m ρ c 3, RegionValue.final3 (V8 m ρ) c]
  show scaleBiasTanh (n := 100000) (d := 128) (W8 m ρ c (Proc.devRef .tc main_v45)) (W8 m ρ c (Proc.devRef .tc main_v15))
    (W8 m ρ c (Proc.devRef .tc main_arg6)) = _
  rw [s3, Keep.to8 m ρ c main_v15 (by decide), Keep.to8 m ρ c main_arg6 (by decide), w3_v15, w3_arg6]
  rfl

theorem r4 : W10 m ρ c (Proc.devRef .tc main_v47)
    = rows3 A0 A1 A2 A3 A4 A5 A6 A7 := by
  show W10 m ρ c (Proc.devRef .tc (Pipeline.arrRef spec4 5)) = _
  rw [W10_arr m ρ c 5, RegionValue.final4 (V9 m ρ) c]
  show scaledProduct2 (n := 100000) (d := 128) (dout := 128) (W9 m ρ c (Proc.devRef .tc main_v34)) (W9 m ρ c (Proc.devRef .tc main_v46))
    (W9 m ρ c (Proc.devRef .tc main_v19)) (W9 m ρ c (Proc.devRef .tc main_v21)) (W9 m ρ c (Proc.devRef .tc main_v15)) = _
  rw [Keep.v34_at9 m ρ c, r1, r3, Keep.to9 m ρ c main_v19 (by decide), Keep.to9 m ρ c main_v21 (by decide),
    Keep.to9 m ρ c main_v15 (by decide), w3_v19, w3_v21, w3_v15]
  rfl

theorem s5 : W11 m ρ c (Proc.devRef .tc main_v57)
    = agg128 (rows3 A0 A1 A2 A3 A4 A5 A6 A7)
      (src1 A2) (dst1 A2) := by
  rw [h11, r4, Keep.to10 m ρ c main_v3 (by decide), Keep.to10 m ρ c main_v6 (by decide), w3_v3, w3_v6]

theorem r5 : W12 m ρ c (Proc.devRef .tc main_v58) = layer3 A0 A1 A2 A3 A4 A5 A6 A7 A8 := by
  show W12 m ρ c (Proc.devRef .tc (Pipeline.arrRef spec5 3)) = _
  rw [W12_arr m ρ c 3, RegionValue.final5 (V11 m ρ) c]
  show scaleBiasTanh (n := 100000) (d := 128) (W11 m ρ c (Proc.devRef .tc main_v57)) (W11 m ρ c (Proc.devRef .tc main_v15))
    (W11 m ρ c (Proc.devRef .tc main_arg8)) = _
  rw [s5, Keep.to11 m ρ c main_v15 (by decide), Keep.to11 m ρ c main_arg8 (by decide), w3_v15, w3_arg8]
  rfl

theorem r6 : W13 m ρ c (Proc.devRef .tc main_v59)
    = rows4 A0 A1 A2 A3 A4 A5 A6 A7 A8 A9 := by
  show W13 m ρ c (Proc.devRef .tc (Pipeline.arrRef spec6 3)) = _
  rw [W13_arr m ρ c 3, RegionValue.final6 (V12 m ρ) c]
  show scaledProduct (n := 100000) (din := 128) (dout := 64) (W12 m ρ c (Proc.devRef .tc main_v58)) (W12 m ρ c (Proc.devRef .tc main_v22))
    (W12 m ρ c (Proc.devRef .tc main_v15)) = _
  rw [r5, Keep.to12 m ρ c main_v22 (by decide), Keep.to12 m ρ c main_v15 (by decide), w3_v22, w3_v15]
  rfl

theorem s7 : W14 m ρ c (Proc.devRef .tc main_v69)
    = agg64 (rows4 A0 A1 A2 A3 A4 A5 A6 A7 A8 A9)
      (src1 A2) (dst1 A2) := by
  rw [h14, r6, Keep.to13 m ρ c main_v3 (by decide), Keep.to13 m ρ c main_v6 (by decide), w3_v3, w3_v6]

/-- THE RESULT BUFFER at the end of the fold: layer four of the argument arrays. -/
theorem result : W15 m ρ c (Proc.devRef .tc main_v70) = layer4 A0 A1 A2 A3 A4 A5 A6 A7 A8 A9 A10 := by
  show W15 m ρ c (Proc.devRef .tc (Pipeline.arrRef spec7 3)) = _
  rw [W15_arr m ρ c 3, RegionValue.final7 (V14 m ρ) c]
  show scaleBias (n := 100000) (d := 64) (W14 m ρ c (Proc.devRef .tc main_v69)) (W14 m ρ c (Proc.devRef .tc main_v15))
    (W14 m ρ c (Proc.devRef .tc main_arg10)) = _
  rw [s7, Keep.to14 m ρ c main_v15 (by decide), Keep.to14 m ρ c main_arg10 (by decide), w3_v15, w3_arg10]
  rfl

end Cert.KernelIdeal.Chain

end
-- ==== Proof.RefTerm.lean ====
/-
  The reference's layer as a term of its host operations: rows gathered at the messages' sources, each multiplied by the
  product of the source's and the target's weights, summed into the targets, the bias added.
-/
import proofs.«114380_j16286515987229_2_alg».proof.Proof.Gen.ReferenceIdeal
import Idealize.ShloMosaic.PureOps.Ideal

noncomputable section

namespace Cert.ReferenceIdeal.Term

open Cert.ReferenceIdeal Cert.ReferenceIdeal.Facts₀ Cert.ReferenceIdeal.Facts
open Idealize.ShloMosaic

/-- The messages' sources: row 0 of the edge list, then every node. -/
def src1 (x2 : IVec S2x1600000 32) : IVec S1700000 32 :=
  concatenate S1700000 0
    [⟨S1600000, shapeCast S1600000 (extractStridedSlice S1x1600000 ![0, 0] x2 slices_S2x1600000_S1x1600000_0_0)
        shapeCasts_S1x1600000_S1600000⟩,
      ⟨S100000, iotaInDim S100000 32 0⟩]
    concatenates_S1600000_S100000_S1700000_d0

/-- The messages' targets: row 1 of the edge list, then every node. -/
def dst1 (x2 : IVec S2x1600000 32) : IVec S1700000 32 :=
  concatenate S1700000 0
    [⟨S1600000, shapeCast S1600000 (extractStridedSlice S1x1600000 ![1, 0] x2 slices_S2x1600000_S1x1600000_1_0)
        shapeCasts_S1x1600000_S1600000⟩,
      ⟨S100000, iotaInDim S100000 32 0⟩]
    concatenates_S1600000_S100000_S1700000_d0

/-- The number of messages into each node. -/
def deg (x2 : IVec S2x1600000 32) : FVec Ideal S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dst1 x2))
    (broadcastInDim S1700000 ![] bcast_S_S1700000 (constant S_ .f32 0x3F800000#32))

/-- `1 / sqrt deg` where `deg > 0`, else `0`. -/
def dinv (x2 : IVec S2x1600000 32) : FVec Ideal S100000 .f32 :=
  select (cmpf .ogt (deg x2) (broadcastInDim S100000 ![] bcast_S_S100000 (constant S_ .f32 0x00000000#32)))
    (Host.rsqrt (deg x2))
    (broadcastInDim S100000 ![] bcast_S_S100000 (constant S_ .f32 0x00000000#32))

/-- A look-up index wrapped once when negative, as a column of start indices. -/
def wrapped (v : IVec S1700000 32) : IVec S1700000x1 32 :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- Each message's weight, for any weights `d` per node and any messages `v3 → v6`: its source's times its target's. -/
def normOf (d : FVec Ideal S100000 .f32) (v3 v6 : IVec S1700000 32) : FVec Ideal S1700000 .f32 :=
  mulf (Host.gather gather_S100000_S1700000x1_S1700000_n_0_n_n_0_1_1 d (wrapped v3))
    (Host.gather gather_S100000_S1700000x1_S1700000_n_0_n_n_0_1_1 d (wrapped v6))

/-- One layer over rows of 128 entries, before `tanh`, for any weights and messages: gather, weigh, sum into the targets,
    add the bias. -/
def layer128Of (xl : FVec Ideal S100000x128 .f32) (d : FVec Ideal S100000 .f32) (v3 v6 : IVec S1700000 32)
    (b : FVec Ideal S128 .f32) : FVec Ideal S100000x128 .f32 :=
  addf
    (Host.scatterAdd scatter_S100000x128_S1700000x1_S1700000x128_1_0_0_1
      (broadcastInDim S100000x128 ![] bcast_S_S100000x128 (constant S_ .f32 0x00000000#32))
      (broadcastInDim S1700000x1 ![0] bcast_S1700000_S1700000x1_0 v6)
      (mulf (Host.gather gather_S100000x128_S1700000x1_S1700000x128_1_0_n_n_0_1_1128 xl (wrapped v3))
        (broadcastInDim S1700000x128 ![0, 1] bcast_S1700000x1_S1700000x128_0_1
          (broadcastInDim S1700000x1 ![0] bcast_S1700000_S1700000x1_0 (normOf d v3 v6)))))
    (broadcastInDim S100000x128 ![0, 1] bcast_S1x128_S100000x128_0_1 (broadcastInDim S1x128 ![1] bcast_S128_S1x128_1 b))

/-- The same over rows of 64 entries. -/
def layer64Of (xl : FVec Ideal S100000x64 .f32) (d : FVec Ideal S100000 .f32) (v3 v6 : IVec S1700000 32)
    (b : FVec Ideal S64 .f32) : FVec Ideal S100000x64 .f32 :=
  addf
    (Host.scatterAdd scatter_S100000x64_S1700000x1_S1700000x64_1_0_0_1
      (broadcastInDim S100000x64 ![] bcast_S_S100000x64 (constant S_ .f32 0x00000000#32))
      (broadcastInDim S1700000x1 ![0] bcast_S1700000_S1700000x1_0 v6)
      (mulf (Host.gather gather_S100000x64_S1700000x1_S1700000x64_1_0_n_n_0_1_164 xl (wrapped v3))
        (broadcastInDim S1700000x64 ![0, 1] bcast_S1700000x1_S1700000x64_0_1
          (broadcastInDim S1700000x1 ![0] bcast_S1700000_S1700000x1_0 (normOf d v3 v6)))))
    (broadcastInDim S100000x64 ![0, 1] bcast_S1x64_S100000x64_0_1 (broadcastInDim S1x64 ![1] bcast_S64_S1x64_1 b))

/-- The program's layers: the weights and the messages are the prelude's. -/
def layer128 (xl : FVec Ideal S100000x128 .f32) (x2 : IVec S2x1600000 32) (b : FVec Ideal S128 .f32) : FVec Ideal S100000x128 .f32 :=
  layer128Of xl (dinv x2) (src1 x2) (dst1 x2) b

def layer64 (xl : FVec Ideal S100000x64 .f32) (x2 : IVec S2x1600000 32) (b : FVec Ideal S64 .f32) : FVec Ideal S100000x64 .f32 :=
  layer64Of xl (dinv x2) (src1 x2) (dst1 x2) b

end Cert.ReferenceIdeal.Term

end
-- ==== Proof.DotBridge.lean ====
/-
  The dense products of the two programs, index by index, at the ideal values.

  One program scales each row of a product whose weight matrix was first cast to a narrower float type; the other takes
  the product with the weights as given. At the ideal values the cast is the identity, and a product read at an index is
  the sum, over the contracted coordinate, of the products of the entries: the two agree term by term. In the third layer
  one program multiplies the two halves of a row by the upper and the lower half of a [256, 128] matrix and adds, the
  other joins the halves into one row of 256 entries and multiplies by the whole matrix: the sum over 256 coordinates is
  the sum over the first 128 plus the sum over the last 128, the joined row reads the first half there and the second half
  here, and the two slices of the matrix are its upper and lower rows.
-/
import proofs.«114380_j16286515987229_2_alg».proof.Proof.Gen.KernelIdeal
import proofs.«114380_j16286515987229_2_alg».proof.Proof.Gen.ReferenceIdeal
import proofs.«114380_j16286515987229_2_alg».proof.Proof.Spec
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.DotBridge

open Idealize.ShloMosaic Idealize.ShloMosaic.ValueIdx
open Cert.KernelIdeal.Facts₀

/-! ## The product of a [100000, 256] array with a [256, 128] matrix -/

/-- The left operand's index at result index (p, q) and contracted coordinate k is (p, k). -/
theorem dot1_lhs (p : Fin 100000) (q : Fin 128) (k : Fin 256) :
    Cert.ReferenceIdeal.dot_S100000x256_S256x128_S100000x128_1_0_0_1_n_n.lhsIdx (ix2 p q) ((contrEquiv1 Cert.ReferenceIdeal.dot_S100000x256_S256x128_S100000x128_1_0_0_1_n_n 256 rfl rfl).symm k) = ix2 p k := by
  funext ax; apply Fin.ext
  match ax with
  | ⟨0, _⟩ => rfl
  | ⟨1, _⟩ =>
    exact (Cert.ReferenceIdeal.dot_S100000x256_S256x128_S100000x128_1_0_0_1_n_n.lhsIdx_val_of_single (cl := 1) rfl _ _).trans (contrEquiv1_symm_val Cert.ReferenceIdeal.dot_S100000x256_S256x128_S100000x128_1_0_0_1_n_n 256 rfl rfl k)

/-- The right operand's index at result index (p, q) and contracted coordinate k is (k, q). -/
theorem dot1_rhs (p : Fin 100000) (q : Fin 128) (k : Fin 256) :
    Cert.ReferenceIdeal.dot_S100000x256_S256x128_S100000x128_1_0_0_1_n_n.rhsIdx (ix2 p q) ((contrEquiv1 Cert.ReferenceIdeal.dot_S100000x256_S256x128_S100000x128_1_0_0_1_n_n 256 rfl rfl).symm k) = ix2 k q := by
  funext ax; apply Fin.ext
  match ax with
  | ⟨0, _⟩ =>
    exact (Cert.ReferenceIdeal.dot_S100000x256_S256x128_S100000x128_1_0_0_1_n_n.rhsIdx_val_of_single (cr := 0) rfl _ _).trans (contrEquiv1_symm_val Cert.ReferenceIdeal.dot_S100000x256_S256x128_S100000x128_1_0_0_1_n_n 256 rfl rfl k)
  | ⟨1, _⟩ => rfl

/-- Entry (p, q) of the product is the sum over the contracted coordinate of the products of the entries. -/
theorem dotGeneral1_apply (x : FVec Ideal Cert.KernelIdeal.S100000x256 .f32) (w : FVec Ideal Cert.KernelIdeal.S256x128 .f32)
    (p : Fin 100000) (q : Fin 128) :
    Host.dotGeneral Cert.ReferenceIdeal.dot_S100000x256_S256x128_S100000x128_1_0_0_1_n_n none x w (ix2 p q) = ∑ k : Fin 256, x (ix2 p k) * w (ix2 k q) := by
  show FloatOps.dotGeneral _ none _ x w (ix2 p q) = _
  rw [Ideal.dotGeneral_apply, ← Equiv.sum_comp (contrEquiv1 Cert.ReferenceIdeal.dot_S100000x256_S256x128_S100000x128_1_0_0_1_n_n 256 rfl rfl).symm]
  refine Finset.sum_congr rfl fun k _ => ?_
  rw [dot1_lhs, dot1_rhs]

/-- The rows of the product with the weights cast to the narrower type, scaled row by row, are the scaled rows of the
    product with the weights as given: the cast changes no ideal value. -/
theorem prod1 (x : FVec Ideal Cert.KernelIdeal.S100000x256 .f32) (w : FVec Ideal Cert.KernelIdeal.S256x128 .f32)
    (dcol : FVec Ideal Cert.KernelIdeal.S100000x1 .f32) (r : Cert.KernelIdeal.S100000x128.Idx) :
    Cert.Gcn.scaledProduct (n := 100000) (din := 256) (dout := 128) x (truncf .bf16 w bitsLt_bf16_f32) dcol r
      = dcol (ix2 (r 0) (0 : Fin 1)) * Host.dotGeneral Cert.ReferenceIdeal.dot_S100000x256_S256x128_S100000x128_1_0_0_1_n_n none x w r := by
  obtain ⟨p, q, rfl⟩ : ∃ (p : Fin 100000) (q : Fin 128), r = ix2 p q := ⟨r 0, r 1, eq_ix2 r⟩
  rw [dotGeneral1_apply]
  rfl

/-! ## The product of a [100000, 64] array with a [64, 128] matrix -/

/-- The left operand's index at result index (p, q) and contracted coordinate k is (p, k). -/
theorem dot2_lhs (p : Fin 100000) (q : Fin 128) (k : Fin 64) :
    Cert.ReferenceIdeal.dot_S100000x64_S64x128_S100000x128_1_0_0_1_n_n.lhsIdx (ix2 p q) ((contrEquiv1 Cert.ReferenceIdeal.dot_S100000x64_S64x128_S100000x128_1_0_0_1_n_n 64 rfl rfl).symm k) = ix2 p k := by
  funext ax; apply Fin.ext
  match ax with
  | ⟨0, _⟩ => rfl
  | ⟨1, _⟩ =>
    exact (Cert.ReferenceIdeal.dot_S100000x64_S64x128_S100000x128_1_0_0_1_n_n.lhsIdx_val_of_single (cl := 1) rfl _ _).trans (contrEquiv1_symm_val Cert.ReferenceIdeal.dot_S100000x64_S64x128_S100000x128_1_0_0_1_n_n 64 rfl rfl k)

/-- The right operand's index at result index (p, q) and contracted coordinate k is (k, q). -/
theorem dot2_rhs (p : Fin 100000) (q : Fin 128) (k : Fin 64) :
    Cert.ReferenceIdeal.dot_S100000x64_S64x128_S100000x128_1_0_0_1_n_n.rhsIdx (ix2 p q) ((contrEquiv1 Cert.ReferenceIdeal.dot_S100000x64_S64x128_S100000x128_1_0_0_1_n_n 64 rfl rfl).symm k) = ix2 k q := by
  funext ax; apply Fin.ext
  match ax with
  | ⟨0, _⟩ =>
    exact (Cert.ReferenceIdeal.dot_S100000x64_S64x128_S100000x128_1_0_0_1_n_n.rhsIdx_val_of_single (cr := 0) rfl _ _).trans (contrEquiv1_symm_val Cert.ReferenceIdeal.dot_S100000x64_S64x128_S100000x128_1_0_0_1_n_n 64 rfl rfl k)
  | ⟨1, _⟩ => rfl

/-- Entry (p, q) of the product is the sum over the contracted coordinate of the products of the entries. -/
theorem dotGeneral2_apply (x : FVec Ideal Cert.KernelIdeal.S100000x64 .f32) (w : FVec Ideal Cert.KernelIdeal.S64x128 .f32)
    (p : Fin 100000) (q : Fin 128) :
    Host.dotGeneral Cert.ReferenceIdeal.dot_S100000x64_S64x128_S100000x128_1_0_0_1_n_n none x w (ix2 p q) = ∑ k : Fin 64, x (ix2 p k) * w (ix2 k q) := by
  show FloatOps.dotGeneral _ none _ x w (ix2 p q) = _
  rw [Ideal.dotGeneral_apply, ← Equiv.sum_comp (contrEquiv1 Cert.ReferenceIdeal.dot_S100000x64_S64x128_S100000x128_1_0_0_1_n_n 64 rfl rfl).symm]
  refine Finset.sum_congr rfl fun k _ => ?_
  rw [dot2_lhs, dot2_rhs]

/-- The rows of the product with the weights cast to the narrower type, scaled row by row, are the scaled rows of the
    product with the weights as given: the cast changes no ideal value. -/
theorem prod2 (x : FVec Ideal Cert.KernelIdeal.S100000x64 .f32) (w : FVec Ideal Cert.KernelIdeal.S64x128 .f32)
    (dcol : FVec Ideal Cert.KernelIdeal.S100000x1 .f32) (r : Cert.KernelIdeal.S100000x128.Idx) :
    Cert.Gcn.scaledProduct (n := 100000) (din := 64) (dout := 128) x (truncf .bf16 w bitsLt_bf16_f32) dcol r
      = dcol (ix2 (r 0) (0 : Fin 1)) * Host.dotGeneral Cert.ReferenceIdeal.dot_S100000x64_S64x128_S100000x128_1_0_0_1_n_n none x w r := by
  obtain ⟨p, q, rfl⟩ : ∃ (p : Fin 100000) (q : Fin 128), r = ix2 p q := ⟨r 0, r 1, eq_ix2 r⟩
  rw [dotGeneral2_apply]
  rfl

/-! ## The product of a [100000, 128] array with a [128, 64] matrix -/

/-- The left operand's index at result index (p, q) and contracted coordinate k is (p, k). -/
theorem dot4_lhs (p : Fin 100000) (q : Fin 64) (k : Fin 128) :
    Cert.ReferenceIdeal.dot_S100000x128_S128x64_S100000x64_1_0_0_1_n_n.lhsIdx (ix2 p q) ((contrEquiv1 Cert.ReferenceIdeal.dot_S100000x128_S128x64_S100000x64_1_0_0_1_n_n 128 rfl rfl).symm k) = ix2 p k := by
  funext ax; apply Fin.ext
  match ax with
  | ⟨0, _⟩ => rfl
  | ⟨1, _⟩ =>
    exact (Cert.ReferenceIdeal.dot_S100000x128_S128x64_S100000x64_1_0_0_1_n_n.lhsIdx_val_of_single (cl := 1) rfl _ _).trans (contrEquiv1_symm_val Cert.ReferenceIdeal.dot_S100000x128_S128x64_S100000x64_1_0_0_1_n_n 128 rfl rfl k)

/-- The right operand's index at result index (p, q) and contracted coordinate k is (k, q). -/
theorem dot4_rhs (p : Fin 100000) (q : Fin 64) (k : Fin 128) :
    Cert.ReferenceIdeal.dot_S100000x128_S128x64_S100000x64_1_0_0_1_n_n.rhsIdx (ix2 p q) ((contrEquiv1 Cert.ReferenceIdeal.dot_S100000x128_S128x64_S100000x64_1_0_0_1_n_n 128 rfl rfl).symm k) = ix2 k q := by
  funext ax; apply Fin.ext
  match ax with
  | ⟨0, _⟩ =>
    exact (Cert.ReferenceIdeal.dot_S100000x128_S128x64_S100000x64_1_0_0_1_n_n.rhsIdx_val_of_single (cr := 0) rfl _ _).trans (contrEquiv1_symm_val Cert.ReferenceIdeal.dot_S100000x128_S128x64_S100000x64_1_0_0_1_n_n 128 rfl rfl k)
  | ⟨1, _⟩ => rfl

/-- Entry (p, q) of the product is the sum over the contracted coordinate of the products of the entries. -/
theorem dotGeneral4_apply (x : FVec Ideal Cert.KernelIdeal.S100000x128 .f32) (w : FVec Ideal Cert.KernelIdeal.S128x64 .f32)
    (p : Fin 100000) (q : Fin 64) :
    Host.dotGeneral Cert.ReferenceIdeal.dot_S100000x128_S128x64_S100000x64_1_0_0_1_n_n none x w (ix2 p q) = ∑ k : Fin 128, x (ix2 p k) * w (ix2 k q) := by
  show FloatOps.dotGeneral _ none _ x w (ix2 p q) = _
  rw [Ideal.dotGeneral_apply, ← Equiv.sum_comp (contrEquiv1 Cert.ReferenceIdeal.dot_S100000x128_S128x64_S100000x64_1_0_0_1_n_n 128 rfl rfl).symm]
  refine Finset.sum_congr rfl fun k _ => ?_
  rw [dot4_lhs, dot4_rhs]

/-- The rows of the product with the weights cast to the narrower type, scaled row by row, are the scaled rows of the
    product with the weights as given: the cast changes no ideal value. -/
theorem prod4 (x : FVec Ideal Cert.KernelIdeal.S100000x128 .f32) (w : FVec Ideal Cert.KernelIdeal.S128x64 .f32)
    (dcol : FVec Ideal Cert.KernelIdeal.S100000x1 .f32) (r : Cert.KernelIdeal.S100000x64.Idx) :
    Cert.Gcn.scaledProduct (n := 100000) (din := 128) (dout := 64) x (truncf .bf16 w bitsLt_bf16_f32) dcol r
      = dcol (ix2 (r 0) (0 : Fin 1)) * Host.dotGeneral Cert.ReferenceIdeal.dot_S100000x128_S128x64_S100000x64_1_0_0_1_n_n none x w r := by
  obtain ⟨p, q, rfl⟩ : ∃ (p : Fin 100000) (q : Fin 64), r = ix2 p q := ⟨r 0, r 1, eq_ix2 r⟩
  rw [dotGeneral4_apply]
  rfl

/-! ## A row held as two halves against the stacked matrix -/

/-- The sum over 256 coordinates is the sum over the first 128 plus the sum over the last 128. -/
theorem sum_halves (F : Fin 256 → EReal) :
    ∑ k : Fin 256, F k = (∑ k : Fin 128, F (Fin.castAdd 128 k)) + ∑ k : Fin 128, F (Fin.natAdd 128 k) :=
  Fin.sum_univ_add (a := 128) (b := 128) F

/-- The joined row reads the first array in its first 128 columns. -/
theorem joined_left (f g : FVec Ideal Cert.KernelIdeal.S100000x128 .f32) (p : Fin 100000) (k : Fin 128) :
    (concatenate Cert.ReferenceIdeal.S100000x256 1 [⟨Cert.ReferenceIdeal.S100000x128, f⟩, ⟨Cert.ReferenceIdeal.S100000x128, g⟩] Cert.ReferenceIdeal.Facts₀.concatenates_S100000x128_S100000x128_S100000x256_d1) (ix2 p (Fin.castAdd 128 k)) = f (ix2 p k) :=
  concatenate_pair_apply_left (t := Cert.ReferenceIdeal.S100000x256) 1 f g _ (ix2 p (Fin.castAdd 128 k)) rfl (ix2 p k) fun b => by
    match b with
    | ⟨0, _⟩ => rfl
    | ⟨1, _⟩ => rfl

/-- The joined row reads the second array in its last 128 columns. -/
theorem joined_right (f g : FVec Ideal Cert.KernelIdeal.S100000x128 .f32) (p : Fin 100000) (k : Fin 128) :
    (concatenate Cert.ReferenceIdeal.S100000x256 1 [⟨Cert.ReferenceIdeal.S100000x128, f⟩, ⟨Cert.ReferenceIdeal.S100000x128, g⟩] Cert.ReferenceIdeal.Facts₀.concatenates_S100000x128_S100000x128_S100000x256_d1) (ix2 p (Fin.natAdd 128 k)) = g (ix2 p k) :=
  concatenate_pair_apply_right (t := Cert.ReferenceIdeal.S100000x256) 1 f g _ (ix2 p (Fin.natAdd 128 k)) rfl rfl (ix2 p k)
    (fun b hb => by
      match b, hb with
      | ⟨0, _⟩, _ => rfl
      | ⟨1, _⟩, hb => exact absurd rfl hb)
    (by show k.val + 128 = 128 + k.val; omega)

/-- The slice from row 0 is the matrix's upper 128 rows. -/
theorem upper_rows (w : FVec Ideal Cert.KernelIdeal.S256x128 .f32) (k q : Fin 128) :
    (extractStridedSlice Cert.KernelIdeal.S128x128 ![0, 0] w slices_S256x128_S128x128_0_0) (ix2 k q) = w (ix2 (Fin.castAdd 128 k) q) :=
  extractStridedSlice_apply ![0, 0] w _ (ix2 k q) (ix2 (Fin.castAdd 128 k) q) fun a => by
    match a with
    | ⟨0, _⟩ => show k.val = 0 + k.val; omega
    | ⟨1, _⟩ => show q.val = 0 + q.val; omega

/-- The slice from row 128 is the matrix's lower 128 rows. -/
theorem lower_rows (w : FVec Ideal Cert.KernelIdeal.S256x128 .f32) (k q : Fin 128) :
    (extractStridedSlice Cert.KernelIdeal.S128x128 ![128, 0] w slices_S256x128_S128x128_128_0) (ix2 k q) = w (ix2 (Fin.natAdd 128 k) q) :=
  extractStridedSlice_apply ![128, 0] w _ (ix2 k q) (ix2 (Fin.natAdd 128 k) q) fun a => by
    match a with
    | ⟨0, _⟩ => show 128 + k.val = 128 + k.val; rfl
    | ⟨1, _⟩ => show q.val = 0 + q.val; omega

/-- At coordinates: the two half products added are the product of the joined row with the whole matrix. -/
theorem prod3_at (f g : FVec Ideal Cert.KernelIdeal.S100000x128 .f32) (w : FVec Ideal Cert.KernelIdeal.S256x128 .f32)
    (dcol : FVec Ideal Cert.KernelIdeal.S100000x1 .f32) (p : Fin 100000) (q : Fin 128) :
    dcol (ix2 p (0 : Fin 1)) *
        ((∑ k : Fin 128, f (ix2 p k) * (extractStridedSlice Cert.KernelIdeal.S128x128 ![0, 0] w slices_S256x128_S128x128_0_0) (ix2 k q))
          + ∑ k : Fin 128, g (ix2 p k) * (extractStridedSlice Cert.KernelIdeal.S128x128 ![128, 0] w slices_S256x128_S128x128_128_0) (ix2 k q))
      = dcol (ix2 p (0 : Fin 1)) * Host.dotGeneral Cert.ReferenceIdeal.dot_S100000x256_S256x128_S100000x128_1_0_0_1_n_n none (concatenate Cert.ReferenceIdeal.S100000x256 1 [⟨Cert.ReferenceIdeal.S100000x128, f⟩, ⟨Cert.ReferenceIdeal.S100000x128, g⟩] Cert.ReferenceIdeal.Facts₀.concatenates_S100000x128_S100000x128_S100000x256_d1) w (ix2 p q) := by
  rw [dotGeneral1_apply, sum_halves]
  simp only [joined_left, joined_right, upper_rows, lower_rows]

/-- A row [f r, g r] of 256 entries times the stacked matrix is f r times the upper half plus g r times the lower half,
    row by row under the same scaling; the casts of the two halves change no ideal value. -/
theorem prod3 (f g : FVec Ideal Cert.KernelIdeal.S100000x128 .f32) (w : FVec Ideal Cert.KernelIdeal.S256x128 .f32)
    (dcol : FVec Ideal Cert.KernelIdeal.S100000x1 .f32) (r : Cert.KernelIdeal.S100000x128.Idx) :
    Cert.Gcn.scaledProduct2 (n := 100000) (d := 128) (dout := 128) f g
        (truncf .bf16 (extractStridedSlice Cert.KernelIdeal.S128x128 ![0, 0] w slices_S256x128_S128x128_0_0) bitsLt_bf16_f32)
        (truncf .bf16 (extractStridedSlice Cert.KernelIdeal.S128x128 ![128, 0] w slices_S256x128_S128x128_128_0) bitsLt_bf16_f32) dcol r
      = dcol (ix2 (r 0) (0 : Fin 1)) * Host.dotGeneral Cert.ReferenceIdeal.dot_S100000x256_S256x128_S100000x128_1_0_0_1_n_n none (concatenate Cert.ReferenceIdeal.S100000x256 1 [⟨Cert.ReferenceIdeal.S100000x128, f⟩, ⟨Cert.ReferenceIdeal.S100000x128, g⟩] Cert.ReferenceIdeal.Facts₀.concatenates_S100000x128_S100000x128_S100000x256_d1) w r := by
  obtain ⟨p, q, rfl⟩ : ∃ (p : Fin 100000) (q : Fin 128), r = ix2 p q := ⟨r 0, r 1, eq_ix2 r⟩
  exact prod3_at f g w dcol p q

end Cert.DotBridge

end
-- ==== Proof.LibGcnAgg.lean ====
/-
  Summing the rows that edges carry into their target nodes, when every row is weighted by a factor of its source
  node and a factor of its target node.

  `E` edges, edge `e` from node `s e` to node `t e`; `xl` an `[N, D]` array of rows; `d` a weight per node. The sum over the
  edges into node `i` of `xl (s e) * (d (s e) * d i)` equals `d i` times the sum over the same edges of `d (s e) * xl (s e)`:
  the target's factor is the same in every term, so it moves out of the sum. On the extended reals a factor moves out of a
  sum when it is a nonnegative real (`x * (y + z) = x * y + x * z` for `0 ≤ x < ⊤`, whatever `y` and `z`), and a weight
  `1 / sqrt (degree)`, or `0`, is one; no entry of `xl` needs to be finite.

  The edges' rows are fetched by a gather whose start indices are clamped into `[0, N - 1]`, and summed by a scatter
  whose start indices are read signed and NOT clamped (an edge whose target is no node is dropped). The three index
  lemmas read the two gathers and the scatter at an index; the hypothesis `hdst` says the one thing the two index arrays
  of the targets must share: where the scatter's index names node `n`, the gather's index, clamped, names `n` too.
-/
import Idealize.ShloMosaic.PureOps.Ideal
import Idealize.ShloMosaic.Lib.ValueIdx
import Mathlib.Data.EReal.Operations

noncomputable section

open scoped BigOperators

namespace Cert.LibGcnAgg

open Idealize.ShloMosaic Idealize.ShloMosaic.ValueIdx

/-- The gather of whole rows of an `[N, D]` array at `[E, 1]` start indices: result `[E, D]`. -/
abbrev rowsGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The gather of entries of an `[N]` array at `[E, 1]` start indices: result `[E]`. -/
abbrev entryGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The scatter of `[E, D]` rows into an `[N, D]` array at `[E, 1]` start indices. -/
abbrev rowsScatter (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- A start index read signed and clamped into `[0, N - 1]`. -/
def clampNode (N : Nat) {w : Nat} (hN : 0 < N) (b : BitVec w) : Fin N := ⟨min b.toInt.toNat (N - 1), by omega⟩

section
variable {N E D w : Nat}

/-- The rows gather reads, for result `(e, c)`, the operand at row `clamp (idx (e, 0))`, column `c`. -/
theorem rowsGather_operandIdx (hN : 0 < N) (wf) (j : (⟨2, ![E, D]⟩ : Shape).Idx) (idx : IVec ⟨2, ![E, 1]⟩ w) :
    (rowsGather N E D wf).operandIdx j idx = ix2 (clampNode N hN (idx (ix2 (j 0) (0 : Fin 1)))) (j 1) := by
  funext a
  refine Fin.ext ?_
  show (rowsGather N E D wf).start j idx a + (rowsGather N E D wf).batchCoord j a + (rowsGather N E D wf).offCoord j a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ (rowsGather N E D wf).startIndexMap from List.mem_singleton.mpr rfl)]
    have hsi : (rowsGather N E D wf).siIdx j ⟨List.idxOf (⟨0, h0⟩ : Fin 2) (rowsGather N E D wf).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  | ⟨1, h1⟩ =>
    unfold GatherDims.start
    rw [dif_neg (show (⟨1, h1⟩ : Fin 2) ∉ (rowsGather N E D wf).startIndexMap from
      fun h => Nat.one_ne_zero (congrArg Fin.val (List.mem_singleton.mp h)))]
    simp only [Nat.zero_add]
    unfold GatherDims.offCoord
    rw [dif_pos (show (⟨1, h1⟩ : Fin 2) ∈ (rowsGather N E D wf).sKept from
      (GatherDims.mem_sKept _ _).mpr ⟨fun h => Nat.one_ne_zero (congrArg Fin.val (List.mem_singleton.mp h)), List.not_mem_nil⟩)]
    rfl

/-- The entry gather reads, for result `e`, the operand at `clamp (idx (e, 0))`. -/
theorem entryGather_operandIdx (hN : 0 < N) (wf) (j : (⟨1, ![E]⟩ : Shape).Idx) (idx : IVec ⟨2, ![E, 1]⟩ w) :
    (entryGather N E wf).operandIdx j idx = ix1 (clampNode N hN (idx (ix2 (j 0) (0 : Fin 1)))) := by
  funext a
  obtain rfl : a = 0 := Subsingleton.elim _ _
  refine Fin.ext ?_
  show (entryGather N E wf).start j idx 0 + (entryGather N E wf).batchCoord j 0 + (entryGather N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (entryGather N E wf).startIndexMap from List.mem_singleton.mpr rfl)]
  have hsi : (entryGather N E wf).siIdx j ⟨List.idxOf (0 : Fin 1) (entryGather N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- Where the rows scatter sends update `(e, c)` to `i`, the start index `idx (e, 0)`, read signed, is `i`'s row, and
    the column is kept. -/
theorem rowsScatter_resultIdx (wf) (j : (⟨2, ![E, D]⟩ : Shape).Idx) (idx : IVec ⟨2, ![E, 1]⟩ w)
    (i : (⟨2, ![N, D]⟩ : Shape).Idx) (h : (rowsScatter N E D wf).resultIdx? j idx = some i) :
    (idx (ix2 (j 0) (0 : Fin 1))).toInt = ((i 0).val : Int) := by
  unfold ScatterDims.resultIdx? at h
  split at h
  · rename_i hall
    have hi := Option.some.inj h
    have h0 := hall (⟨0, Nat.zero_lt_two⟩ : Fin 2)
    have hw : (rowsScatter N E D wf).window j (⟨0, Nat.zero_lt_two⟩ : Fin 2) = 0 := by
      unfold ScatterDims.window
      rw [dif_neg (show (⟨0, Nat.zero_lt_two⟩ : Fin 2) ∉ (rowsScatter N E D wf).sKept by
        simp [ScatterDims.sKept, Shape.kept, List.mem_filter])]
    have hs : (rowsScatter N E D wf).start j idx (⟨0, Nat.zero_lt_two⟩ : Fin 2) = (idx (ix2 (j 0) (0 : Fin 1))).toInt := by
      unfold ScatterDims.start
      rw [dif_pos (show (⟨0, Nat.zero_lt_two⟩ : Fin 2) ∈ (rowsScatter N E D wf).scatterDimsToOperandDims from List.mem_singleton.mpr rfl)]
      have hsi : (rowsScatter N E D wf).siIdx j ⟨List.idxOf (⟨0, Nat.zero_lt_two⟩ : Fin 2) (rowsScatter N E D wf).scatterDimsToOperandDims,
          List.idxOf_lt_length_iff.2 (List.mem_singleton.mpr rfl)⟩ = ix2 (j 0) (0 : Fin 1) := by
        funext b; refine Fin.ext ?_
        match b with
        | ⟨0, _⟩ => rfl
        | ⟨1, _⟩ => rfl
      exact congrArg (fun z => (idx z).toInt) hsi
    rw [hw, hs] at h0
    have hv : (i 0).val = ((idx (ix2 (j 0) (0 : Fin 1))).toInt + ((0 : Nat) : Int)).toNat := by
      rw [← hi]
      show ((rowsScatter N E D wf).start j idx (⟨0, Nat.zero_lt_two⟩ : Fin 2) + ((rowsScatter N E D wf).window j (⟨0, Nat.zero_lt_two⟩ : Fin 2) : Int)).toNat = _
      rw [hw, hs]
    omega
  · exact absurd h (by simp)

end

/-- A nonnegative real factor moves into a finite sum of extended reals. -/
theorem mul_sum_of_nonneg_of_ne_top {ι : Type*} (s : Finset ι) (f : ι → EReal) {x : EReal} (h0 : 0 ≤ x) (ht : x ≠ ⊤) :
    x * ∑ j ∈ s, f j = ∑ j ∈ s, x * f j := by
  classical
  induction s using Finset.induction_on with
  | empty => simp
  | insert a s ha ih => rw [Finset.sum_insert ha, Finset.sum_insert ha, EReal.left_distrib_of_nonneg_of_ne_top h0 ht, ih]

/-- THE AGGREGATION IN ITS TWO ARRANGEMENTS. Rows scaled by their source's weight, gathered, summed into their targets
    and the sum scaled by the target's weight, against rows gathered, each multiplied by the product of its source's and
    its target's weights, and summed. -/
theorem scaled_scatter {N E D w : Nat} (hN : 0 < N) (wfg wfe wfs)
    (xl : (⟨2, ![N, D]⟩ : Shape).Idx → EReal) (d : (⟨1, ![N]⟩ : Shape).Idx → EReal)
    (hd : ∀ n, 0 ≤ d n ∧ d n ≠ ⊤)
    (src dst dstn : IVec ⟨2, ![E, 1]⟩ w)
    (hdst : ∀ (e : Fin E) (n : Fin N), (dst (ix2 e (0 : Fin 1))).toInt = (n.val : Int) →
      clampNode N hN (dstn (ix2 e (0 : Fin 1))) = n)
    (i : (⟨2, ![N, D]⟩ : Shape).Idx) :
    d (ix1 (i 0)) * Ideal.hostScatterAdd (rowsScatter N E D wfs) (fun _ => 0) dst
        (Host.gather (rowsGather N E D wfg) (fun r => d (ix1 (r 0)) * xl r) src) i
      = Ideal.hostScatterAdd (rowsScatter N E D wfs) (fun _ => 0) dst
        (fun j => Host.gather (rowsGather N E D wfg) xl src j *
          (Host.gather (entryGather N E wfe) d src (ix1 (j 0)) * Host.gather (entryGather N E wfe) d dstn (ix1 (j 0)))) i := by
  unfold Ideal.hostScatterAdd
  simp only [zero_add]
  rw [mul_sum_of_nonneg_of_ne_top _ _ (hd _).1 (hd _).2]
  refine Finset.sum_congr rfl fun j hj => ?_
  have hres := (Finset.mem_filter.mp hj).2
  have hrow := rowsScatter_resultIdx wfs j dst i hres
  have hn : clampNode N hN (dstn (ix2 (j 0) (0 : Fin 1))) = i 0 := hdst (j 0) (i 0) hrow
  unfold Host.gather
  rw [rowsGather_operandIdx hN wfg j src, entryGather_operandIdx hN wfe (ix1 (j 0)) src,
    entryGather_operandIdx hN wfe (ix1 (j 0)) dstn]
  show d (ix1 (i 0)) * (d (ix1 (clampNode N hN (src (ix2 (j 0) (0 : Fin 1))))) * xl _) =
    xl _ * (d (ix1 (clampNode N hN (src (ix2 (j 0) (0 : Fin 1))))) * d (ix1 (clampNode N hN (dstn (ix2 (j 0) (0 : Fin 1))))))
  rw [hn]
  ac_rfl

/-- THE AGGREGATION, for any dimension numbers that read their start indices as the rows gather, the entry gather and the
    rows scatter do, and for arrays given entry by entry: the left side may spell its scatter, its gather, its zeros and
    its index columns differently from the right side, as long as they are equal. -/
theorem aggregate_of {N E D w : Nat} (hN : 0 < N)
    (sdK sdR : ScatterDims ⟨2, ![N, D]⟩ ⟨2, ![E, 1]⟩ ⟨2, ![E, D]⟩)
    (gdK gdR : GatherDims ⟨2, ![N, D]⟩ ⟨2, ![E, 1]⟩ ⟨2, ![E, D]⟩)
    (ge : GatherDims ⟨1, ![N]⟩ ⟨2, ![E, 1]⟩ ⟨1, ![E]⟩)
    (hgK : ∀ (j : (⟨2, ![E, D]⟩ : Shape).Idx) (idx : IVec ⟨2, ![E, 1]⟩ w),
      gdK.operandIdx j idx = ix2 (clampNode N hN (idx (ix2 (j 0) (0 : Fin 1)))) (j 1))
    (hgR : ∀ (j : (⟨2, ![E, D]⟩ : Shape).Idx) (idx : IVec ⟨2, ![E, 1]⟩ w),
      gdR.operandIdx j idx = ix2 (clampNode N hN (idx (ix2 (j 0) (0 : Fin 1)))) (j 1))
    (hge : ∀ (j : (⟨1, ![E]⟩ : Shape).Idx) (idx : IVec ⟨2, ![E, 1]⟩ w),
      ge.operandIdx j idx = ix1 (clampNode N hN (idx (ix2 (j 0) (0 : Fin 1)))))
    (hsR : ∀ (j : (⟨2, ![E, D]⟩ : Shape).Idx) (idx : IVec ⟨2, ![E, 1]⟩ w) (i : (⟨2, ![N, D]⟩ : Shape).Idx),
      sdR.resultIdx? j idx = some i → (idx (ix2 (j 0) (0 : Fin 1))).toInt = ((i 0).val : Int))
    (hsKR : ∀ (j : (⟨2, ![E, D]⟩ : Shape).Idx) (idx : IVec ⟨2, ![E, 1]⟩ w), sdK.resultIdx? j idx = sdR.resultIdx? j idx)
    (xl : (⟨2, ![N, D]⟩ : Shape).Idx → EReal) (d : (⟨1, ![N]⟩ : Shape).Idx → EReal)
    (hd : ∀ n, 0 ≤ d n ∧ d n ≠ ⊤)
    (srcK srcR dstK dstR dstn : IVec ⟨2, ![E, 1]⟩ w) (hsrc : srcK = srcR) (hdstE : dstK = dstR)
    (hdst : ∀ (e : Fin E) (n : Fin N), (dstR (ix2 e (0 : Fin 1))).toInt = (n.val : Int) →
      clampNode N hN (dstn (ix2 e (0 : Fin 1))) = n)
    (dcol : (⟨2, ![N, 1]⟩ : Shape).Idx → EReal) (hcol : ∀ n : Fin N, dcol (ix2 n (0 : Fin 1)) = d (ix1 n))
    (rows : (⟨2, ![N, D]⟩ : Shape).Idx → EReal) (hrows : ∀ r, rows r = dcol (ix2 (r 0) (0 : Fin 1)) * xl r)
    (zK zR : (⟨2, ![N, D]⟩ : Shape).Idx → EReal) (hzK : ∀ i, zK i = 0) (hzR : ∀ i, zR i = 0)
    (msg : (⟨2, ![E, D]⟩ : Shape).Idx → EReal)
    (hmsg : ∀ j, msg j = Host.gather gdR xl srcR j * (Host.gather ge d srcR (ix1 (j 0)) * Host.gather ge d dstn (ix1 (j 0))))
    (i : (⟨2, ![N, D]⟩ : Shape).Idx) :
    dcol (ix2 (i 0) (0 : Fin 1)) * Ideal.hostScatterAdd sdK zK dstK (Host.gather gdK rows srcK) i
      = Ideal.hostScatterAdd sdR zR dstR msg i := by
  subst hsrc hdstE
  unfold Ideal.hostScatterAdd
  rw [hzK, hzR, zero_add, zero_add, (hcol (i 0) : dcol (ix2 (i 0) (0 : Fin 1)) = d (ix1 (i 0))),
    mul_sum_of_nonneg_of_ne_top _ _ (hd _).1 (hd _).2]
  have hfilter : Finset.univ.filter (fun j => sdK.resultIdx? j dstK = some i)
      = Finset.univ.filter (fun j => sdR.resultIdx? j dstK = some i) :=
    Finset.filter_congr fun j _ => by rw [hsKR]
  rw [hfilter]
  refine Finset.sum_congr rfl fun j hj => ?_
  have hres := (Finset.mem_filter.mp hj).2
  have hrow := hsR j dstK i hres
  have hn : clampNode N hN (dstn (ix2 (j 0) (0 : Fin 1))) = i 0 := hdst (j 0) (i 0) hrow
  rw [hmsg j]
  unfold Host.gather
  rw [hgK j srcK, hgR j srcK, hge (ix1 (j 0)) srcK, hge (ix1 (j 0)) dstn]
  have e1 : rows (ix2 (clampNode N hN (srcK (ix2 (j 0) (0 : Fin 1)))) (j 1))
      = d (ix1 (clampNode N hN (srcK (ix2 (j 0) (0 : Fin 1))))) * xl (ix2 (clampNode N hN (srcK (ix2 (j 0) (0 : Fin 1)))) (j 1)) :=
    (hrows _).trans (congrArg (· * xl _) (hcol (clampNode N hN (srcK (ix2 (j 0) (0 : Fin 1))))))
  refine (congrArg (d (ix1 (i 0)) * ·) e1).trans ?_
  show d (ix1 (i 0)) * (d (ix1 (clampNode N hN (srcK (ix2 (j 0) (0 : Fin 1))))) * xl _) =
    xl _ * (d (ix1 (clampNode N hN (srcK (ix2 (j 0) (0 : Fin 1))))) * d (ix1 (clampNode N hN (dstn (ix2 (j 0) (0 : Fin 1))))))
  rw [hn]
  ac_rfl

end Cert.LibGcnAgg

end
-- ==== Proof.GcnLayer.lean ====
/-
  One graph-convolution layer in its two arrangements, array against array, and the two small facts the comparison
  rests on: the weight `1 / sqrt deg` (or `0`) is a nonnegative real whatever `deg` is, and an index that is a node's
  number survives the wrapping of negative indices unchanged.
-/
import proofs.«114380_j16286515987229_2_alg».proof.Proof.LibGcnAgg
import Idealize.ShloMosaic.PureOps.Ideal
import Idealize.ShloMosaic.Lib.ValueIdx

noncomputable section

open scoped BigOperators

namespace Cert.GcnLayer

open Idealize.ShloMosaic Idealize.ShloMosaic.ValueIdx Cert.LibGcnAgg

/-- `1 / sqrt x` where `x > 0`, else `0`: a nonnegative real for every extended real `x` (at `x = ⊤` it is `0`; the
    branch `x ≤ 0`, where `1 / sqrt` is infinite or undefined, is never taken). -/
theorem weight_nonneg_real (x : EReal) :
    0 ≤ Scalar.select (Ideal.cmp .ogt x 0) (Ideal.rsqrt x) 0 ∧ Scalar.select (Ideal.cmp .ogt x 0) (Ideal.rsqrt x) 0 ≠ ⊤ := by
  unfold Scalar.select Ideal.cmp
  by_cases hx : (0 : EReal) < x
  · have h1 : BitVec.ofBool (decide ((0 : EReal) < x)) = 1 := by simp [hx]
    rw [if_pos h1]
    induction x using EReal.rec with
    | bot => exact absurd hx (by simp)
    | top => simp
    | coe r =>
      have hr : 0 < r := by exact_mod_cast hx
      rw [Ideal.rsqrt_coe, if_neg (not_lt.mpr hr.le), if_neg hr.ne']
      refine ⟨?_, EReal.coe_ne_top _⟩
      exact_mod_cast inv_nonneg.mpr (Real.sqrt_nonneg r)
  · have h0 : ¬ BitVec.ofBool (decide ((0 : EReal) < x)) = 1 := by simp [hx]
    rw [if_neg h0]
    exact ⟨le_refl _, EReal.zero_ne_top⟩

/-- A start index whose signed value is not negative is left alone by the wrapping `i < 0 ? i + k : i`. -/
theorem wrap_of_nonneg (v k : BitVec 32) (h : 0 ≤ v.toInt) :
    Scalar.select (IntOp.cmpi .slt v 0#32) (IntOp.addi v k) v = v := by
  unfold Scalar.select IntOp.cmpi
  have : v.slt 0#32 = false := by
    rw [BitVec.slt_eq_decide]
    simp only [BitVec.toInt_zero, decide_eq_false_iff_not, not_lt]
    exact h
  rw [this]
  simp

/-- THE LAYER'S AGGREGATION, array against array: whatever arrays hold the scaled rows, the zeros and the weighted
    messages, as long as they hold them entry by entry. -/
theorem aggregate_eq {N E D w : Nat} (hN : 0 < N) (wfg wfe wfs)
    (xl : (⟨2, ![N, D]⟩ : Shape).Idx → EReal) (d : (⟨1, ![N]⟩ : Shape).Idx → EReal)
    (hd : ∀ n, 0 ≤ d n ∧ d n ≠ ⊤)
    (src dst dstn : IVec ⟨2, ![E, 1]⟩ w)
    (hdst : ∀ (e : Fin E) (n : Fin N), (dst (ix2 e (0 : Fin 1))).toInt = (n.val : Int) →
      clampNode N hN (dstn (ix2 e (0 : Fin 1))) = n)
    (dcol : (⟨2, ![N, 1]⟩ : Shape).Idx → EReal) (hcol : ∀ n : Fin N, dcol (ix2 n (0 : Fin 1)) = d (ix1 n))
    (rows : (⟨2, ![N, D]⟩ : Shape).Idx → EReal) (hrows : ∀ r, rows r = dcol (ix2 (r 0) (0 : Fin 1)) * xl r)
    (zK zR : (⟨2, ![N, D]⟩ : Shape).Idx → EReal) (hzK : ∀ i, zK i = 0) (hzR : ∀ i, zR i = 0)
    (msg : (⟨2, ![E, D]⟩ : Shape).Idx → EReal)
    (hmsg : ∀ j, msg j = Host.gather (rowsGather N E D wfg) xl src j *
      (Host.gather (entryGather N E wfe) d src (ix1 (j 0)) * Host.gather (entryGather N E wfe) d dstn (ix1 (j 0))))
    (i : (⟨2, ![N, D]⟩ : Shape).Idx) :
    dcol (ix2 (i 0) (0 : Fin 1)) * Ideal.hostScatterAdd (rowsScatter N E D wfs) zK dst (Host.gather (rowsGather N E D wfg) rows src) i
      = Ideal.hostScatterAdd (rowsScatter N E D wfs) zR dst msg i := by
  obtain rfl : rows = fun r => d (ix1 (r 0)) * xl r := funext fun r => (hrows r).trans (congrArg (· * xl r) (hcol (r 0)))
  obtain rfl : zK = fun _ => 0 := funext hzK
  obtain rfl : zR = fun _ => 0 := funext hzR
  obtain rfl : msg = fun j => Host.gather (rowsGather N E D wfg) xl src j *
      (Host.gather (entryGather N E wfe) d src (ix1 (j 0)) * Host.gather (entryGather N E wfe) d dstn (ix1 (j 0))) := funext hmsg
  refine (congrArg (· * _) (hcol (i 0))).trans ?_
  exact scaled_scatter hN wfg wfe wfs xl d hd src dst dstn hdst i

end Cert.GcnLayer

end
-- ==== Proof.BridgeFacts.lean ====
/-
  Small pointwise facts the comparison of the two arrangements of the graph convolution rests on.

  The weight of a node, 1 / sqrt deg where deg > 0 and 0 elsewhere, is a nonnegative real. A vector made a column, a
  bias repeated along the rows and a column repeated along the columns each read, at an index written by its coordinates,
  the evident entry of the vector they were made from. An index that is a node's number is left alone by the wrapping of
  negative indices, so clamping it into the node range returns the node.
-/
import proofs.«114380_j16286515987229_2_alg».proof.Proof.KernelTerm
import proofs.«114380_j16286515987229_2_alg».proof.Proof.GcnLayer
import Idealize.ShloMosaic.Lib.Pipeline.Value
import Idealize.ShloMosaic.Lib.ValueIdx
import Idealize.ShloMosaic.PureOps.Ideal
import Idealize.ShloMosaic.PureOps.Ideal.Laws

noncomputable section

namespace Cert.BridgeFacts

open Idealize.ShloMosaic Idealize.ShloMosaic.ValueIdx

variable {α : Type}

/-- The weight read at an index, over any array of degrees: select, compare and reciprocal root act entry by entry, and the
    repeated zero constant reads the extended real 0. -/
theorem weight_at (g : FVec Ideal Cert.KernelIdeal.S100000 .f32)
    (h : Cert.KernelIdeal.S_.BroadcastsInDim Cert.KernelIdeal.S100000 ![]) (n : Cert.KernelIdeal.S100000.Idx) :
    select (cmpf .ogt g (broadcastInDim Cert.KernelIdeal.S100000 ![] h (constant Cert.KernelIdeal.S_ .f32 0x00000000#32)))
        (Host.rsqrt g) (broadcastInDim Cert.KernelIdeal.S100000 ![] h (constant Cert.KernelIdeal.S_ .f32 0x00000000#32)) n
      = Scalar.select (Ideal.cmp .ogt (g n) 0) (Ideal.rsqrt (g n)) 0 := by
  show Scalar.select (Ideal.cmp .ogt (g n) (Ideal.ofBits .f32 0x00000000#32)) (Ideal.rsqrt (g n)) (Ideal.ofBits .f32 0x00000000#32) = _
  rw [Ideal.ofBits_zero_f32]

/-- The weight of node n is a nonnegative real, whatever the edge list. -/
theorem dinv_nonneg_real (x2 : IVec Cert.KernelIdeal.S2x1600000 32) (n : Cert.KernelIdeal.S100000.Idx) :
    0 ≤ Cert.KernelIdeal.Term.dinv x2 n ∧ Cert.KernelIdeal.Term.dinv x2 n ≠ ⊤ := by
  unfold Cert.KernelIdeal.Term.dinv
  rw [weight_at]
  exact Cert.GcnLayer.weight_nonneg_real _

/-- A vector of length N made the column [N, 1] reads, at (n, 0), the vector at n. -/
theorem col_apply {N : Nat} (h : (⟨1, ![N]⟩ : Shape).BroadcastsInDim ⟨2, ![N, 1]⟩ ![0])
    (v : (⟨1, ![N]⟩ : Shape).Idx → α) (n : Fin N) :
    broadcastInDim ⟨2, ![N, 1]⟩ ![0] h v (ix2 n (0 : Fin 1)) = v (ix1 n) := by
  refine broadcastInDim_apply _ h v _ _ fun a => ?_
  match a with
  | ⟨0, _⟩ =>
    show n.val = if N = 1 then 0 else n.val
    split
    · have := n.isLt; omega
    · rfl

/-- A bias of length D made the row [1, D] and repeated along N rows reads, at (n, c), the bias at c. -/
theorem bias_apply {N D : Nat} (h1 : (⟨1, ![D]⟩ : Shape).BroadcastsInDim ⟨2, ![1, D]⟩ ![1])
    (h2 : (⟨2, ![1, D]⟩ : Shape).BroadcastsInDim ⟨2, ![N, D]⟩ ![0, 1])
    (b : (⟨1, ![D]⟩ : Shape).Idx → α) (n : Fin N) (c : Fin D) :
    broadcastInDim ⟨2, ![N, D]⟩ ![0, 1] h2 (broadcastInDim ⟨2, ![1, D]⟩ ![1] h1 b) (ix2 n c) = b (ix1 c) := by
  refine (broadcastInDim_apply _ h2 _ (ix2 n c) (ix2 (0 : Fin 1) c) fun a => ?_).trans
    (broadcastInDim_apply _ h1 b (ix2 (0 : Fin 1) c) (ix1 c) fun a => ?_)
  · match a with
    | ⟨0, _⟩ => rfl
    | ⟨1, _⟩ =>
      show c.val = if D = 1 then 0 else c.val
      split
      · have := c.isLt; omega
      · rfl
  · match a with
    | ⟨0, _⟩ =>
      show c.val = if D = 1 then 0 else c.val
      split
      · have := c.isLt; omega
      · rfl

/-- A vector of length E made the column [E, 1] and repeated along D columns reads, at (e, c), the vector at e. -/
theorem rowcol_apply {E D : Nat} (h1 : (⟨1, ![E]⟩ : Shape).BroadcastsInDim ⟨2, ![E, 1]⟩ ![0])
    (h2 : (⟨2, ![E, 1]⟩ : Shape).BroadcastsInDim ⟨2, ![E, D]⟩ ![0, 1])
    (v : (⟨1, ![E]⟩ : Shape).Idx → α) (e : Fin E) (c : Fin D) :
    broadcastInDim ⟨2, ![E, D]⟩ ![0, 1] h2 (broadcastInDim ⟨2, ![E, 1]⟩ ![0] h1 v) (ix2 e c) = v (ix1 e) := by
  refine (broadcastInDim_apply _ h2 _ (ix2 e c) (ix2 e (0 : Fin 1)) fun a => ?_).trans (col_apply h1 v e)
  match a with
  | ⟨0, _⟩ =>
    show e.val = if E = 1 then 0 else e.val
    split
    · have := e.isLt; omega
    · rfl
  | ⟨1, _⟩ => rfl

/-- An index word whose signed value is node n's number: wrapped once and clamped into the node range, it is n. -/
theorem clamp_wrap (N : Nat) (hN : 0 < N) (v k : BitVec 32) (n : Fin N) (h : v.toInt = (n.val : Int)) :
    Cert.LibGcnAgg.clampNode N hN (Scalar.select (IntOp.cmpi .slt v 0#32) (IntOp.addi v k) v) = n := by
  rw [Cert.GcnLayer.wrap_of_nonneg v k (by rw [h]; exact Int.natCast_nonneg _)]
  apply Fin.ext
  show min v.toInt.toNat (N - 1) = n.val
  rw [h, Int.toNat_natCast]
  have := n.isLt
  exact Nat.min_eq_left (by omega)

/-- The wrapped index column of the messages, read at message e: where the unwrapped column names node n, the wrapped one,
    clamped, names n too. -/
theorem wrapped_target (h0 : (⟨0, ![]⟩ : Shape).BroadcastsInDim ⟨1, ![1700000]⟩ ![])
    (h1 : (⟨1, ![1700000]⟩ : Shape).BroadcastsInDim ⟨2, ![1700000, 1]⟩ ![0])
    (v6 : IVec ⟨1, ![1700000]⟩ 32) (e : Fin 1700000) (n : Fin 100000)
    (hv : (broadcastInDim ⟨2, ![1700000, 1]⟩ ![0] h1 v6 (ix2 e (0 : Fin 1))).toInt = (n.val : Int)) :
    Cert.LibGcnAgg.clampNode 100000 (by norm_num)
      (broadcastInDim ⟨2, ![1700000, 1]⟩ ![0] h1
        (select (cmpi .slt v6 (broadcastInDim ⟨1, ![1700000]⟩ ![] h0 (constantI ⟨0, ![]⟩ 32 0#32)))
          (addi v6 (broadcastInDim ⟨1, ![1700000]⟩ ![] h0 (constantI ⟨0, ![]⟩ 32 100000#32))) v6)
        (ix2 e (0 : Fin 1))) = n := by
  rw [col_apply] at hv ⊢
  exact clamp_wrap 100000 (by norm_num) (v6 (ix1 e)) 100000#32 n hv

end Cert.BridgeFacts

end
-- ==== Proof.LayerCore.lean ====
/-
  One layer in its two arrangements, for ANY weights and messages.

  `d` a nonnegative real weight per node, `dcol` the same as a column, `v3 → v6` the messages, `rows` the rows `xl`
  scaled by their own node's weight. Scaling the summed rows by the target's weight (and adding the bias) gives what
  summing the rows weighted by source times target (and adding the bias) gives: the aggregation lemma, with the two
  programs' gathers, scatters and broadcasts read at an index. The sums over the messages are never opened here.
-/
import proofs.«114380_j16286515987229_2_alg».proof.Proof.LibGcnAgg
import proofs.«114380_j16286515987229_2_alg».proof.Proof.KernelTerm
import proofs.«114380_j16286515987229_2_alg».proof.Proof.RefTerm
import proofs.«114380_j16286515987229_2_alg».proof.Proof.BridgeFacts
import proofs.«114380_j16286515987229_2_alg».proof.Proof.Spec
import Idealize.ShloMosaic.PureOps.Ideal.Laws

noncomputable section

namespace Cert.LayerCore

open Idealize.ShloMosaic Idealize.ShloMosaic.ValueIdx
open Cert.LibGcnAgg Cert.BridgeFacts Cert.Gcn

/-! ## The two programs' dimension numbers read their start indices alike -/

theorem gatherK128 (j : (⟨2, ![1700000, 128]⟩ : Shape).Idx) (idx : IVec ⟨2, ![1700000, 1]⟩ 32) :
    Cert.KernelIdeal.gather_S100000x128_S1700000x1_S1700000x128_1_0_n_n_0_1_1128.operandIdx j idx
      = ix2 (clampNode 100000 (by norm_num) (idx (ix2 (j 0) (0 : Fin 1)))) (j 1) :=
  rowsGather_operandIdx (by norm_num) Cert.KernelIdeal.Facts₀.gather_S100000x128_S1700000x1_S1700000x128_1_0_n_n_0_1_1128_wf j idx
theorem gatherR128 (j : (⟨2, ![1700000, 128]⟩ : Shape).Idx) (idx : IVec ⟨2, ![1700000, 1]⟩ 32) :
    Cert.ReferenceIdeal.gather_S100000x128_S1700000x1_S1700000x128_1_0_n_n_0_1_1128.operandIdx j idx
      = ix2 (clampNode 100000 (by norm_num) (idx (ix2 (j 0) (0 : Fin 1)))) (j 1) :=
  rowsGather_operandIdx (by norm_num) Cert.ReferenceIdeal.Facts₀.gather_S100000x128_S1700000x1_S1700000x128_1_0_n_n_0_1_1128_wf j idx
theorem gatherR1 (j : (⟨1, ![1700000]⟩ : Shape).Idx) (idx : IVec ⟨2, ![1700000, 1]⟩ 32) :
    Cert.ReferenceIdeal.gather_S100000_S1700000x1_S1700000_n_0_n_n_0_1_1.operandIdx j idx
      = ix1 (clampNode 100000 (by norm_num) (idx (ix2 (j 0) (0 : Fin 1)))) :=
  entryGather_operandIdx (by norm_num) Cert.ReferenceIdeal.Facts₀.gather_S100000_S1700000x1_S1700000_n_0_n_n_0_1_1_wf j idx
theorem scatterR128 (j : (⟨2, ![1700000, 128]⟩ : Shape).Idx) (idx : IVec ⟨2, ![1700000, 1]⟩ 32)
    (i : (⟨2, ![100000, 128]⟩ : Shape).Idx)
    (h : Cert.ReferenceIdeal.scatter_S100000x128_S1700000x1_S1700000x128_1_0_0_1.resultIdx? j idx = some i) :
    (idx (ix2 (j 0) (0 : Fin 1))).toInt = ((i 0).val : Int) :=
  rowsScatter_resultIdx Cert.ReferenceIdeal.Facts₀.scatter_S100000x128_S1700000x1_S1700000x128_1_0_0_1_wf j idx i h
theorem scatterKR128 (j : (⟨2, ![1700000, 128]⟩ : Shape).Idx) (idx : IVec ⟨2, ![1700000, 1]⟩ 32) :
    Cert.KernelIdeal.scatter_S100000x128_S1700000x1_S1700000x128_1_0_0_1.resultIdx? j idx
      = Cert.ReferenceIdeal.scatter_S100000x128_S1700000x1_S1700000x128_1_0_0_1.resultIdx? j idx := rfl

theorem gatherK64 (j : (⟨2, ![1700000, 64]⟩ : Shape).Idx) (idx : IVec ⟨2, ![1700000, 1]⟩ 32) :
    Cert.KernelIdeal.gather_S100000x64_S1700000x1_S1700000x64_1_0_n_n_0_1_164.operandIdx j idx
      = ix2 (clampNode 100000 (by norm_num) (idx (ix2 (j 0) (0 : Fin 1)))) (j 1) :=
  rowsGather_operandIdx (by norm_num) Cert.KernelIdeal.Facts₀.gather_S100000x64_S1700000x1_S1700000x64_1_0_n_n_0_1_164_wf j idx
theorem gatherR64 (j : (⟨2, ![1700000, 64]⟩ : Shape).Idx) (idx : IVec ⟨2, ![1700000, 1]⟩ 32) :
    Cert.ReferenceIdeal.gather_S100000x64_S1700000x1_S1700000x64_1_0_n_n_0_1_164.operandIdx j idx
      = ix2 (clampNode 100000 (by norm_num) (idx (ix2 (j 0) (0 : Fin 1)))) (j 1) :=
  rowsGather_operandIdx (by norm_num) Cert.ReferenceIdeal.Facts₀.gather_S100000x64_S1700000x1_S1700000x64_1_0_n_n_0_1_164_wf j idx
theorem scatterR64 (j : (⟨2, ![1700000, 64]⟩ : Shape).Idx) (idx : IVec ⟨2, ![1700000, 1]⟩ 32)
    (i : (⟨2, ![100000, 64]⟩ : Shape).Idx)
    (h : Cert.ReferenceIdeal.scatter_S100000x64_S1700000x1_S1700000x64_1_0_0_1.resultIdx? j idx = some i) :
    (idx (ix2 (j 0) (0 : Fin 1))).toInt = ((i 0).val : Int) :=
  rowsScatter_resultIdx Cert.ReferenceIdeal.Facts₀.scatter_S100000x64_S1700000x1_S1700000x64_1_0_0_1_wf j idx i h
theorem scatterKR64 (j : (⟨2, ![1700000, 64]⟩ : Shape).Idx) (idx : IVec ⟨2, ![1700000, 1]⟩ 32) :
    Cert.KernelIdeal.scatter_S100000x64_S1700000x1_S1700000x64_1_0_0_1.resultIdx? j idx
      = Cert.ReferenceIdeal.scatter_S100000x64_S1700000x1_S1700000x64_1_0_0_1.resultIdx? j idx := rfl

/-! ## The layer with `tanh`, rows of 128 entries -/

section L128

variable (d : FVec Ideal Cert.ReferenceIdeal.S100000 .f32) (v3 v6 : IVec Cert.ReferenceIdeal.S1700000 32)
  (dcol : FVec Ideal Cert.KernelIdeal.S100000x1 .f32)
  (xl rows : FVec Ideal Cert.ReferenceIdeal.S100000x128 .f32) (b : FVec Ideal Cert.ReferenceIdeal.S128 .f32)

/-- The kernel's summed rows, its host operations spelt out (as arrays: no index yet). -/
theorem kernel_fn :
    Cert.KernelIdeal.Term.agg128 rows v3 v6
      = Ideal.hostScatterAdd Cert.KernelIdeal.scatter_S100000x128_S1700000x1_S1700000x128_1_0_0_1
          (broadcastInDim Cert.KernelIdeal.S100000x128 ![] Cert.KernelIdeal.Facts₀.bcast_S_S100000x128 (constant (F := Ideal) Cert.KernelIdeal.S_ .f32 0x00000000#32))
          (broadcastInDim Cert.KernelIdeal.S1700000x1 ![0] Cert.KernelIdeal.Facts₀.bcast_S1700000_S1700000x1_0 v6)
          (Host.gather Cert.KernelIdeal.gather_S100000x128_S1700000x1_S1700000x128_1_0_n_n_0_1_1128 rows
            (broadcastInDim Cert.KernelIdeal.S1700000x1 ![0] Cert.KernelIdeal.Facts₀.bcast_S1700000_S1700000x1_0
              (select (cmpi .slt v3 (broadcastInDim Cert.KernelIdeal.S1700000 ![] Cert.KernelIdeal.Facts₀.bcast_S_S1700000 (constantI Cert.KernelIdeal.S_ 32 0#32)))
                (addi v3 (broadcastInDim Cert.KernelIdeal.S1700000 ![] Cert.KernelIdeal.Facts₀.bcast_S_S1700000 (constantI Cert.KernelIdeal.S_ 32 100000#32))) v3))) := by
  unfold Cert.KernelIdeal.Term.agg128 Host.scatterAdd
  rw [Ideal.hostScatterAdd_def]

/-- The reference's layer at an index: its summed weighted messages plus the bias entry. -/
theorem reference_at (i : Cert.ReferenceIdeal.S100000x128.Idx) :
    Cert.ReferenceIdeal.Term.layer128Of xl d v3 v6 b i
      = Ideal.hostScatterAdd Cert.ReferenceIdeal.scatter_S100000x128_S1700000x1_S1700000x128_1_0_0_1
          (broadcastInDim Cert.ReferenceIdeal.S100000x128 ![] Cert.ReferenceIdeal.Facts₀.bcast_S_S100000x128 (constant (F := Ideal) Cert.ReferenceIdeal.S_ .f32 0x00000000#32))
          (broadcastInDim Cert.ReferenceIdeal.S1700000x1 ![0] Cert.ReferenceIdeal.Facts₀.bcast_S1700000_S1700000x1_0 v6)
          (mulf (Host.gather Cert.ReferenceIdeal.gather_S100000x128_S1700000x1_S1700000x128_1_0_n_n_0_1_1128 xl (Cert.ReferenceIdeal.Term.wrapped v3))
            (broadcastInDim Cert.ReferenceIdeal.S1700000x128 ![0, 1] Cert.ReferenceIdeal.Facts₀.bcast_S1700000x1_S1700000x128_0_1
              (broadcastInDim Cert.ReferenceIdeal.S1700000x1 ![0] Cert.ReferenceIdeal.Facts₀.bcast_S1700000_S1700000x1_0
                (Cert.ReferenceIdeal.Term.normOf d v3 v6)))) i
        + b (ix1 (i 1)) := by
  have hb : broadcastInDim Cert.ReferenceIdeal.S100000x128 ![0, 1] Cert.ReferenceIdeal.Facts₀.bcast_S1x128_S100000x128_0_1
      (broadcastInDim Cert.ReferenceIdeal.S1x128 ![1] Cert.ReferenceIdeal.Facts₀.bcast_S128_S1x128_1 b) i = b (ix1 (i 1)) := by
    rw [eq_ix2 i]; exact bias_apply _ _ b (i 0) (i 1)
  unfold Cert.ReferenceIdeal.Term.layer128Of Host.scatterAdd
  rw [addf_apply, hb, Ideal.hostScatterAdd_def]

theorem zerosK_at (i : Cert.KernelIdeal.S100000x128.Idx) :
    broadcastInDim Cert.KernelIdeal.S100000x128 ![] Cert.KernelIdeal.Facts₀.bcast_S_S100000x128
      (constant (F := Ideal) Cert.KernelIdeal.S_ .f32 0x00000000#32) i = 0 := by
  show Ideal.ofBits .f32 0x00000000#32 = 0
  exact Ideal.ofBits_zero_f32
theorem zerosR_at (i : Cert.ReferenceIdeal.S100000x128.Idx) :
    broadcastInDim Cert.ReferenceIdeal.S100000x128 ![] Cert.ReferenceIdeal.Facts₀.bcast_S_S100000x128
      (constant (F := Ideal) Cert.ReferenceIdeal.S_ .f32 0x00000000#32) i = 0 := by
  show Ideal.ofBits .f32 0x00000000#32 = 0
  exact Ideal.ofBits_zero_f32

/-- A weighted message at an index: the gathered row entry times its source's weight times its target's. -/
theorem msg_at (j : Cert.ReferenceIdeal.S1700000x128.Idx) :
    mulf (Host.gather Cert.ReferenceIdeal.gather_S100000x128_S1700000x1_S1700000x128_1_0_n_n_0_1_1128 xl (Cert.ReferenceIdeal.Term.wrapped v3))
        (broadcastInDim Cert.ReferenceIdeal.S1700000x128 ![0, 1] Cert.ReferenceIdeal.Facts₀.bcast_S1700000x1_S1700000x128_0_1
          (broadcastInDim Cert.ReferenceIdeal.S1700000x1 ![0] Cert.ReferenceIdeal.Facts₀.bcast_S1700000_S1700000x1_0
            (Cert.ReferenceIdeal.Term.normOf d v3 v6))) j
      = Host.gather Cert.ReferenceIdeal.gather_S100000x128_S1700000x1_S1700000x128_1_0_n_n_0_1_1128 xl (Cert.ReferenceIdeal.Term.wrapped v3) j *
        (Host.gather Cert.ReferenceIdeal.gather_S100000_S1700000x1_S1700000_n_0_n_n_0_1_1 d (Cert.ReferenceIdeal.Term.wrapped v3) (ix1 (j 0)) *
          Host.gather Cert.ReferenceIdeal.gather_S100000_S1700000x1_S1700000_n_0_n_n_0_1_1 d (Cert.ReferenceIdeal.Term.wrapped v6) (ix1 (j 0))) := by
  have hw : broadcastInDim Cert.ReferenceIdeal.S1700000x128 ![0, 1] Cert.ReferenceIdeal.Facts₀.bcast_S1700000x1_S1700000x128_0_1
        (broadcastInDim Cert.ReferenceIdeal.S1700000x1 ![0] Cert.ReferenceIdeal.Facts₀.bcast_S1700000_S1700000x1_0
          (Cert.ReferenceIdeal.Term.normOf d v3 v6)) j = Cert.ReferenceIdeal.Term.normOf d v3 v6 (ix1 (j 0)) := by
    rw [eq_ix2 j]; exact rowcol_apply _ _ (Cert.ReferenceIdeal.Term.normOf d v3 v6) (j 0) (j 1)
  rw [mulf_apply, hw]
  unfold Cert.ReferenceIdeal.Term.normOf
  rw [mulf_apply]

theorem target_kept (e : Fin 1700000) (n : Fin 100000)
    (h : (broadcastInDim Cert.ReferenceIdeal.S1700000x1 ![0] Cert.ReferenceIdeal.Facts₀.bcast_S1700000_S1700000x1_0 v6 (ix2 e (0 : Fin 1))).toInt = (n.val : Int)) :
    clampNode 100000 (by norm_num) (Cert.ReferenceIdeal.Term.wrapped v6 (ix2 e (0 : Fin 1))) = n :=
  wrapped_target Cert.ReferenceIdeal.Facts₀.bcast_S_S1700000 Cert.ReferenceIdeal.Facts₀.bcast_S1700000_S1700000x1_0 v6 e n h

/-- The kernel's layer as an array, its summed rows spelt out. -/
theorem kernel_side :
    scaleBiasTanh (n := 100000) (d := 128) (Cert.KernelIdeal.Term.agg128 rows v3 v6) dcol b
      = fun i => Ideal.tanh (dcol (ix2 (i 0) (0 : Fin 1)) *
          Ideal.hostScatterAdd Cert.KernelIdeal.scatter_S100000x128_S1700000x1_S1700000x128_1_0_0_1
            (broadcastInDim Cert.KernelIdeal.S100000x128 ![] Cert.KernelIdeal.Facts₀.bcast_S_S100000x128 (constant (F := Ideal) Cert.KernelIdeal.S_ .f32 0x00000000#32))
            (broadcastInDim Cert.KernelIdeal.S1700000x1 ![0] Cert.KernelIdeal.Facts₀.bcast_S1700000_S1700000x1_0 v6)
            (Host.gather Cert.KernelIdeal.gather_S100000x128_S1700000x1_S1700000x128_1_0_n_n_0_1_1128 rows
            (broadcastInDim Cert.KernelIdeal.S1700000x1 ![0] Cert.KernelIdeal.Facts₀.bcast_S1700000_S1700000x1_0
              (select (cmpi .slt v3 (broadcastInDim Cert.KernelIdeal.S1700000 ![] Cert.KernelIdeal.Facts₀.bcast_S_S1700000 (constantI Cert.KernelIdeal.S_ 32 0#32)))
                (addi v3 (broadcastInDim Cert.KernelIdeal.S1700000 ![] Cert.KernelIdeal.Facts₀.bcast_S_S1700000 (constantI Cert.KernelIdeal.S_ 32 100000#32))) v3))) i + b (ix1 (i 1))) := by
  rw [kernel_fn]
  rfl

/-- `tanh` of an array, entry by entry. -/
theorem tanh_fn (Y : FVec Ideal Cert.ReferenceIdeal.S100000x128 .f32) : Host.tanh Y = fun i => Ideal.tanh (Y i) := rfl

/-- The reference's layer before `tanh`, as an array. -/
theorem reference_fn :
    Cert.ReferenceIdeal.Term.layer128Of xl d v3 v6 b
      = fun i => Ideal.hostScatterAdd Cert.ReferenceIdeal.scatter_S100000x128_S1700000x1_S1700000x128_1_0_0_1
            (broadcastInDim Cert.ReferenceIdeal.S100000x128 ![] Cert.ReferenceIdeal.Facts₀.bcast_S_S100000x128 (constant (F := Ideal) Cert.ReferenceIdeal.S_ .f32 0x00000000#32))
            (broadcastInDim Cert.ReferenceIdeal.S1700000x1 ![0] Cert.ReferenceIdeal.Facts₀.bcast_S1700000_S1700000x1_0 v6)
            (mulf (Host.gather Cert.ReferenceIdeal.gather_S100000x128_S1700000x1_S1700000x128_1_0_n_n_0_1_1128 xl (Cert.ReferenceIdeal.Term.wrapped v3))
            (broadcastInDim Cert.ReferenceIdeal.S1700000x128 ![0, 1] Cert.ReferenceIdeal.Facts₀.bcast_S1700000x1_S1700000x128_0_1
              (broadcastInDim Cert.ReferenceIdeal.S1700000x1 ![0] Cert.ReferenceIdeal.Facts₀.bcast_S1700000_S1700000x1_0
                (Cert.ReferenceIdeal.Term.normOf d v3 v6)))) i + b (ix1 (i 1)) :=
  funext fun i => reference_at d v3 v6 xl b i

/-- The reference's layer as an array. -/
theorem reference_side :
    Host.tanh (Cert.ReferenceIdeal.Term.layer128Of xl d v3 v6 b)
      = fun i => Ideal.tanh (Ideal.hostScatterAdd Cert.ReferenceIdeal.scatter_S100000x128_S1700000x1_S1700000x128_1_0_0_1
            (broadcastInDim Cert.ReferenceIdeal.S100000x128 ![] Cert.ReferenceIdeal.Facts₀.bcast_S_S100000x128 (constant (F := Ideal) Cert.ReferenceIdeal.S_ .f32 0x00000000#32))
            (broadcastInDim Cert.ReferenceIdeal.S1700000x1 ![0] Cert.ReferenceIdeal.Facts₀.bcast_S1700000_S1700000x1_0 v6)
            (mulf (Host.gather Cert.ReferenceIdeal.gather_S100000x128_S1700000x1_S1700000x128_1_0_n_n_0_1_1128 xl (Cert.ReferenceIdeal.Term.wrapped v3))
            (broadcastInDim Cert.ReferenceIdeal.S1700000x128 ![0, 1] Cert.ReferenceIdeal.Facts₀.bcast_S1700000x1_S1700000x128_0_1
              (broadcastInDim Cert.ReferenceIdeal.S1700000x1 ![0] Cert.ReferenceIdeal.Facts₀.bcast_S1700000_S1700000x1_0
                (Cert.ReferenceIdeal.Term.normOf d v3 v6)))) i + b (ix1 (i 1))) := by
  rw [reference_fn, tanh_fn]

/-- THE LAYER WITH `tanh`, for any weights and messages. -/
theorem layer128_core (hd : ∀ n, 0 ≤ d n ∧ d n ≠ ⊤) (hcol : ∀ n : Fin 100000, dcol (ix2 n (0 : Fin 1)) = d (ix1 n))
    (hrows : ∀ r, rows r = dcol (ix2 (r 0) (0 : Fin 1)) * xl r) :
    scaleBiasTanh (n := 100000) (d := 128) (Cert.KernelIdeal.Term.agg128 rows v3 v6) dcol b
      = Host.tanh (Cert.ReferenceIdeal.Term.layer128Of xl d v3 v6 b) := by
  rw [kernel_side, reference_side]
  funext i
  exact congrArg Ideal.tanh (congrArg (· + b (ix1 (i 1)))
    (aggregate_of (by norm_num) _ _ _ _ _ gatherK128 gatherR128 gatherR1 scatterR128 scatterKR128 xl d hd
      _ (Cert.ReferenceIdeal.Term.wrapped v3) _ _ (Cert.ReferenceIdeal.Term.wrapped v6) rfl rfl (target_kept v6)
      dcol hcol rows hrows _ _ zerosK_at zerosR_at _ (msg_at d v3 v6 xl) i))

end L128

/-! ## The layer without `tanh`, rows of 64 entries -/

section L64

variable (d : FVec Ideal Cert.ReferenceIdeal.S100000 .f32) (v3 v6 : IVec Cert.ReferenceIdeal.S1700000 32)
  (dcol : FVec Ideal Cert.KernelIdeal.S100000x1 .f32)
  (xl rows : FVec Ideal Cert.ReferenceIdeal.S100000x64 .f32) (b : FVec Ideal Cert.ReferenceIdeal.S64 .f32)

/-- The kernel's summed rows, its host operations spelt out (as arrays: no index yet). -/
theorem kernel_fn64 :
    Cert.KernelIdeal.Term.agg64 rows v3 v6
      = Ideal.hostScatterAdd Cert.KernelIdeal.scatter_S100000x64_S1700000x1_S1700000x64_1_0_0_1
          (broadcastInDim Cert.KernelIdeal.S100000x64 ![] Cert.KernelIdeal.Facts₀.bcast_S_S100000x64 (constant (F := Ideal) Cert.KernelIdeal.S_ .f32 0x00000000#32))
          (broadcastInDim Cert.KernelIdeal.S1700000x1 ![0] Cert.KernelIdeal.Facts₀.bcast_S1700000_S1700000x1_0 v6)
          (Host.gather Cert.KernelIdeal.gather_S100000x64_S1700000x1_S1700000x64_1_0_n_n_0_1_164 rows
            (broadcastInDim Cert.KernelIdeal.S1700000x1 ![0] Cert.KernelIdeal.Facts₀.bcast_S1700000_S1700000x1_0
              (select (cmpi .slt v3 (broadcastInDim Cert.KernelIdeal.S1700000 ![] Cert.KernelIdeal.Facts₀.bcast_S_S1700000 (constantI Cert.KernelIdeal.S_ 32 0#32)))
                (addi v3 (broadcastInDim Cert.KernelIdeal.S1700000 ![] Cert.KernelIdeal.Facts₀.bcast_S_S1700000 (constantI Cert.KernelIdeal.S_ 32 100000#32))) v3))) := by
  unfold Cert.KernelIdeal.Term.agg64 Host.scatterAdd
  rw [Ideal.hostScatterAdd_def]

/-- The reference's layer at an index: its summed weighted messages plus the bias entry. -/
theorem reference_at64 (i : Cert.ReferenceIdeal.S100000x64.Idx) :
    Cert.ReferenceIdeal.Term.layer64Of xl d v3 v6 b i
      = Ideal.hostScatterAdd Cert.ReferenceIdeal.scatter_S100000x64_S1700000x1_S1700000x64_1_0_0_1
          (broadcastInDim Cert.ReferenceIdeal.S100000x64 ![] Cert.ReferenceIdeal.Facts₀.bcast_S_S100000x64 (constant (F := Ideal) Cert.ReferenceIdeal.S_ .f32 0x00000000#32))
          (broadcastInDim Cert.ReferenceIdeal.S1700000x1 ![0] Cert.ReferenceIdeal.Facts₀.bcast_S1700000_S1700000x1_0 v6)
          (mulf (Host.gather Cert.ReferenceIdeal.gather_S100000x64_S1700000x1_S1700000x64_1_0_n_n_0_1_164 xl (Cert.ReferenceIdeal.Term.wrapped v3))
            (broadcastInDim Cert.ReferenceIdeal.S1700000x64 ![0, 1] Cert.ReferenceIdeal.Facts₀.bcast_S1700000x1_S1700000x64_0_1
              (broadcastInDim Cert.ReferenceIdeal.S1700000x1 ![0] Cert.ReferenceIdeal.Facts₀.bcast_S1700000_S1700000x1_0
                (Cert.ReferenceIdeal.Term.normOf d v3 v6)))) i
        + b (ix1 (i 1)) := by
  have hb : broadcastInDim Cert.ReferenceIdeal.S100000x64 ![0, 1] Cert.ReferenceIdeal.Facts₀.bcast_S1x64_S100000x64_0_1
      (broadcastInDim Cert.ReferenceIdeal.S1x64 ![1] Cert.ReferenceIdeal.Facts₀.bcast_S64_S1x64_1 b) i = b (ix1 (i 1)) := by
    rw [eq_ix2 i]; exact bias_apply _ _ b (i 0) (i 1)
  unfold Cert.ReferenceIdeal.Term.layer64Of Host.scatterAdd
  rw [addf_apply, hb, Ideal.hostScatterAdd_def]

theorem zerosK_at64 (i : Cert.KernelIdeal.S100000x64.Idx) :
    broadcastInDim Cert.KernelIdeal.S100000x64 ![] Cert.KernelIdeal.Facts₀.bcast_S_S100000x64
      (constant (F := Ideal) Cert.KernelIdeal.S_ .f32 0x00000000#32) i = 0 := by
  show Ideal.ofBits .f32 0x00000000#32 = 0
  exact Ideal.ofBits_zero_f32
theorem zerosR_at64 (i : Cert.ReferenceIdeal.S100000x64.Idx) :
    broadcastInDim Cert.ReferenceIdeal.S100000x64 ![] Cert.ReferenceIdeal.Facts₀.bcast_S_S100000x64
      (constant (F := Ideal) Cert.ReferenceIdeal.S_ .f32 0x00000000#32) i = 0 := by
  show Ideal.ofBits .f32 0x00000000#32 = 0
  exact Ideal.ofBits_zero_f32

/-- A weighted message at an index: the gathered row entry times its source's weight times its target's. -/
theorem msg_at64 (j : Cert.ReferenceIdeal.S1700000x64.Idx) :
    mulf (Host.gather Cert.ReferenceIdeal.gather_S100000x64_S1700000x1_S1700000x64_1_0_n_n_0_1_164 xl (Cert.ReferenceIdeal.Term.wrapped v3))
        (broadcastInDim Cert.ReferenceIdeal.S1700000x64 ![0, 1] Cert.ReferenceIdeal.Facts₀.bcast_S1700000x1_S1700000x64_0_1
          (broadcastInDim Cert.ReferenceIdeal.S1700000x1 ![0] Cert.ReferenceIdeal.Facts₀.bcast_S1700000_S1700000x1_0
            (Cert.ReferenceIdeal.Term.normOf d v3 v6))) j
      = Host.gather Cert.ReferenceIdeal.gather_S100000x64_S1700000x1_S1700000x64_1_0_n_n_0_1_164 xl (Cert.ReferenceIdeal.Term.wrapped v3) j *
        (Host.gather Cert.ReferenceIdeal.gather_S100000_S1700000x1_S1700000_n_0_n_n_0_1_1 d (Cert.ReferenceIdeal.Term.wrapped v3) (ix1 (j 0)) *
          Host.gather Cert.ReferenceIdeal.gather_S100000_S1700000x1_S1700000_n_0_n_n_0_1_1 d (Cert.ReferenceIdeal.Term.wrapped v6) (ix1 (j 0))) := by
  have hw : broadcastInDim Cert.ReferenceIdeal.S1700000x64 ![0, 1] Cert.ReferenceIdeal.Facts₀.bcast_S1700000x1_S1700000x64_0_1
        (broadcastInDim Cert.ReferenceIdeal.S1700000x1 ![0] Cert.ReferenceIdeal.Facts₀.bcast_S1700000_S1700000x1_0
          (Cert.ReferenceIdeal.Term.normOf d v3 v6)) j = Cert.ReferenceIdeal.Term.normOf d v3 v6 (ix1 (j 0)) := by
    rw [eq_ix2 j]; exact rowcol_apply _ _ (Cert.ReferenceIdeal.Term.normOf d v3 v6) (j 0) (j 1)
  rw [mulf_apply, hw]
  unfold Cert.ReferenceIdeal.Term.normOf
  rw [mulf_apply]

theorem target_kept64 (e : Fin 1700000) (n : Fin 100000)
    (h : (broadcastInDim Cert.ReferenceIdeal.S1700000x1 ![0] Cert.ReferenceIdeal.Facts₀.bcast_S1700000_S1700000x1_0 v6 (ix2 e (0 : Fin 1))).toInt = (n.val : Int)) :
    clampNode 100000 (by norm_num) (Cert.ReferenceIdeal.Term.wrapped v6 (ix2 e (0 : Fin 1))) = n :=
  wrapped_target Cert.ReferenceIdeal.Facts₀.bcast_S_S1700000 Cert.ReferenceIdeal.Facts₀.bcast_S1700000_S1700000x1_0 v6 e n h

/-- The kernel's layer as an array, its summed rows spelt out. -/
theorem kernel_side64 :
    scaleBias (n := 100000) (d := 64) (Cert.KernelIdeal.Term.agg64 rows v3 v6) dcol b
      = fun i => (dcol (ix2 (i 0) (0 : Fin 1)) *
          Ideal.hostScatterAdd Cert.KernelIdeal.scatter_S100000x64_S1700000x1_S1700000x64_1_0_0_1
            (broadcastInDim Cert.KernelIdeal.S100000x64 ![] Cert.KernelIdeal.Facts₀.bcast_S_S100000x64 (constant (F := Ideal) Cert.KernelIdeal.S_ .f32 0x00000000#32))
            (broadcastInDim Cert.KernelIdeal.S1700000x1 ![0] Cert.KernelIdeal.Facts₀.bcast_S1700000_S1700000x1_0 v6)
            (Host.gather Cert.KernelIdeal.gather_S100000x64_S1700000x1_S1700000x64_1_0_n_n_0_1_164 rows
            (broadcastInDim Cert.KernelIdeal.S1700000x1 ![0] Cert.KernelIdeal.Facts₀.bcast_S1700000_S1700000x1_0
              (select (cmpi .slt v3 (broadcastInDim Cert.KernelIdeal.S1700000 ![] Cert.KernelIdeal.Facts₀.bcast_S_S1700000 (constantI Cert.KernelIdeal.S_ 32 0#32)))
                (addi v3 (broadcastInDim Cert.KernelIdeal.S1700000 ![] Cert.KernelIdeal.Facts₀.bcast_S_S1700000 (constantI Cert.KernelIdeal.S_ 32 100000#32))) v3))) i + b (ix1 (i 1))) := by
  rw [kernel_fn64]
  rfl

/-- The reference's layer as an array. -/
theorem reference_fn64 :
    Cert.ReferenceIdeal.Term.layer64Of xl d v3 v6 b
      = fun i => Ideal.hostScatterAdd Cert.ReferenceIdeal.scatter_S100000x64_S1700000x1_S1700000x64_1_0_0_1
            (broadcastInDim Cert.ReferenceIdeal.S100000x64 ![] Cert.ReferenceIdeal.Facts₀.bcast_S_S100000x64 (constant (F := Ideal) Cert.ReferenceIdeal.S_ .f32 0x00000000#32))
            (broadcastInDim Cert.ReferenceIdeal.S1700000x1 ![0] Cert.ReferenceIdeal.Facts₀.bcast_S1700000_S1700000x1_0 v6)
            (mulf (Host.gather Cert.ReferenceIdeal.gather_S100000x64_S1700000x1_S1700000x64_1_0_n_n_0_1_164 xl (Cert.ReferenceIdeal.Term.wrapped v3))
            (broadcastInDim Cert.ReferenceIdeal.S1700000x64 ![0, 1] Cert.ReferenceIdeal.Facts₀.bcast_S1700000x1_S1700000x64_0_1
              (broadcastInDim Cert.ReferenceIdeal.S1700000x1 ![0] Cert.ReferenceIdeal.Facts₀.bcast_S1700000_S1700000x1_0
                (Cert.ReferenceIdeal.Term.normOf d v3 v6)))) i + b (ix1 (i 1)) :=
  funext fun i => reference_at64 d v3 v6 xl b i

/-- THE LAYER WITHOUT `tanh`, for any weights and messages. -/
theorem layer64_core (hd : ∀ n, 0 ≤ d n ∧ d n ≠ ⊤) (hcol : ∀ n : Fin 100000, dcol (ix2 n (0 : Fin 1)) = d (ix1 n))
    (hrows : ∀ r, rows r = dcol (ix2 (r 0) (0 : Fin 1)) * xl r) :
    scaleBias (n := 100000) (d := 64) (Cert.KernelIdeal.Term.agg64 rows v3 v6) dcol b
      = Cert.ReferenceIdeal.Term.layer64Of xl d v3 v6 b := by
  rw [kernel_side64, reference_fn64]
  funext i
  exact congrArg (· + b (ix1 (i 1)))
    (aggregate_of (by norm_num) _ _ _ _ _ gatherK64 gatherR64 gatherR1 scatterR64 scatterKR64 xl d hd
      _ (Cert.ReferenceIdeal.Term.wrapped v3) _ _ (Cert.ReferenceIdeal.Term.wrapped v6) rfl rfl (target_kept64 v6)
      dcol hcol rows hrows _ _ zerosK_at64 zerosR_at64 _ (msg_at64 d v3 v6 xl) i)

end L64

/-! ## The program's layers: the weights and the messages are the prelude's -/

theorem pre_src (x2 : IVec Cert.KernelIdeal.S2x1600000 32) : Cert.KernelIdeal.Term.src1 x2 = Cert.ReferenceIdeal.Term.src1 x2 := rfl
theorem pre_dst (x2 : IVec Cert.KernelIdeal.S2x1600000 32) : Cert.KernelIdeal.Term.dst1 x2 = Cert.ReferenceIdeal.Term.dst1 x2 := rfl
theorem pre_dinv (x2 : IVec Cert.KernelIdeal.S2x1600000 32) : Cert.KernelIdeal.Term.dinv x2 = Cert.ReferenceIdeal.Term.dinv x2 := rfl

/-- The scaling column holds the weights. -/
theorem dcol_at (x2 : IVec Cert.KernelIdeal.S2x1600000 32) (n : Fin 100000) :
    Cert.KernelIdeal.Term.dcol x2 (ix2 n (0 : Fin 1)) = Cert.KernelIdeal.Term.dinv x2 (ix1 n) :=
  col_apply Cert.KernelIdeal.Facts₀.bcast_S100000_S100000x1_0 (Cert.KernelIdeal.Term.dinv x2) n

theorem layer128 (x2 : IVec Cert.KernelIdeal.S2x1600000 32) (xl rows : FVec Ideal Cert.KernelIdeal.S100000x128 .f32)
    (b : FVec Ideal Cert.KernelIdeal.S128 .f32)
    (hrows : ∀ r, rows r = Cert.KernelIdeal.Term.dcol x2 (ix2 (r 0) (0 : Fin 1)) * xl r) :
    scaleBiasTanh (n := 100000) (d := 128)
        (Cert.KernelIdeal.Term.agg128 rows (Cert.KernelIdeal.Term.src1 x2) (Cert.KernelIdeal.Term.dst1 x2)) (Cert.KernelIdeal.Term.dcol x2) b
      = Host.tanh (Cert.ReferenceIdeal.Term.layer128 xl x2 b) := by
  have h := layer128_core (Cert.KernelIdeal.Term.dinv x2) (Cert.KernelIdeal.Term.src1 x2) (Cert.KernelIdeal.Term.dst1 x2)
    (Cert.KernelIdeal.Term.dcol x2) xl rows b (dinv_nonneg_real x2) (dcol_at x2) hrows
  unfold Cert.ReferenceIdeal.Term.layer128
  rw [← pre_dinv, ← pre_src, ← pre_dst]
  exact h

theorem layer64 (x2 : IVec Cert.KernelIdeal.S2x1600000 32) (xl rows : FVec Ideal Cert.KernelIdeal.S100000x64 .f32)
    (b : FVec Ideal Cert.KernelIdeal.S64 .f32)
    (hrows : ∀ r, rows r = Cert.KernelIdeal.Term.dcol x2 (ix2 (r 0) (0 : Fin 1)) * xl r) :
    scaleBias (n := 100000) (d := 64)
        (Cert.KernelIdeal.Term.agg64 rows (Cert.KernelIdeal.Term.src1 x2) (Cert.KernelIdeal.Term.dst1 x2)) (Cert.KernelIdeal.Term.dcol x2) b
      = Cert.ReferenceIdeal.Term.layer64 xl x2 b := by
  have h := layer64_core (Cert.KernelIdeal.Term.dinv x2) (Cert.KernelIdeal.Term.src1 x2) (Cert.KernelIdeal.Term.dst1 x2)
    (Cert.KernelIdeal.Term.dcol x2) xl rows b (dinv_nonneg_real x2) (dcol_at x2) hrows
  unfold Cert.ReferenceIdeal.Term.layer64
  rw [← pre_dinv, ← pre_src, ← pre_dst]
  exact h

end Cert.LayerCore

end
-- ==== Proof.Bridge.lean ====
/-
  The idealized kernel's result term and the reference's are one function of the argument arrays.

  Both programs compute the same prelude (the messages' sources and targets, the weights `dinv`). Layer by layer, the
  kernel scales the rows of `x · W` by `dinv` before they are gathered and summed, and scales the sums by `dinv` after;
  the reference multiplies every gathered row by `dinv (source) * dinv (target)` and sums. The two agree entry by entry
  because `dinv` is a nonnegative real (so it moves out of the sum over a node's incoming messages, whatever the
  summands) and because a message that the sum keeps has a node's number as its target, which the wrapping and clamping
  of the reference's second look-up leave alone. Layer three also splits the product with the stacked weight matrix into
  its two halves. Nothing here uses that the inputs are finite.
-/
import proofs.«114380_j16286515987229_2_alg».proof.Proof.KernelTerm
import proofs.«114380_j16286515987229_2_alg».proof.Proof.RefTerm
import proofs.«114380_j16286515987229_2_alg».proof.Proof.RefReadP
import proofs.«114380_j16286515987229_2_alg».proof.Proof.DotBridge
import proofs.«114380_j16286515987229_2_alg».proof.Proof.LayerCore

noncomputable section

namespace Cert.Bridge

open Idealize.ShloMosaic Idealize.ShloMosaic.ValueIdx
open Cert.ReferenceIdeal Cert.ReferenceIdeal.ReadP

variable (x0 : FVec Ideal S100000x256 .f32) (x1 : FVec Ideal S100000x64 .f32) (x2 : IVec S2x1600000 32)
  (x3 : FVec Ideal S256x128 .f32) (x4 : FVec Ideal S128 .f32) (x5 : FVec Ideal S64x128 .f32) (x6 : FVec Ideal S128 .f32)
  (x7 : FVec Ideal S256x128 .f32) (x8 : FVec Ideal S128 .f32) (x9 : FVec Ideal S128x64 .f32) (x10 : FVec Ideal S64 .f32)

/-! ## The reference's stages are its layers -/

theorem ref_layer1 : val_main_v47 (F := Ideal) x0 x2 x3 x4
    = Host.tanh (Cert.ReferenceIdeal.Term.layer128 (val_main_v30 (F := Ideal) x0 x3) x2 x4) := rfl
theorem ref_layer2 : val_main_v65 (F := Ideal) x1 x2 x5 x6
    = Host.tanh (Cert.ReferenceIdeal.Term.layer128 (val_main_v48 (F := Ideal) x1 x5) x2 x6) := rfl
theorem ref_layer3 : val_main_v84 (F := Ideal) x0 x1 x2 x3 x4 x5 x6 x7 x8
    = Host.tanh (Cert.ReferenceIdeal.Term.layer128 (val_main_v67 (F := Ideal) x0 x1 x2 x3 x4 x5 x6 x7) x2 x8) := rfl
theorem ref_layer4 : val_main_v101 (F := Ideal) x0 x1 x2 x3 x4 x5 x6 x7 x8 x9 x10
    = Cert.ReferenceIdeal.Term.layer64 (val_main_v85 (F := Ideal) x0 x1 x2 x3 x4 x5 x6 x7 x8 x9) x2 x10 := rfl

/-! ## Layer by layer -/

theorem layer1_eq : Cert.KernelIdeal.Term.layer1 x0 x2 x3 x4 = val_main_v47 (F := Ideal) x0 x2 x3 x4 := by
  rw [ref_layer1]
  exact Cert.LayerCore.layer128 x2 (val_main_v30 (F := Ideal) x0 x3) (Cert.KernelIdeal.Term.rows1 x0 x2 x3) x4
    (fun r => Cert.DotBridge.prod1 x0 x3 (Cert.KernelIdeal.Term.dcol x2) r)

theorem layer2_eq : Cert.KernelIdeal.Term.layer2 x1 x2 x5 x6 = val_main_v65 (F := Ideal) x1 x2 x5 x6 := by
  rw [ref_layer2]
  exact Cert.LayerCore.layer128 x2 (val_main_v48 (F := Ideal) x1 x5) (Cert.KernelIdeal.Term.rows2 x1 x2 x5) x6
    (fun r => Cert.DotBridge.prod2 x1 x5 (Cert.KernelIdeal.Term.dcol x2) r)

theorem layer3_eq : Cert.KernelIdeal.Term.layer3 x0 x1 x2 x3 x4 x5 x6 x7 x8
    = val_main_v84 (F := Ideal) x0 x1 x2 x3 x4 x5 x6 x7 x8 := by
  rw [ref_layer3]
  refine Cert.LayerCore.layer128 x2 (val_main_v67 (F := Ideal) x0 x1 x2 x3 x4 x5 x6 x7)
    (Cert.KernelIdeal.Term.rows3 x0 x1 x2 x3 x4 x5 x6 x7) x8 (fun r => ?_)
  unfold Cert.KernelIdeal.Term.rows3
  rw [layer1_eq, layer2_eq]
  exact Cert.DotBridge.prod3 (val_main_v47 (F := Ideal) x0 x2 x3 x4) (val_main_v65 (F := Ideal) x1 x2 x5 x6) x7
    (Cert.KernelIdeal.Term.dcol x2) r

/-- THE TWO RESULT TERMS ARE EQUAL, for all argument arrays. -/
theorem result_eq : Cert.KernelIdeal.Term.layer4 x0 x1 x2 x3 x4 x5 x6 x7 x8 x9 x10
    = val_main_v101 (F := Ideal) x0 x1 x2 x3 x4 x5 x6 x7 x8 x9 x10 := by
  rw [ref_layer4]
  refine Cert.LayerCore.layer64 x2 (val_main_v85 (F := Ideal) x0 x1 x2 x3 x4 x5 x6 x7 x8 x9)
    (Cert.KernelIdeal.Term.rows4 x0 x1 x2 x3 x4 x5 x6 x7 x8 x9) x10 (fun r => ?_)
  unfold Cert.KernelIdeal.Term.rows4
  rw [layer3_eq]
  exact Cert.DotBridge.prod4 (val_main_v84 (F := Ideal) x0 x1 x2 x3 x4 x5 x6 x7 x8) x9 (Cert.KernelIdeal.Term.dcol x2) r

end Cert.Bridge

end
-- ==== Proof.lean ====
/-
  A four-layer graph convolution computed by eight kernel launches among host gathers and scatters, against its plain
  reference, as functions on extended reals.

  Each layer sums, into every node, the rows of its in-neighbours (itself included), weighted by
  `dinv (source) * dinv (target)` with `dinv = 1 / sqrt (degree)`. The reference multiplies each gathered row by that
  product and sums. The kernel folds the product into the dense stages: it scales row `j` of `x · W` by `dinv j` inside
  the matrix-product launch, sums the gathered rows, and scales the sum at node `i` by `dinv i` inside the launch that
  adds the bias and applies `tanh`. The two agree on all extended reals because `dinv`, being `1 / sqrt` of a positive
  count or `0`, is a nonnegative real, and a nonnegative real factor distributes over any finite sum of extended reals;
  the rest is commutativity and associativity of the product and, in the third layer, splitting the product with a
  stacked weight matrix into its halves. The precondition that the inputs are finite is not used.

  The three frames are the generated frame runs (the reference's is its run with the result dropped); the idealization
  rewrote nothing, so `preserves` is trivial; `algebraic` puts the kernel's run, read to its result term
  (`Chain.result`), beside the reference's run, read to its (`val_main_v101_eq`), and joins the two terms by `Bridge.result_eq`.
-/
import proofs.«114380_j16286515987229_2_alg».proof.Defs
import proofs.«114380_j16286515987229_2_alg».proof.Proof.Gen.Kernel
import proofs.«114380_j16286515987229_2_alg».proof.Proof.Gen.Kernel.Skeleton
import proofs.«114380_j16286515987229_2_alg».proof.Proof.Gen.Kernel.Launch
import proofs.«114380_j16286515987229_2_alg».proof.Proof.Gen.Kernel.Points
import proofs.«114380_j16286515987229_2_alg».proof.Proof.Gen.Kernel.Frame
import proofs.«114380_j16286515987229_2_alg».proof.Proof.Gen.KernelIdeal
import proofs.«114380_j16286515987229_2_alg».proof.Proof.Gen.KernelIdeal.Skeleton
import proofs.«114380_j16286515987229_2_alg».proof.Proof.Gen.KernelIdeal.Launch
import proofs.«114380_j16286515987229_2_alg».proof.Proof.Gen.KernelIdeal.Points
import proofs.«114380_j16286515987229_2_alg».proof.Proof.Gen.KernelIdeal.Frame
import proofs.«114380_j16286515987229_2_alg».proof.Proof.Gen.ReferenceIdeal
import proofs.«114380_j16286515987229_2_alg».proof.Proof.Gen.Pre_finite_inputs
import proofs.«114380_j16286515987229_2_alg».proof.Proof.RefRunP
import proofs.«114380_j16286515987229_2_alg».proof.Proof.RefReadP
import proofs.«114380_j16286515987229_2_alg».proof.Proof.KernelRun
import proofs.«114380_j16286515987229_2_alg».proof.Proof.KernelChain
import proofs.«114380_j16286515987229_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.ValueP.run (F := Ideal) m ρ)

/-- Both runs end, the kernel's result buffer at its result term of its arguments and the reference's at its own; the
    arguments agree, and the two terms are one function. -/
theorem algebraic : Cert.algebraic_KernelIdeal_ReferenceIdeal := by
  intro m ρ m' ρ' _ hagree
  refine ⟨fun c => Cert.KernelIdeal.Term.layer4
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.Chain.result m ρ c), (h c).2⟩)
      (Cert.KernelIdeal.RunValue.run_named (F := Ideal) m ρ)
  · refine (θ_run Cert.ReferenceIdeal.defs _ _).mono (fun _ h c => ⟨(h c).1.trans ?_, (h c).2⟩)
      (Cert.ReferenceIdeal.ValueP.run (F := Ideal) m' ρ')
    obtain ⟨a0, a1, a2, a3, a4, a5, a6, a7, a8, a9, a10⟩ := hagree c
    rw [Cert.ReferenceIdeal.ReadP.val_main_v101_eq, a0, a1, a2, a3, a4, a5, a6, a7, a8, a9, a10]
    exact (Cert.Bridge.result_eq _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
